-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024 .f32) (main_arg5 : FVec F S1024x1024 .f32) (main_arg6 : FVec F S1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x16x64 : Shape := ⟨3, ![512, 16, 64]⟩
abbrev S16x512x64 : Shape := ⟨3, ![16, 512, 64]⟩
abbrev S1x1x1024x64 : Shape := ⟨4, ![1, 1, 1024, 64]⟩
abbrev S1x1x2048x64 : Shape := ⟨4, ![1, 1, 2048, 64]⟩
abbrev S64x1024 : Shape := ⟨2, ![64, 1024]⟩
abbrev S1x1024x1024 : Shape := ⟨3, ![1, 1024, 1024]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024x1 : Shape := ⟨2, ![1024, 1]⟩

abbrev nBuf : Space → Nat
  | .hbm => 21
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x3072, .f32⟩
  | .hbm, ⟨12, _⟩ => ⟨S1024x3072, .bf16⟩
  | .hbm, ⟨13, _⟩ => ⟨S3072, .f32⟩
  | .hbm, ⟨14, _⟩ => ⟨S1x3072, .f32⟩
  | .hbm, ⟨15, _⟩ => ⟨S1024x1024, .f32⟩
  | .hbm, ⟨16, _⟩ => ⟨S1024x1024, .bf16⟩
  | .hbm, ⟨17, _⟩ => ⟨S4x16x2048x64, .bf16⟩
  | .hbm, ⟨18, _⟩ => ⟨S4x16x2048x64, .bf16⟩
  | .hbm, ⟨19, _⟩ => ⟨S4x16x2048x64, .bf16⟩
  | .hbm, ⟨20, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x1x1024x64, .bf16⟩
  | .local _ .vmem, ⟨11, _⟩ => ⟨S1x1x1024x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x2048x64, .bf16⟩
  | .local _ .vmem, ⟨16, _⟩ => ⟨S64x1024, .bf16⟩
  | .local _ .vmem, ⟨17, _⟩ => ⟨S64x1024, .bf16⟩
  | .local _ .vmem, ⟨18, _⟩ => ⟨S1x1024x1024, .f32⟩
  | .local _ .vmem, ⟨19, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 2, 16], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  slices_S512x3072_o0_1024_S512x1024 : S512x3072.Slices ![0, 1024] S512x1024
  slices_S512x3072_o0_2048_S512x1024 : S512x3072.Slices ![0, 2048] S512x1024
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S2048x64_p1_0_S64x2048 : S2048x64.Transposes [1, 0] S64x2048
  iota_S1024x2048_d0_w32 : S1024x2048.Iotas .tc 32 [0]
  iota_S1024x2048_d1_w32 : S1024x2048.Iotas .tc 32 [1]
  reduces_S1024x2048_S1024 : S1024x2048.Reduces [1] S1024
  shapeCasts_S1024_S1024x1 : S1024.ShapeCasts S1024x1
  broadcasts_S1024x1_S1024x2048 : S1024x1.Broadcasts S1024x2048
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .bf16 = 32 ∨ (Rect.block (s := S4x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .bf16 = 32 ∨ (Rect.block (s := S4x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S4x16x2048x64.size a
  hwx0_5 : ∀ i : grid0.Coords, EltTy.bits .bf16 = 32 ∨ (Rect.block (s := S4x16x2048x64) S1x16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S4x16x2048x64.size a
  hwx1_0 : ∀ i : grid1.Coords, EltTy.bits .bf16 = 32 ∨ (Rect.block (s := S4x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x16x2048x64.size a
  hwx1_1 : ∀ i : grid1.Coords, EltTy.bits .bf16 = 32 ∨ (Rect.block (s := S4x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x2048x64.size a
  hwx1_2 : ∀ i : grid1.Coords, EltTy.bits .bf16 = 32 ∨ (Rect.block (s := S4x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1024.size a ≤ S1024x1024.size a
  hwx1_3 : ∀ i : grid1.Coords, EltTy.bits .bf16 = 32 ∨ (Rect.block (s := S1024x1024) S64x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x2048x1024.size a
  hwx1_4 : ∀ i : grid1.Coords, EltTy.bits .f32 = 32 ∨ (Rect.block (s := S4x2048x1024) S1x1024x1024.size (cc1_transform_4 i) (hinb1_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9_0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S1 : Shape := ⟨1, ![1]⟩
abbrev S2 : Shape := ⟨1, ![2]⟩
abbrev S4x16 : Shape := ⟨2, ![4, 16]⟩
abbrev S4x16x2048 : Shape := ⟨3, ![4, 16, 2048]⟩
abbrev S4x16x2048x1 : Shape := ⟨4, ![4, 16, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4x2048x1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x16x64, .f32⟩
  | .hbm, ⟨19, _⟩ => ⟨S4x16x2048x64, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x16x64, .f32⟩
  | .hbm, ⟨25, _⟩ => ⟨S4x16x2048x64, .f32⟩
  | .hbm, ⟨26, _⟩ => ⟨S4x16x2048x2048, .f32⟩
  | .hbm, ⟨27, _⟩ => ⟨S_, .f32⟩
  | .hbm, ⟨28, _⟩ => ⟨S4x16x2048x2048, .f32⟩
  | .hbm, ⟨29, _⟩ => ⟨S4x16x2048x2048, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S_, .f32⟩
  | .hbm, ⟨36, _⟩ => ⟨S4x16, .f32⟩
  | .hbm, ⟨37, _⟩ => ⟨S4x16x2048x2048, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S_, .f32⟩
  | .hbm, ⟨44, _⟩ => ⟨S4x16, .f32⟩
  | .hbm, ⟨45, _⟩ => ⟨S4x16x2048x2048, .f32⟩
  | .hbm, ⟨46, _⟩ => ⟨S_, .f32⟩
  | .hbm, ⟨47, _⟩ => ⟨S4x16x2048, .f32⟩
  | .hbm, ⟨48, _⟩ => ⟨S_, .f32⟩
  | .hbm, ⟨49, _⟩ => ⟨S4x16x2048, .f32⟩
  | .hbm, ⟨50, _⟩ => ⟨S4x16x2048, .f32⟩
  | .hbm, ⟨51, _⟩ => ⟨S4x16x2048x1, .f32⟩
  | .hbm, ⟨52, _⟩ => ⟨S4x16x2048x2048, .f32⟩
  | .hbm, ⟨53, _⟩ => ⟨S4x16x2048x2048, .f32⟩
  | .hbm, ⟨54, _⟩ => ⟨S4x16x2048x2048, .f32⟩
  | .hbm, ⟨55, _⟩ => ⟨S_, .f32⟩
  | .hbm, ⟨56, _⟩ => ⟨S4x16x2048, .f32⟩
  | .hbm, ⟨57, _⟩ => ⟨S4x16x2048x1, .f32⟩
  | .hbm, ⟨58, _⟩ => ⟨S4x16x2048x2048, .f32⟩
  | .hbm, ⟨59, _⟩ => ⟨S4x16x2048x2048, .f32⟩
  | .hbm, ⟨60, _⟩ => ⟨S4x16x2048x64, .f32⟩
  | .hbm, ⟨61, _⟩ => ⟨S4x2048x16x64, .f32⟩
  | .hbm, ⟨62, _⟩ => ⟨S4x2048x1024, .f32⟩
  | .hbm, ⟨63, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_c_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S1 : S_.BroadcastsInDim S1 (![] : Fin 0 → Fin S1.rank)
  concatenates_S1_S1_S2_d0 : Shape.Concatenates [S1, S1] S2 0
  bcast_S_S4x16 : S_.BroadcastsInDim S4x16 (![] : Fin 0 → Fin S4x16.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  scatter_S4x16x2048x2048_S2_S4x16_01_23_23_0_wf : ScatterDims.WF S4x16x2048x2048 S2 S4x16 [0, 1] [2, 3] [2, 3] 0
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def scatter_S4x16x2048x2048_S2_S4x16_01_23_23_0 : ScatterDims S4x16x2048x2048 S2 S4x16 where
  updateWindowDims := [0, 1]
  insertedWindowDims := [2, 3]
  scatterDimsToOperandDims := [2, 3]
  indexVectorDim := 0
  wf := scatter_S4x16x2048x2048_S2_S4x16_01_23_23_0_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.Region0.lean ====
/- Region 0 of the two-region program `Cert.Kernel`: the QKV projection (pipeline 0 of @main), stated at a
   parameter `V` — the TensorCore's buffer contents when the region is entered — and at any float model `F`.

   The body reads three whole blocks (a [1,512,1024] block of activations, the [1024,3072] weight, the [1,3072]
   bias), forms  bf16(x) · W + b  in f32, cuts it into its three [512,1024] column thirds, rounds each to bf16 and
   rearranges it to heads-major [1,16,512,64], and stores each third as one whole block. This module proves:
   * each window's block at a grid point, read off the entry contents (`iblk0`), and that an input window's
     staging buffer holds that block at EVERY point, fetched there or not (the weight and the bias are fetched at
     the first point only; their block index never moves);
   * what the body leaves in each output window's staging buffer, as a function of the three input blocks
     (`out0_3`, `out0_4`, `out0_5`: one covering store each), and the body's triple on whole staging buffers
     (`sound_kernel0`): inputs kept, each output at its closed form, whatever the outputs held before;
   * the pipeline's proof data (`dat0`) and the body obligation at every grid point (`body_obligation0`). -/
import proofs.«150942_j28054726378086_2_alg».proof.Proof.Gen.Kernel.Launch
import proofs.«150942_j28054726378086_2_alg».proof.Proof.Gen.Kernel.Skeleton
import proofs.«150942_j28054726378086_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length up to 3072: the structural recursion goes once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # Region 0 of @main: the QKV projection (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations, a new block at every point): its current staging buffer holds its block at
    every point, for ANY proof data whose array is `V`'s (`hA`) and whose body leaves the block in place
    (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight, one block for the whole grid): fetched at the first point only, its staging buffer
    still holds its block at every point — where it is not fetched the block index has not moved, so the block
    the buffer kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias, one block for the whole grid): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block of its buffer -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1x16x512x64 := Rect.unit (s := S1x16x512x64) ![0, 0, 0, 0] S1x16x512x64.size inb_S1x16x512x64_S1x16x512x64_0_0_0_0

/-! ## What the body leaves in each output window's buffer -/

/-- Window 3's staging buffer after the body, from the input windows' blocks: its one store, of the first column
    third of  bf16(x0) · x1 + x2  rounded to bf16, heads-major. -/
def out0_3 (x0 : Vec F S1x512x1024 .f32) (x1 : Vec F S1024x3072 .bf16) (x2 : Vec F S1x3072 .f32) : Vec F S1x16x512x64 .bf16 :=
  View.canon [⟨r0_3, k0_pay2 (View.ld x0 r0_0) (View.ld x1 r0_1) (View.ld x2 r0_2)⟩]

/-- Window 4's staging buffer after the body: its one store, of the second column third. -/
def out0_4 (x0 : Vec F S1x512x1024 .f32) (x1 : Vec F S1024x3072 .bf16) (x2 : Vec F S1x3072 .f32) : Vec F S1x16x512x64 .bf16 :=
  View.canon [⟨r0_3, k0_pay3 (View.ld x0 r0_0) (View.ld x1 r0_1) (View.ld x2 r0_2)⟩]

/-- Window 5's staging buffer after the body: its one store, of the third column third. -/
def out0_5 (x0 : Vec F S1x512x1024 .f32) (x1 : Vec F S1024x3072 .bf16) (x2 : Vec F S1x3072 .f32) : Vec F S1x16x512x64 .bf16 :=
  View.canon [⟨r0_3, k0_pay4 (View.ld x0 r0_0) (View.ld x1 r0_1) (View.ld x2 r0_2)⟩]

/-- A store through the whole-block rectangle tiles the [1,16,512,64] buffer (one tile, checked by evaluation), so it
    covers it: every index of the buffer lies in the store's rectangle. The same for each of the three outputs. -/
theorem cover0_3 (p0 : Vec F S1x16x512x64 .bf16) (y : S1x16x512x64.Idx) :
    ∃ pc ∈ ([⟨r0_3, p0⟩] : List (View.Piece (Elt F) S1x16x512x64 .bf16)), y ∈ pc.1.set :=
  View.cover_of_tiled [⟨r0_3, p0⟩] S1x16x512x64.size (by rfl) y

/-! ## The body's triple -/

set_option maxHeartbeats 1000000 in
/-- The kernel body on whole staging memrefs, the inputs' at read contents `x0 x1 x2` and the outputs' at anything,
    runs to the continuation holding the inputs' as they were and each output's at `out0_W` of the inputs'. The printed
    function is its skeleton (three loads, then per output a load of the output buffer whose value is unused and one
    store of a payload of the three loaded values); the skeleton is run symbolically, and what a covering store
    leaves reads as its canonical contents. -/
theorem sound_kernel0 (c : Dev nD) (E : Set ℕ) (i : grid0.Coords) (arg2 : Memref sig .tc .vmem S1x512x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x16x512x64 .bf16) (harg5 : arg5.IsWhole) (arg6 : Memref sig .tc .vmem S1x16x512x64 .bf16) (harg6 : arg6.IsWhole) (arg7 : Memref sig .tc .vmem S1x16x512x64 .bf16) (harg7 : arg7.IsWhole)
    (x0 : Vec F S1x512x1024 .f32) (x1 : Vec F S1024x3072 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of pipeline 0 on core `c`: the arrays as the region finds them (`V`); after the body at point `t`
    each input's buffer at its block and each output's at `out0_W` of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents (the definition projected, so `V` is never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The attention region (the second kernel launch): what its five windows hold, point by point.
  The grid is (batch, query tile, head) = 4 x 2 x 16 points. Windows 0-3 are inputs: the query tile of one head,
  that head's keys, its values, and the 64 rows of the output projection belonging to the head. Window 4 is the
  output tile, one block per (batch, query tile): it stays in its staging buffer over the sixteen heads, is reset
  at head 0 and added to at every head, and is written back after head 15.
  Here: each window's block at a point read off the array the region finds; that an input's staging buffer holds
  its block at every point; the one branch condition of the body (head = 0) decided over the grid; the staging
  memrefs by name.
-/
import proofs.«150942_j28054726378086_2_alg».proof.Proof.Gen.Kernel.Launch
import proofs.«150942_j28054726378086_2_alg».proof.Proof.Gen.Kernel.Skeleton
import proofs.«150942_j28054726378086_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement of the region is made at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether fetched there or kept from
    the point before (then the block index has not moved), for any proof data over the entry contents whose body
    leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "the head coordinate is 0", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of 16 (the head is the fastest grid axis). -/
theorem hcond1_0 : ∀ t : Fin cfg1.N, cond1_0 (grid1.coords t) ↔ t.val % 16 = 0 :=
  (by decide +kernel : ∀ t : Fin grid1.N, cond1_0 (grid1.coords t) ↔ t.val % 16 = 0)

/-- One staging buffer of the output window, through which its contents are stated (the choice does not matter). -/
abbrev VO1_4 : View sig .tc .vmem S1x1024x1024 .f32 := (Memref.whole cc1_stg4_0 : Memref sig .tc .vmem S1x1024x1024 .f32).view
/-- Each window's current staging memref at point `t`, and its wholeness. -/
abbrev ms1_0 (t : Fin cfg1.N) : Memref sig .tc .vmem S1x1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)

end Cert.Kernel.Hand

end
-- ==== Proof.K.R1RunA.lean ====
/-
  The attention kernel's body at a point of head 0: the output tile's buffer, whatever it held, is set to zero,
  then read back and the head's contribution added. The run over whole staging memrefs, the four inputs at their
  contents; the pieces the two stores leave in the output's buffer are found by the run.
-/
import proofs.«150942_j28054726378086_2_alg».proof.Proof.K.R1Defs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), at a point where the head
    coordinate is 0, with the proof that the body runs to the end there holding the inputs as they were. -/
noncomputable def kernelRun1_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : cond1_0 i)
    (x0 : Vec F S1x1x1024x64 .bf16) (x1 : Vec F S1x1x2048x64 .bf16) (x2 : Vec F S1x1x2048x64 .bf16) (x3 : Vec F S64x1024 .bf16) :
    { L4 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.K.R1RunB.lean ====
/-
  The attention kernel's body at a point of a later head: the output tile's buffer holds the running sum over the
  heads before, which the body reads and adds the head's contribution to. The run over whole staging memrefs, the
  four inputs and the output's buffer at their contents; the piece the store leaves is found by the run.
-/
import proofs.«150942_j28054726378086_2_alg».proof.Proof.K.R1RunA

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's store leaves in the output's staging memref, as pieces, at a point where the head coordinate
    is not 0 and the buffer holds `xo4`, with the proof that the body runs to the end there holding the inputs as
    they were. -/
noncomputable def kernelRun1_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : ¬cond1_0 i)
    (x0 : Vec F S1x1x1024x64 .bf16) (x1 : Vec F S1x1x2048x64 .bf16) (x2 : Vec F S1x1x2048x64 .bf16) (x3 : Vec F S64x1024 .bf16) (xo4 : Vec F S1x1024x1024 .f32) :
    { L4 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.K.Region1.lean ====
/-
  The attention region: what the output tile's staging buffer holds after each point, the proof data of the
  region's pipeline, and the body's obligation at every point.
  After the point of head 0 of a (batch, query tile) the buffer holds zero plus that head's contribution; after a
  later head, what the point before left plus the head's contribution: a recursion on the point. The buffer is not
  written back between two heads of one tile (the write-back comes after head 15), so at a later head the body
  finds in it exactly what the point before left.
-/
import proofs.«150942_j28054726378086_2_alg».proof.Proof.K.R1RunB

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At head 0 the two stores (zero, then zero plus the contribution) tile the output's block, so they cover it. -/
theorem cover1_A_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : cond1_0 i)
    (x0 : Vec F S1x1x1024x64 .bf16) (x1 : Vec F S1x1x2048x64 .bf16) (x2 : Vec F S1x1x2048x64 .bf16) (x3 : Vec F S64x1024 .bf16) (y : S1x1024x1024.Idx) :
    ∃ pc ∈ (kernelRun1_A c i arg3 harg3 arg4 harg4 arg5 harg5 arg6 harg6 arg7 harg7 hc0 x0 x1 x2 x3).1, y ∈ pc.1.set :=
  View.cover_of_tiledL (kernelRun1_A c i arg3 harg3 arg4 harg4 arg5 harg5 arg6 harg6 arg7 harg7 hc0 x0 x1 x2 x3).1 S1x1024x1024.size (by sl_kernel_rfl) y

/-- What a point of head 0 leaves in the output's staging buffer: its pieces read back. -/
def out1_A_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : cond1_0 i)
    (x0 : Vec F S1x1x1024x64 .bf16) (x1 : Vec F S1x1x2048x64 .bf16) (x2 : Vec F S1x1x2048x64 .bf16) (x3 : Vec F S64x1024 .bf16) : Vec F S1x1024x1024 .f32 :=
  VO1_4.read (Elt F) (VO1_4.writes (Elt F) VO1_4.junk (kernelRun1_A c i arg3 harg3 arg4 harg4 arg5 harg5 arg6 harg6 arg7 harg7 hc0 x0 x1 x2 x3).1)

/-- At a later head the one store covers the output's block. -/
theorem cover1_B_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : ¬cond1_0 i)
    (x0 : Vec F S1x1x1024x64 .bf16) (x1 : Vec F S1x1x2048x64 .bf16) (x2 : Vec F S1x1x2048x64 .bf16) (x3 : Vec F S64x1024 .bf16) (xo4 : Vec F S1x1024x1024 .f32) (y : S1x1024x1024.Idx) :
    ∃ pc ∈ (kernelRun1_B c i arg3 harg3 arg4 harg4 arg5 harg5 arg6 harg6 arg7 harg7 hc0 x0 x1 x2 x3 xo4).1, y ∈ pc.1.set :=
  View.cover_of_tiledL (kernelRun1_B c i arg3 harg3 arg4 harg4 arg5 harg5 arg6 harg6 arg7 harg7 hc0 x0 x1 x2 x3 xo4).1 S1x1024x1024.size (by sl_kernel_rfl) y

/-- What a point of a later head leaves in the output's staging buffer, from what it found there. -/
def out1_B_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : ¬cond1_0 i)
    (x0 : Vec F S1x1x1024x64 .bf16) (x1 : Vec F S1x1x2048x64 .bf16) (x2 : Vec F S1x1x2048x64 .bf16) (x3 : Vec F S64x1024 .bf16) (xo4 : Vec F S1x1024x1024 .f32) : Vec F S1x1024x1024 .f32 :=
  VO1_4.read (Elt F) (VO1_4.writes (Elt F) VO1_4.junk (kernelRun1_B c i arg3 harg3 arg4 harg4 arg5 harg5 arg6 harg6 arg7 harg7 hc0 x0 x1 x2 x3 xo4).1)

/-- THE ACCUMULATION OVER THE HEADS. What the output tile's staging buffer holds after the body at position `n`:
    at a multiple of 16 (head 0) the reset-and-add of that point's input blocks; elsewhere the add over what
    position `n - 1` left. -/
def outsAt1 (c : Dev nD) : (n : ℕ) → n < cfg1.N → Vec F S1x1024x1024 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 16 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- `outsAt1` at a point of head 0. -/
theorem outsAt1_A (c : Dev nD) (t : Fin cfg1.N) (h0 : t.val % 16 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- `outsAt1` at a point of a later head: over what the point before left. -/
theorem outsAt1_B (c : Dev nD) (t : Fin cfg1.N) (h0 : ¬t.val % 16 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the attention pipeline on core `c`: the arrays as the region finds them; after the body at
    point `t` each input's buffer at its block and the output's at `outsAt1`; the invariant the plain one (the
    scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later head the output's staging buffer holds what the body left at the point before: the point is not
    the first, and the buffer was not written back between (the write-back follows head 15 only). -/
theorem before1_4_B (c : Dev nD) (t : Fin cfg1.N) (h0 : ¬t.val % 16 = 0) (d) :
    (dat1 V c).before 4 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the position says whether the head is 0; at a
    later head the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 16 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: the host prelude (the three projection weights transposed and joined into one
  1024 x 3072 matrix, the three biases joined, the output weight transposed), the projection region, the attention
  region. The contents of every buffer at each boundary are a fold from the launch memory: after the prelude, the
  prelude's results; after a region, its output arrays at what its write-backs leave and every other buffer as it
  was. Every weakly fair execution terminates, and the final memory holds every buffer at the last stage of that
  fold. Read at the argument arrays this is the frame claim; read at the result array it names the result.
-/
import proofs.«150942_j28054726378086_2_alg».proof.Proof.K.Region0
import proofs.«150942_j28054726378086_2_alg».proof.Proof.K.Region1
import proofs.«150942_j28054726378086_2_alg».proof.Proof.Gen.Kernel.Regions
import Idealize.ShloMosaic.Lib.Pipeline.RegionsLoop
import Idealize.ShloMosaic.Lib.Pipeline.FrameSuffix

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the host prelude, read at the TensorCore's references: what the projection region is entered with. -/
abbrev X1 : (c : Dev nD) → (b : Ref sig .tc) → Buf (Elt F) ((c : Thread nD τ).loc b) := fun c b => Gen.V1 m c b
/-- After the projection region: its three output arrays at what its write-backs leave, the rest as entered. -/
def B2 (c : Dev nD) : Valuation τ sig (Elt F) :=
  Pipeline.withArrays spec0 c (Gen.V1 m c) fun w => (dat0 (X1 m) c).arrAt w cfg0.N
theorem B2_arr (c : Dev nD) (w : Fin cfg0.W) :
    B2 m c (Proc.devRef .tc (Pipeline.arrRef spec0 w)) = (dat0 (X1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = Gen.V1 m c (Proc.devRef .tc b) := by
  unfold B2; exact Pipeline.withArrays_of_ne spec0 c _ _ b hb
/-- The same at the TensorCore's references: what the attention region is entered with. -/
abbrev X2 : (c : Dev nD) → (b : Ref sig .tc) → Buf (Elt F) ((c : Thread nD τ).loc b) := fun c b => B2 m c b
theorem hF0 (c : Dev nD) (w : Fin cfg0.W) : (dat0 (X1 m) c).arrAt w cfg0.N = X2 m c (Pipeline.arrRef spec0 w) :=
  (B2_arr m c w).symm
theorem hrest0 (c : Dev nD) : ∀ b, b ∉ Finset.univ.image (Pipeline.arrRef spec0) → X2 m c b = X1 m c b :=
  fun b hb => B2_of_ne m c b fun w e => hb (Finset.mem_image.mpr ⟨w, Finset.mem_univ _, e⟩)

/-- After the attention region: the result array at what its write-backs leave, the rest as entered. -/
def B3 (c : Dev nD) : Valuation τ sig (Elt F) :=
  Pipeline.withArrays spec1 c (B2 m c) fun w => (dat1 (X2 m) c).arrAt w cfg1.N
theorem B3_arr (c : Dev nD) (w : Fin cfg1.W) :
    B3 m c (Proc.devRef .tc (Pipeline.arrRef spec1 w)) = (dat1 (X2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev X3 : (c : Dev nD) → (b : Ref sig .tc) → Buf (Elt F) ((c : Thread nD τ).loc b) := fun c b => B3 m c b
theorem hF1 (c : Dev nD) (w : Fin cfg1.W) : (dat1 (X2 m) c).arrAt w cfg1.N = X3 m c (Pipeline.arrRef spec1 w) :=
  (B3_arr m c w).symm
theorem hrest1 (c : Dev nD) : ∀ b, b ∉ Finset.univ.image (Pipeline.arrRef spec1) → X3 m c b = X2 m c b :=
  fun b hb => B3_of_ne m c b fun w e => hb (Finset.mem_image.mpr ⟨w, Finset.mem_univ _, e⟩)

/-! ### The arguments end as launched: the prelude writes none of them, and a region reads one through an input
    window or passes it by -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = Gen.V1 m c (Proc.devRef .tc main_arg0) := (B2_arr m c 0).trans (((dat0 (X1 m) c).arrAt_in 0 rfl _).trans (A_eq0 (X1 m) c 0))
    _ = m ((c : Thread nD τ).loc main_arg0) := Gen.V1_of m c main_arg0 (by decide)

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = Gen.V1 m c (Proc.devRef .tc main_arg1) := B2_of_ne m c main_arg1 (by decide)
    _ = m ((c : Thread nD τ).loc main_arg1) := Gen.V1_of m c main_arg1 (by decide)

theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = Gen.V1 m c (Proc.devRef .tc main_arg2) := B2_of_ne m c main_arg2 (by decide)
    _ = m ((c : Thread nD τ).loc main_arg2) := Gen.V1_of m c main_arg2 (by decide)

theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = Gen.V1 m c (Proc.devRef .tc main_arg3) := B2_of_ne m c main_arg3 (by decide)
    _ = m ((c : Thread nD τ).loc main_arg3) := Gen.V1_of m c main_arg3 (by decide)

theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = Gen.V1 m c (Proc.devRef .tc main_arg4) := B2_of_ne m c main_arg4 (by decide)
    _ = m ((c : Thread nD τ).loc main_arg4) := Gen.V1_of m c main_arg4 (by decide)

theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = Gen.V1 m c (Proc.devRef .tc main_arg5) := B2_of_ne m c main_arg5 (by decide)
    _ = m ((c : Thread nD τ).loc main_arg5) := Gen.V1_of m c main_arg5 (by decide)

theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = Gen.V1 m c (Proc.devRef .tc main_arg6) := B2_of_ne m c main_arg6 (by decide)
    _ = m ((c : Thread nD τ).loc main_arg6) := Gen.V1_of m c main_arg6 (by decide)

theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = Gen.V1 m c (Proc.devRef .tc main_arg7) := B2_of_ne m c main_arg7 (by decide)
    _ = m ((c : Thread nD τ).loc main_arg7) := Gen.V1_of m c main_arg7 (by decide)

/-- The result array ends at what the attention region's write-backs leave in it. -/
theorem B3_result (c : Dev nD) : B3 m c (Proc.devRef .tc main_v10) = (dat1 (X2 m) c).arrAt 4 cfg1.N :=
  B3_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (Gen.V1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X2 m) c).loose
  hwaits := Pipeline.hwaits_of_owed_zero _ _ _ _ L lv 1 fun _ _ => rfl
  pre c := iprop(StableHlo.held (c : Thread nD τ) (Pipeline.ucRefs τ sig) (B2 m c) ∗ Rst c)
  post c := iprop(StableHlo.held (c : Thread nD τ) (Pipeline.ucRefs τ sig) (B3 m c) ∗ Rst c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and the final memory holds every unscoped buffer at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tₙ m)
    (hch := ⟨fun _ => .rfl, fun _ => .rfl, fun _ => .rfl, fun c => by
      show (iprop(StableHlo.held (c : Thread nD τ) (Pipeline.ucRefs τ sig) (B3 m c) ∗ Rst c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c)⟩) (run_all m ρ)

/-- THE RUN WITH ITS RESULT NAMED: the result array ends at what the attention region's write-backs leave, and every
    argument array as launched. -/
theorem run_result : θ_run defs (onTc (τ := τ) (main (F := F))) ⟨m, fun _ => 0, ρ⟩ (fun r => ∀ c : Dev nD,
      r.2.mem ((c.tc : Thread nD τ).loc main_v10) = (dat1 (X2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v10 (by decide))).trans (B3_result m c),
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c)⟩) (run_all m ρ)

end Cert.Kernel.Hand

end
-- ==== Proof.KI.Region0.lean ====
/- Region 0 of the two-region program `Cert.KernelIdeal`: the QKV projection (pipeline 0 of @main), stated at a
   parameter `V` — the TensorCore's buffer contents when the region is entered — and at any float model `F`.

   The body reads three whole blocks (a [1,512,1024] block of activations, the [1024,3072] weight, the [1,3072]
   bias), forms  bf16(x) · W + b  in f32, cuts it into its three [512,1024] column thirds, rounds each to bf16 and
   rearranges it to heads-major [1,16,512,64], and stores each third as one whole block. This module proves:
   * each window's block at a grid point, read off the entry contents (`iblk0`), and that an input window's
     staging buffer holds that block at EVERY point, fetched there or not (the weight and the bias are fetched at
     the first point only; their block index never moves);
   * what the body leaves in each output window's staging buffer, as a function of the three input blocks
     (`out0_3`, `out0_4`, `out0_5`: one covering store each), and the body's triple on whole staging buffers
     (`sound_kernel0`): inputs kept, each output at its closed form, whatever the outputs held before;
   * the pipeline's proof data (`dat0`) and the body obligation at every grid point (`body_obligation0`). -/
import proofs.«150942_j28054726378086_2_alg».proof.Proof.Gen.KernelIdeal.Launch
import proofs.«150942_j28054726378086_2_alg».proof.Proof.Gen.KernelIdeal.Skeleton
import proofs.«150942_j28054726378086_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length up to 3072: the structural recursion goes once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # Region 0 of @main: the QKV projection (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations, a new block at every point): its current staging buffer holds its block at
    every point, for ANY proof data whose array is `V`'s (`hA`) and whose body leaves the block in place
    (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight, one block for the whole grid): fetched at the first point only, its staging buffer
    still holds its block at every point — where it is not fetched the block index has not moved, so the block
    the buffer kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias, one block for the whole grid): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block of its buffer -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1x16x512x64 := Rect.unit (s := S1x16x512x64) ![0, 0, 0, 0] S1x16x512x64.size inb_S1x16x512x64_S1x16x512x64_0_0_0_0

/-! ## What the body leaves in each output window's buffer -/

/-- Window 3's staging buffer after the body, from the input windows' blocks: its one store, of the first column
    third of  bf16(x0) · x1 + x2  rounded to bf16, heads-major. -/
def out0_3 (x0 : Vec F S1x512x1024 .f32) (x1 : Vec F S1024x3072 .bf16) (x2 : Vec F S1x3072 .f32) : Vec F S1x16x512x64 .bf16 :=
  View.canon [⟨r0_3, k0_pay2 (View.ld x0 r0_0) (View.ld x1 r0_1) (View.ld x2 r0_2)⟩]

/-- Window 4's staging buffer after the body: its one store, of the second column third. -/
def out0_4 (x0 : Vec F S1x512x1024 .f32) (x1 : Vec F S1024x3072 .bf16) (x2 : Vec F S1x3072 .f32) : Vec F S1x16x512x64 .bf16 :=
  View.canon [⟨r0_3, k0_pay3 (View.ld x0 r0_0) (View.ld x1 r0_1) (View.ld x2 r0_2)⟩]

/-- Window 5's staging buffer after the body: its one store, of the third column third. -/
def out0_5 (x0 : Vec F S1x512x1024 .f32) (x1 : Vec F S1024x3072 .bf16) (x2 : Vec F S1x3072 .f32) : Vec F S1x16x512x64 .bf16 :=
  View.canon [⟨r0_3, k0_pay4 (View.ld x0 r0_0) (View.ld x1 r0_1) (View.ld x2 r0_2)⟩]

/-- A store through the whole-block rectangle tiles the [1,16,512,64] buffer (one tile, checked by evaluation), so it
    covers it: every index of the buffer lies in the store's rectangle. The same for each of the three outputs. -/
theorem cover0_3 (p0 : Vec F S1x16x512x64 .bf16) (y : S1x16x512x64.Idx) :
    ∃ pc ∈ ([⟨r0_3, p0⟩] : List (View.Piece (Elt F) S1x16x512x64 .bf16)), y ∈ pc.1.set :=
  View.cover_of_tiled [⟨r0_3, p0⟩] S1x16x512x64.size (by rfl) y

/-! ## The body's triple -/

set_option maxHeartbeats 1000000 in
/-- The kernel body on whole staging memrefs, the inputs' at read contents `x0 x1 x2` and the outputs' at anything,
    runs to the continuation holding the inputs' as they were and each output's at `out0_W` of the inputs'. The printed
    function is its skeleton (three loads, then per output a load of the output buffer whose value is unused and one
    store of a payload of the three loaded values); the skeleton is run symbolically, and what a covering store
    leaves reads as its canonical contents. -/
theorem sound_kernel0 (c : Dev nD) (E : Set ℕ) (i : grid0.Coords) (arg2 : Memref sig .tc .vmem S1x512x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x16x512x64 .bf16) (harg5 : arg5.IsWhole) (arg6 : Memref sig .tc .vmem S1x16x512x64 .bf16) (harg6 : arg6.IsWhole) (arg7 : Memref sig .tc .vmem S1x16x512x64 .bf16) (harg7 : arg7.IsWhole)
    (x0 : Vec F S1x512x1024 .f32) (x1 : Vec F S1024x3072 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of pipeline 0 on core `c`: the arrays as the region finds them (`V`); after the body at point `t`
    each input's buffer at its block and each output's at `out0_W` of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents (the definition projected, so `V` is never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The attention region (the second kernel launch): what its five windows hold, point by point.
  The grid is (batch, query tile, head) = 4 x 2 x 16 points. Windows 0-3 are inputs: the query tile of one head,
  that head's keys, its values, and the 64 rows of the output projection belonging to the head. Window 4 is the
  output tile, one block per (batch, query tile): it stays in its staging buffer over the sixteen heads, is reset
  at head 0 and added to at every head, and is written back after head 15.
  Here: each window's block at a point read off the array the region finds; that an input's staging buffer holds
  its block at every point; the one branch condition of the body (head = 0) decided over the grid; the staging
  memrefs by name.
-/
import proofs.«150942_j28054726378086_2_alg».proof.Proof.Gen.KernelIdeal.Launch
import proofs.«150942_j28054726378086_2_alg».proof.Proof.Gen.KernelIdeal.Skeleton
import proofs.«150942_j28054726378086_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement of the region is made at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether fetched there or kept from
    the point before (then the block index has not moved), for any proof data over the entry contents whose body
    leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "the head coordinate is 0", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of 16 (the head is the fastest grid axis). -/
theorem hcond1_0 : ∀ t : Fin cfg1.N, cond1_0 (grid1.coords t) ↔ t.val % 16 = 0 :=
  (by decide +kernel : ∀ t : Fin grid1.N, cond1_0 (grid1.coords t) ↔ t.val % 16 = 0)

/-- One staging buffer of the output window, through which its contents are stated (the choice does not matter). -/
abbrev VO1_4 : View sig .tc .vmem S1x1024x1024 .f32 := (Memref.whole cc1_stg4_0 : Memref sig .tc .vmem S1x1024x1024 .f32).view
/-- Each window's current staging memref at point `t`, and its wholeness. -/
abbrev ms1_0 (t : Fin cfg1.N) : Memref sig .tc .vmem S1x1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)

end Cert.KernelIdeal.Hand

end
-- ==== Proof.KI.R1RunA.lean ====
/-
  The attention kernel's body at a point of head 0: the output tile's buffer, whatever it held, is set to zero,
  then read back and the head's contribution added. The run over whole staging memrefs, the four inputs at their
  contents; the pieces the two stores leave in the output's buffer are found by the run.
-/
import proofs.«150942_j28054726378086_2_alg».proof.Proof.KI.R1Defs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), at a point where the head
    coordinate is 0, with the proof that the body runs to the end there holding the inputs as they were. -/
noncomputable def kernelRun1_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : cond1_0 i)
    (x0 : Vec F S1x1x1024x64 .bf16) (x1 : Vec F S1x1x2048x64 .bf16) (x2 : Vec F S1x1x2048x64 .bf16) (x3 : Vec F S64x1024 .bf16) :
    { L4 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.KI.R1RunB.lean ====
/-
  The attention kernel's body at a point of a later head: the output tile's buffer holds the running sum over the
  heads before, which the body reads and adds the head's contribution to. The run over whole staging memrefs, the
  four inputs and the output's buffer at their contents; the piece the store leaves is found by the run.
-/
import proofs.«150942_j28054726378086_2_alg».proof.Proof.KI.R1RunA

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's store leaves in the output's staging memref, as pieces, at a point where the head coordinate
    is not 0 and the buffer holds `xo4`, with the proof that the body runs to the end there holding the inputs as
    they were. -/
noncomputable def kernelRun1_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : ¬cond1_0 i)
    (x0 : Vec F S1x1x1024x64 .bf16) (x1 : Vec F S1x1x2048x64 .bf16) (x2 : Vec F S1x1x2048x64 .bf16) (x3 : Vec F S64x1024 .bf16) (xo4 : Vec F S1x1024x1024 .f32) :
    { L4 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc1__attn_kernel i arg3 harg3 arg4 harg4 arg5 harg5 arg6 harg6 arg7 harg7) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.KI.Region1.lean ====
/-
  The attention region: what the output tile's staging buffer holds after each point, the proof data of the
  region's pipeline, and the body's obligation at every point.
  After the point of head 0 of a (batch, query tile) the buffer holds zero plus that head's contribution; after a
  later head, what the point before left plus the head's contribution: a recursion on the point. The buffer is not
  written back between two heads of one tile (the write-back comes after head 15), so at a later head the body
  finds in it exactly what the point before left.
-/
import proofs.«150942_j28054726378086_2_alg».proof.Proof.KI.R1RunB

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At head 0 the two stores (zero, then zero plus the contribution) tile the output's block, so they cover it. -/
theorem cover1_A_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : cond1_0 i)
    (x0 : Vec F S1x1x1024x64 .bf16) (x1 : Vec F S1x1x2048x64 .bf16) (x2 : Vec F S1x1x2048x64 .bf16) (x3 : Vec F S64x1024 .bf16) (y : S1x1024x1024.Idx) :
    ∃ pc ∈ (kernelRun1_A c i arg3 harg3 arg4 harg4 arg5 harg5 arg6 harg6 arg7 harg7 hc0 x0 x1 x2 x3).1, y ∈ pc.1.set :=
  View.cover_of_tiledL (kernelRun1_A c i arg3 harg3 arg4 harg4 arg5 harg5 arg6 harg6 arg7 harg7 hc0 x0 x1 x2 x3).1 S1x1024x1024.size (by sl_kernel_rfl) y

/-- What a point of head 0 leaves in the output's staging buffer: its pieces read back. -/
def out1_A_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : cond1_0 i)
    (x0 : Vec F S1x1x1024x64 .bf16) (x1 : Vec F S1x1x2048x64 .bf16) (x2 : Vec F S1x1x2048x64 .bf16) (x3 : Vec F S64x1024 .bf16) : Vec F S1x1024x1024 .f32 :=
  VO1_4.read (Elt F) (VO1_4.writes (Elt F) VO1_4.junk (kernelRun1_A c i arg3 harg3 arg4 harg4 arg5 harg5 arg6 harg6 arg7 harg7 hc0 x0 x1 x2 x3).1)

/-- At a later head the one store covers the output's block. -/
theorem cover1_B_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : ¬cond1_0 i)
    (x0 : Vec F S1x1x1024x64 .bf16) (x1 : Vec F S1x1x2048x64 .bf16) (x2 : Vec F S1x1x2048x64 .bf16) (x3 : Vec F S64x1024 .bf16) (xo4 : Vec F S1x1024x1024 .f32) (y : S1x1024x1024.Idx) :
    ∃ pc ∈ (kernelRun1_B c i arg3 harg3 arg4 harg4 arg5 harg5 arg6 harg6 arg7 harg7 hc0 x0 x1 x2 x3 xo4).1, y ∈ pc.1.set :=
  View.cover_of_tiledL (kernelRun1_B c i arg3 harg3 arg4 harg4 arg5 harg5 arg6 harg6 arg7 harg7 hc0 x0 x1 x2 x3 xo4).1 S1x1024x1024.size (by sl_kernel_rfl) y

/-- What a point of a later head leaves in the output's staging buffer, from what it found there. -/
def out1_B_4 (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : ¬cond1_0 i)
    (x0 : Vec F S1x1x1024x64 .bf16) (x1 : Vec F S1x1x2048x64 .bf16) (x2 : Vec F S1x1x2048x64 .bf16) (x3 : Vec F S64x1024 .bf16) (xo4 : Vec F S1x1024x1024 .f32) : Vec F S1x1024x1024 .f32 :=
  VO1_4.read (Elt F) (VO1_4.writes (Elt F) VO1_4.junk (kernelRun1_B c i arg3 harg3 arg4 harg4 arg5 harg5 arg6 harg6 arg7 harg7 hc0 x0 x1 x2 x3 xo4).1)

/-- THE ACCUMULATION OVER THE HEADS. What the output tile's staging buffer holds after the body at position `n`:
    at a multiple of 16 (head 0) the reset-and-add of that point's input blocks; elsewhere the add over what
    position `n - 1` left. -/
def outsAt1 (c : Dev nD) : (n : ℕ) → n < cfg1.N → Vec F S1x1024x1024 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 16 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- `outsAt1` at a point of head 0. -/
theorem outsAt1_A (c : Dev nD) (t : Fin cfg1.N) (h0 : t.val % 16 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- `outsAt1` at a point of a later head: over what the point before left. -/
theorem outsAt1_B (c : Dev nD) (t : Fin cfg1.N) (h0 : ¬t.val % 16 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the attention pipeline on core `c`: the arrays as the region finds them; after the body at
    point `t` each input's buffer at its block and the output's at `outsAt1`; the invariant the plain one (the
    scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later head the output's staging buffer holds what the body left at the point before: the point is not
    the first, and the buffer was not written back between (the write-back follows head 15 only). -/
theorem before1_4_B (c : Dev nD) (t : Fin cfg1.N) (h0 : ¬t.val % 16 = 0) (d) :
    (dat1 V c).before 4 t d = (outsAt1 V c (t.val - 1) (Nat.lt_of_le_of_lt (Nat.sub_le _ _) t.isLt)) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the position says whether the head is 0; at a
    later head the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 16 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: the host prelude (the three projection weights transposed and joined into one
  1024 x 3072 matrix, the three biases joined, the output weight transposed), the projection region, the attention
  region. The contents of every buffer at each boundary are a fold from the launch memory: after the prelude, the
  prelude's results; after a region, its output arrays at what its write-backs leave and every other buffer as it
  was. Every weakly fair execution terminates, and the final memory holds every buffer at the last stage of that
  fold. Read at the argument arrays this is the frame claim; read at the result array it names the result.
-/
import proofs.«150942_j28054726378086_2_alg».proof.Proof.KI.Region0
import proofs.«150942_j28054726378086_2_alg».proof.Proof.KI.Region1
import proofs.«150942_j28054726378086_2_alg».proof.Proof.Gen.KernelIdeal.Regions
import Idealize.ShloMosaic.Lib.Pipeline.RegionsLoop
import Idealize.ShloMosaic.Lib.Pipeline.FrameSuffix

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the host prelude, read at the TensorCore's references: what the projection region is entered with. -/
abbrev X1 : (c : Dev nD) → (b : Ref sig .tc) → Buf (Elt F) ((c : Thread nD τ).loc b) := fun c b => Gen.V1 m c b
/-- After the projection region: its three output arrays at what its write-backs leave, the rest as entered. -/
def B2 (c : Dev nD) : Valuation τ sig (Elt F) :=
  Pipeline.withArrays spec0 c (Gen.V1 m c) fun w => (dat0 (X1 m) c).arrAt w cfg0.N
theorem B2_arr (c : Dev nD) (w : Fin cfg0.W) :
    B2 m c (Proc.devRef .tc (Pipeline.arrRef spec0 w)) = (dat0 (X1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = Gen.V1 m c (Proc.devRef .tc b) := by
  unfold B2; exact Pipeline.withArrays_of_ne spec0 c _ _ b hb
/-- The same at the TensorCore's references: what the attention region is entered with. -/
abbrev X2 : (c : Dev nD) → (b : Ref sig .tc) → Buf (Elt F) ((c : Thread nD τ).loc b) := fun c b => B2 m c b
theorem hF0 (c : Dev nD) (w : Fin cfg0.W) : (dat0 (X1 m) c).arrAt w cfg0.N = X2 m c (Pipeline.arrRef spec0 w) :=
  (B2_arr m c w).symm
theorem hrest0 (c : Dev nD) : ∀ b, b ∉ Finset.univ.image (Pipeline.arrRef spec0) → X2 m c b = X1 m c b :=
  fun b hb => B2_of_ne m c b fun w e => hb (Finset.mem_image.mpr ⟨w, Finset.mem_univ _, e⟩)

/-- After the attention region: the result array at what its write-backs leave, the rest as entered. -/
def B3 (c : Dev nD) : Valuation τ sig (Elt F) :=
  Pipeline.withArrays spec1 c (B2 m c) fun w => (dat1 (X2 m) c).arrAt w cfg1.N
theorem B3_arr (c : Dev nD) (w : Fin cfg1.W) :
    B3 m c (Proc.devRef .tc (Pipeline.arrRef spec1 w)) = (dat1 (X2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev X3 : (c : Dev nD) → (b : Ref sig .tc) → Buf (Elt F) ((c : Thread nD τ).loc b) := fun c b => B3 m c b
theorem hF1 (c : Dev nD) (w : Fin cfg1.W) : (dat1 (X2 m) c).arrAt w cfg1.N = X3 m c (Pipeline.arrRef spec1 w) :=
  (B3_arr m c w).symm
theorem hrest1 (c : Dev nD) : ∀ b, b ∉ Finset.univ.image (Pipeline.arrRef spec1) → X3 m c b = X2 m c b :=
  fun b hb => B3_of_ne m c b fun w e => hb (Finset.mem_image.mpr ⟨w, Finset.mem_univ _, e⟩)

/-! ### The arguments end as launched: the prelude writes none of them, and a region reads one through an input
    window or passes it by -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = Gen.V1 m c (Proc.devRef .tc main_arg0) := (B2_arr m c 0).trans (((dat0 (X1 m) c).arrAt_in 0 rfl _).trans (A_eq0 (X1 m) c 0))
    _ = m ((c : Thread nD τ).loc main_arg0) := Gen.V1_of m c main_arg0 (by decide)

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = Gen.V1 m c (Proc.devRef .tc main_arg1) := B2_of_ne m c main_arg1 (by decide)
    _ = m ((c : Thread nD τ).loc main_arg1) := Gen.V1_of m c main_arg1 (by decide)

theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = Gen.V1 m c (Proc.devRef .tc main_arg2) := B2_of_ne m c main_arg2 (by decide)
    _ = m ((c : Thread nD τ).loc main_arg2) := Gen.V1_of m c main_arg2 (by decide)

theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = Gen.V1 m c (Proc.devRef .tc main_arg3) := B2_of_ne m c main_arg3 (by decide)
    _ = m ((c : Thread nD τ).loc main_arg3) := Gen.V1_of m c main_arg3 (by decide)

theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = Gen.V1 m c (Proc.devRef .tc main_arg4) := B2_of_ne m c main_arg4 (by decide)
    _ = m ((c : Thread nD τ).loc main_arg4) := Gen.V1_of m c main_arg4 (by decide)

theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = Gen.V1 m c (Proc.devRef .tc main_arg5) := B2_of_ne m c main_arg5 (by decide)
    _ = m ((c : Thread nD τ).loc main_arg5) := Gen.V1_of m c main_arg5 (by decide)

theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = Gen.V1 m c (Proc.devRef .tc main_arg6) := B2_of_ne m c main_arg6 (by decide)
    _ = m ((c : Thread nD τ).loc main_arg6) := Gen.V1_of m c main_arg6 (by decide)

theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = Gen.V1 m c (Proc.devRef .tc main_arg7) := B2_of_ne m c main_arg7 (by decide)
    _ = m ((c : Thread nD τ).loc main_arg7) := Gen.V1_of m c main_arg7 (by decide)

/-- The result array ends at what the attention region's write-backs leave in it. -/
theorem B3_result (c : Dev nD) : B3 m c (Proc.devRef .tc main_v10) = (dat1 (X2 m) c).arrAt 4 cfg1.N :=
  B3_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (Gen.V1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X2 m) c).loose
  hwaits := Pipeline.hwaits_of_owed_zero _ _ _ _ L lv 1 fun _ _ => rfl
  pre c := iprop(StableHlo.held (c : Thread nD τ) (Pipeline.ucRefs τ sig) (B2 m c) ∗ Rst c)
  post c := iprop(StableHlo.held (c : Thread nD τ) (Pipeline.ucRefs τ sig) (B3 m c) ∗ Rst c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and the final memory holds every unscoped buffer at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tₙ m)
    (hch := ⟨fun _ => .rfl, fun _ => .rfl, fun _ => .rfl, fun c => by
      show (iprop(StableHlo.held (c : Thread nD τ) (Pipeline.ucRefs τ sig) (B3 m c) ∗ Rst c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c)⟩) (run_all m ρ)

/-- THE RUN WITH ITS RESULT NAMED: the result array ends at what the attention region's write-backs leave, and every
    argument array as launched. -/
theorem run_result : θ_run defs (onTc (τ := τ) (main (F := F))) ⟨m, fun _ => 0, ρ⟩ (fun r => ∀ c : Dev nD,
      r.2.mem ((c.tc : Thread nD τ).loc main_v10) = (dat1 (X2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v10 (by decide))).trans (B3_result m c),
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c)⟩) (run_all m ρ)

end Cert.KernelIdeal.Hand

end
-- ==== Proof.KI.R1Value.lean ====
/-
  The attention region: what each case of the body leaves in the output tile's buffer, as a value.
  One head's step takes the tile t found in the buffer to  t + (softmax of the head's shifted scores, against the
  head's values, against the head's rows of the transposed output weight); at head 0 the tile found is first
  replaced by the zero tile. So after a point of head 0 the buffer holds step(zero tile), after a later head
  step(what the point before left).
-/
import proofs.«150942_j28054726378086_2_alg».proof.Proof.KI.Region1
import Idealize.ShloMosaic.Lib.Pipeline.Value

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One head's step on the output tile: from the query tile `x0`, the head's keys `x1`, values `x2` and weight rows
    `x3`, the tile `xo` plus the head's contribution. -/
def step (i : grid1.Coords) (x0 : Vec F S1x1x1024x64 .bf16) (x1 : Vec F S1x1x2048x64 .bf16) (x2 : Vec F S1x1x2048x64 .bf16) (x3 : Vec F S64x1024 .bf16) (xo : Vec F S1x1024x1024 .f32) : Vec F S1x1024x1024 .f32 :=
  k1_pay2 (k1_pay3 x2) (k1_pay4 x3) (k1_pay5 i x0 x1) xo

/-- At a later head the body leaves the step of what it found. -/
theorem out_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : ¬cond1_0 i)
    (x0 : Vec F S1x1x1024x64 .bf16) (x1 : Vec F S1x1x2048x64 .bf16) (x2 : Vec F S1x1x2048x64 .bf16) (x3 : Vec F S64x1024 .bf16) (xo4 : Vec F S1x1024x1024 .f32) :
    out1_B_4 c i arg3 harg3 arg4 harg4 arg5 harg5 arg6 harg6 arg7 harg7 hc0 x0 x1 x2 x3 xo4 = step i x0 x1 x2 x3 xo4 := by
  unfold out1_B_4
  rw [View.read_writes_eq_canon _ _ _ (cover1_B_4 c i arg3 harg3 arg4 harg4 arg5 harg5 arg6 harg6 arg7 harg7 hc0 x0 x1 x2 x3 xo4)]
  unfold kernelRun1_B
  dsimp only
  sl_unfold_words
  rw [View.canon_unit_zero hz3]
  unfold step
  simp only [View.readAt_eq_ld, harg3.read_unread, harg4.read_unread, harg5.read_unread, harg6.read_unread, harg7.read_unread,
    View.ld_unit_zero (S := S1x1024x1024) hz3, View.ld_unit_zero (S := S1x1x1024x64) hz4, View.ld_unit_zero (S := S1x1x2048x64) hz4,
    View.ld_unit_zero (S := S64x1024) hz2]

/-- At head 0 the body leaves the step of the zero tile. -/
theorem out_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S64x1024 .bf16) (harg6 : arg6.IsWhole) (arg7 : Memref sig .tc .vmem S1x1024x1024 .f32) (harg7 : arg7.IsWhole) (hc0 : cond1_0 i)
    (x0 : Vec F S1x1x1024x64 .bf16) (x1 : Vec F S1x1x2048x64 .bf16) (x2 : Vec F S1x1x2048x64 .bf16) (x3 : Vec F S64x1024 .bf16) :
    out1_A_4 c i arg3 harg3 arg4 harg4 arg5 harg5 arg6 harg6 arg7 harg7 hc0 x0 x1 x2 x3 = step i x0 x1 x2 x3 (k1_pay1 (F := F)) := by
  unfold out1_A_4
  rw [View.read_writes_eq_canon _ _ _ (cover1_A_4 c i arg3 harg3 arg4 harg4 arg5 harg5 arg6 harg6 arg7 harg7 hc0 x0 x1 x2 x3)]
  unfold kernelRun1_A
  dsimp only
  sl_unfold_words
  rw [View.canon_cons_unit_zero (S := S1x1024x1024) hz3, View.readCov_unit_zero (S := S1x1024x1024) _ hz3]
  unfold step
  simp only [View.readAt_eq_ld, harg3.read_unread, harg4.read_unread, harg5.read_unread, harg6.read_unread,
    View.ld_unit_zero (S := S1x1024x1024) hz3, View.ld_unit_zero (S := S1x1x1024x64) hz4, View.ld_unit_zero (S := S1x1x2048x64) hz4,
    View.ld_unit_zero (S := S64x1024) hz2]

variable (V : (c : Dev nD) → (b : Ref sig .tc) → Buf (Elt F) ((c : Thread nD τ).loc b))

/-- After a point of head 0: the step of the zero tile, over that point's input blocks. -/
theorem outsAt1_head0 (c : Dev nD) (t : Fin cfg1.N) (h0 : t.val % 16 = 0) :
    outsAt1 V c t.val t.isLt = step (grid1.coords t) (iblk1 V c 0 t) (iblk1 V c 1 t) (iblk1 V c 2 t) (iblk1 V c 3 t) (k1_pay1 (F := F)) :=
  (outsAt1_A V c t h0).trans (out_A ..)

/-- After a point of a later head: the step of what the point before left. -/
theorem outsAt1_later (c : Dev nD) (t : Fin cfg1.N) (h0 : ¬t.val % 16 = 0) :
    outsAt1 V c t.val t.isLt = step (grid1.coords t) (iblk1 V c 0 t) (iblk1 V c 1 t) (iblk1 V c 2 t) (iblk1 V c 3 t)
      (outsAt1 V c (t.val - 1) (Nat.lt_of_le_of_lt (Nat.sub_le _ _) t.isLt)) :=
  (outsAt1_B V c t h0).trans (out_B ..)

end Cert.KernelIdeal.Hand

end
-- ==== Proof.KI.R1Matmul.lean ====
/-
  The three matrix products of the attention kernel read at an index, over the extended reals: queries against
  transposed keys ([1024, 64] x [64, 2048]), softmax weights against values ([1024, 2048] x [2048, 64]), attended
  values against the head's rows of the transposed output weight ([1024, 64] x [64, 1024]). Each entry is the plain
  sum over the contracted axis; the accumulator is the zero array.
-/
import proofs.«150942_j28054726378086_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

theorem mm_qk_l0 (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem mm_qk_l1 (i : S1024x2048.Idx) (q : dot_S1024x64_S64x2048_S1024x2048_1_0_0_1_n_n.contr.Idx) : (dot_S1024x64_S64x2048_S1024x2048_1_0_0_1_n_n.lhsIdx i q 1).val = (q ⟨0, by decide⟩).val :=
  dot_S1024x64_S64x2048_S1024x2048_1_0_0_1_n_n.lhsIdx_val_of_single rfl i q
theorem mm_qk_r0 (i : S1024x2048.Idx) (q : dot_S1024x64_S64x2048_S1024x2048_1_0_0_1_n_n.contr.Idx) : (dot_S1024x64_S64x2048_S1024x2048_1_0_0_1_n_n.rhsIdx i q 0).val = (q ⟨0, by decide⟩).val :=
  dot_S1024x64_S64x2048_S1024x2048_1_0_0_1_n_n.rhsIdx_val_of_single rfl i q
theorem mm_qk_r1 (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl
/-- The matrix product of an [1024, 64] and a [64, 2048] array into a zero accumulator, read at (a, b): the sum over the
    contracted axis of the products. -/
theorem mm_qk (l : FVec Ideal S1024x64 .bf16) (r : FVec Ideal S64x2048 .bf16) (a : Fin 1024) (b : Fin 2048) :
    matmul dot_S1024x64_S64x2048_S1024x2048_1_0_0_1_n_n none l r (constant (F := Ideal) S1024x2048 .f32 0x00000000#32) (ix2 a b)
      = ∑ k : Fin 64, l (ix2 a k) * r (ix2 k b) := by
  simp only [matmul]
  rw [Ideal.matmul_constant_zero_apply, ← Equiv.sum_comp (ValueIdx.contrEquiv1 dot_S1024x64_S64x2048_S1024x2048_1_0_0_1_n_n 64 rfl rfl).symm]
  refine Finset.sum_congr rfl fun k _ => ?_
  have hk := ValueIdx.contrEquiv1_symm_val dot_S1024x64_S64x2048_S1024x2048_1_0_0_1_n_n 64 rfl rfl k
  have el : dot_S1024x64_S64x2048_S1024x2048_1_0_0_1_n_n.lhsIdx (ix2 a b) ((ValueIdx.contrEquiv1 dot_S1024x64_S64x2048_S1024x2048_1_0_0_1_n_n 64 rfl rfl).symm k) = ix2 a k := funext fun x => Fin.ext (by
    match x with
    | ⟨0, _⟩ => exact mm_qk_l0 _ _
    | ⟨1, _⟩ => exact (mm_qk_l1 _ _).trans hk)
  have er : dot_S1024x64_S64x2048_S1024x2048_1_0_0_1_n_n.rhsIdx (ix2 a b) ((ValueIdx.contrEquiv1 dot_S1024x64_S64x2048_S1024x2048_1_0_0_1_n_n 64 rfl rfl).symm k) = ix2 k b := funext fun x => Fin.ext (by
    match x with
    | ⟨0, _⟩ => exact (mm_qk_r0 _ _).trans hk
    | ⟨1, _⟩ => exact mm_qk_r1 _ _)
  rw [el, er]

theorem mm_wv_l0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem mm_wv_l1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem mm_wv_r0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem mm_wv_r1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl
/-- The matrix product of an [1024, 2048] and a [2048, 64] array into a zero accumulator, read at (a, b): the sum over the
    contracted axis of the products. -/
theorem mm_wv (l : FVec Ideal S1024x2048 .bf16) (r : FVec Ideal S2048x64 .bf16) (a : Fin 1024) (b : Fin 64) :
    matmul dot_S1024x2048_S2048x64_S1024x64_1_0_0_1_n_n none l r (constant (F := Ideal) S1024x64 .f32 0x00000000#32) (ix2 a b)
      = ∑ k : Fin 2048, l (ix2 a k) * r (ix2 k b) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 a b) ((ValueIdx.contrEquiv1 dot_S1024x2048_S2048x64_S1024x64_1_0_0_1_n_n 2048 rfl rfl).symm k) = ix2 a k := funext fun x => Fin.ext (by
    match x with
    | ⟨0, _⟩ => exact mm_wv_l0 _ _
    | ⟨1, _⟩ => exact (mm_wv_l1 _ _).trans hk)
  have er : dot_S1024x2048_S2048x64_S1024x64_1_0_0_1_n_n.rhsIdx (ix2 a b) ((ValueIdx.contrEquiv1 dot_S1024x2048_S2048x64_S1024x64_1_0_0_1_n_n 2048 rfl rfl).symm k) = ix2 k b := funext fun x => Fin.ext (by
    match x with
    | ⟨0, _⟩ => exact (mm_wv_r0 _ _).trans hk
    | ⟨1, _⟩ => exact mm_wv_r1 _ _)
  rw [el, er]

theorem mm_co_l0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem mm_co_l1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem mm_co_r0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem mm_co_r1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl
/-- The matrix product of an [1024, 64] and a [64, 1024] array into a zero accumulator, read at (a, b): the sum over the
    contracted axis of the products. -/
theorem mm_co (l : FVec Ideal S1024x64 .bf16) (r : FVec Ideal S64x1024 .bf16) (a : Fin 1024) (b : Fin 1024) :
    matmul dot_S1024x64_S64x1024_S1024x1024_1_0_0_1_n_n none l r (constant (F := Ideal) S1024x1024 .f32 0x00000000#32) (ix2 a b)
      = ∑ k : Fin 64, l (ix2 a k) * r (ix2 k b) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 a b) ((ValueIdx.contrEquiv1 dot_S1024x64_S64x1024_S1024x1024_1_0_0_1_n_n 64 rfl rfl).symm k) = ix2 a k := funext fun x => Fin.ext (by
    match x with
    | ⟨0, _⟩ => exact mm_co_l0 _ _
    | ⟨1, _⟩ => exact (mm_co_l1 _ _).trans hk)
  have er : dot_S1024x64_S64x1024_S1024x1024_1_0_0_1_n_n.rhsIdx (ix2 a b) ((ValueIdx.contrEquiv1 dot_S1024x64_S64x1024_S1024x1024_1_0_0_1_n_n 64 rfl rfl).symm k) = ix2 k b := funext fun x => Fin.ext (by
    match x with
    | ⟨0, _⟩ => exact (mm_co_r0 _ _).trans hk
    | ⟨1, _⟩ => exact mm_co_r1 _ _)
  rw [el, er]

end Cert.KernelIdeal.Pay

end
-- ==== Proof.LibKeepdims.lean ====
/-
  A row sum kept as a column, read at an index.

  `jnp.sum(x, axis=-1, keepdims=True)` leaves an [a] vector cast to an [a, 1] column, and adding it to its own
  transpose broadcasts the column along the rows of an [a, b] matrix. Read at an index, the column at (i, u) is
  the vector at i, and the column broadcast along the rows at (p, c) is the column at (p, 0). (The companion
  forms — a row broadcast down the columns, the transpose of a matrix — are in the library's layout lemmas.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KI.R1Payload.lean ====
/-
  The attention kernel's arithmetic read at an index, over the extended reals.
  From the tile of shifted scores s (scores minus their row maxima): the exponentials, their row sums, the
  softmax weights exp s / sum exp s, the weights against the head's values, and that against the head's 64 rows
  of the transposed output weight, added onto what the output tile held: entry (r, f) of the new tile is
    old (r, f) + sum over d of (sum over j of w (r, j) * v (j, d)) * wo (d, f).
  A change of float format is the identity here, so the two roundings to half precision in between vanish.
-/
import proofs.«150942_j28054726378086_2_alg».proof.Proof.KI.R1Matmul
import proofs.«150942_j28054726378086_2_alg».proof.Proof.LibKeepdims
import Idealize.ShloMosaic.Lib.ValueLayout

noncomputable section

open scoped BigOperators

namespace Cert.KernelIdeal.Pay

open Cert.KernelIdeal Cert.KernelIdeal.Gen Idealize.ShloMosaic Idealize.ShloMosaic.ValueIdx Idealize.ShloMosaic.Keepdims

variable {α : Type}

/-- A [1, 1, a, b] array viewed as [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- Row r of a [1024, 2048] tile, entry k: the index the row reduction inserts. -/
theorem lift_row (r : Fin 1024) (k : Fin 2048) : reduces_S1024x2048_S1024.lift (ix1 r) k = ix2 r k :=
  funext fun a => Fin.ext (by match a with | ⟨0, _⟩ => rfl | ⟨1, _⟩ => rfl)

/-- The sum over a row of a [1024, 2048] tile, as the kernel's lane reduction takes it. -/
theorem rowsum_apply (src : FVec Ideal S1024x2048 .f32) (hφ : FKind.Formats .f32) (hacc : (0x00000000#32 : BitVec 32) = 0x00000000#32)
    (r : Fin 1024) :
    multiReduction .add [1] S1024 src 0x00000000#32 reduces_S1024x2048_S1024 hφ hacc (ix1 r) = ∑ k : Fin 2048, src (ix2 r k) :=
  (Ideal.multiReduction_add_single src 0x00000000#32 reduces_S1024x2048_S1024 hφ hacc (ix1 r)).trans
    (Finset.sum_congr rfl fun k _ => congrArg src (lift_row r k))

/-- The maximum over a row of a [1024, 2048] tile, as the kernel's lane reduction takes it: the fold of max from
    the word of minus infinity. -/
theorem rowmax_apply (src : FVec Ideal S1024x2048 .f32) (hφ : FKind.Formats .f32) (hacc : (0xFF800000#32 : BitVec 32) = 0xFF800000#32)
    (r : Fin 1024) :
    multiReduction .maximumf [1] S1024 src 0xFF800000#32 reduces_S1024x2048_S1024 hφ hacc (ix1 r)
      = (Finset.univ : Finset (Fin 2048)).fold max (Ideal.ofBits .f32 0xFF800000#32) (fun k => src (ix2 r k)) :=
  (Ideal.multiReduction_maximumf_single src 0xFF800000#32 reduces_S1024x2048_S1024 hφ hacc (ix1 r)).trans
    (congrArg (Finset.fold max (Ideal.ofBits .f32 0xFF800000#32) · (Finset.univ : Finset (Fin 2048)))
      (funext fun k => congrArg src (lift_row r k)))

/-- The zero tile the reset stores. -/
theorem pay1_apply (u : Fin 1) (r f : Fin 1024) : k1_pay1 (F := Ideal) (ix3 u r f) = Ideal.ofBits .f32 0x00000000#32 := by
  unfold k1_pay1
  rw [shapeCast_ab_1ab_apply]
  rfl

/-- The head's values as the kernel takes them: the [1, 1, 2048, 64] block viewed as [2048, 64]. -/
theorem pay3_apply (v4 : Vec Ideal S1x1x2048x64 .bf16) (j : Fin 2048) (d : Fin 64) :
    k1_pay3 v4 (ix2 j d) = v4 (ix4 (0 : Fin 1) (0 : Fin 1) j d) := by
  unfold k1_pay3
  exact shapeCast_11ab_ab_apply v4 _ j d

/-- The head's rows of the transposed output weight, as loaded. -/
theorem pay4_eq (v6 : Vec Ideal S64x1024 .bf16) : k1_pay4 v6 = v6 := by
  unfold k1_pay4
  exact shapeCast_self _ _

/-- The new output tile from the shifted scores, the values, the weight rows and the old tile. -/
theorem pay2_apply (v5 : FVec Ideal S2048x64 .bf16) (v7 : FVec Ideal S64x1024 .bf16) (v33 : FVec Ideal S1024x2048 .f32)
    (v46 : Vec Ideal S1x1024x1024 .f32) (u : Fin 1) (r f : Fin 1024) :
    k1_pay2 v5 v7 v33 v46 (ix3 u r f)
      = v46 (ix3 (0 : Fin 1) r f)
        + ∑ d : Fin 64, (∑ j : Fin 2048, Ideal.div (Ideal.exp (v33 (ix2 r j))) (∑ j' : Fin 2048, Ideal.exp (v33 (ix2 r j'))) * v5 (ix2 j d))
            * v7 (ix2 d f) := by
  unfold k1_pay2
  dsimp only
  rw [shapeCast_ab_1ab_apply, addf_apply, shapeCast_1ab_ab_apply, mm_co]
  refine congrArg (v46 (ix3 (0 : Fin 1) r f) + ·) (Finset.sum_congr rfl fun d _ => ?_)
  rw [truncf_apply, mm_wv]
  refine congrArg (· * v7 (ix2 d f)) (Finset.sum_congr rfl fun j _ => ?_)
  rw [truncf_apply, divf_apply, broadcastTo_a1_ab_apply, shapeCast_a_a1_apply, rowsum_apply]
  rfl

end Cert.KernelIdeal.Pay

end
-- ==== Proof.KI.R1Scores.lean ====
/-
  The attention kernel's shifted scores read at an index, over the extended reals.
  At the grid point of batch b, query tile qi and head h, row r of the tile is query position qi * 1024 + r.
  The raw score of that query against key j is the sum over the head's 64 coordinates of query times key, scaled
  by 2^-3; at the two masked pairs — query position 0 against key 2047, query position 2047 against key 0 — it is
  replaced by the constant -10^9; and from each row its maximum (the fold of max from minus infinity) is subtracted.
  The mask is computed by the kernel on 32-bit words (row number plus 1024 times the tile number compared with 0 and
  2047): with the tile number below 2 and the row below 1024 no word wraps, so the comparisons are those of the
  natural numbers.
-/
import proofs.«150942_j28054726378086_2_alg».proof.Proof.KI.R1Payload
import Idealize.ShloMosaic.Lib.Affine

noncomputable section

open scoped BigOperators

namespace Cert.KernelIdeal.Pay

open Cert.KernelIdeal Cert.KernelIdeal.Gen Idealize.ShloMosaic Idealize.ShloMosaic.ValueIdx Idealize.ShloMosaic.Keepdims

/-- The query position of row `r` of tile number `q`. -/
def qpos (q : ℕ) (r : Fin 1024) : ℕ := q * 1024 + r.val

/-- The masked pairs, by tile number, row and key. -/
def tmask (q : ℕ) (r : Fin 1024) (j : Fin 2048) : Prop := (qpos q r = 0 ∧ j.val = 2047) ∨ (qpos q r = 2047 ∧ j.val = 0)

instance (q : ℕ) (r : Fin 1024) (j : Fin 2048) : Decidable (tmask q r j) := by unfold tmask; infer_instance

/-- The word the kernel computes for "query position": the row's number plus 1024 times the tile's, no wrap. -/
theorem rowword_toNat (q : ℕ) (hq : q < 2) (r : Fin 1024) :
    (IntOp.addi (BitVec.ofNat 32 r.val) (Scalar.muli (BitVec.ofNat 32 q) 1024#32)).toNat = qpos q r := by
  have hr := r.isLt
  unfold qpos
  simp only [IntOp.addi, Scalar.muli, IntOp.muli, BitVec.toNat_add, BitVec.toNat_mul, BitVec.toNat_ofNat]
  omega

/-- The kernel's mask bit at (r, j) is set exactly at the masked pairs. -/
theorem maskbit_iff (q : ℕ) (hq : q < 2) (r : Fin 1024) (j : Fin 2048) :
    IntOp.ori
        (IntOp.andi (IntOp.cmpi .eq (IntOp.addi (BitVec.ofNat 32 r.val) (Scalar.muli (BitVec.ofNat 32 q) 1024#32)) 0#32)
          (IntOp.cmpi .eq (BitVec.ofNat 32 j.val) 2047#32))
        (IntOp.andi (IntOp.cmpi .eq (IntOp.addi (BitVec.ofNat 32 r.val) (Scalar.muli (BitVec.ofNat 32 q) 1024#32)) 2047#32)
          (IntOp.cmpi .eq (BitVec.ofNat 32 j.val) 0#32)) = 1#1
      ↔ tmask q r j := by
  have hj := j.isLt
  have hw := rowword_toNat q hq r
  have hjw : (BitVec.ofNat 32 j.val).toNat = j.val := by rw [BitVec.toNat_ofNat]; omega
  rw [IntOp.ori_eq_one, IntOp.andi_eq_one, IntOp.andi_eq_one, IntOp.cmpi_eq, IntOp.cmpi_eq, IntOp.cmpi_eq, IntOp.cmpi_eq]
  unfold tmask
  rw [← BitVec.toNat_inj, ← BitVec.toNat_inj, ← BitVec.toNat_inj, ← BitVec.toNat_inj, hw, hjw]
  rfl

/-- The masked and scaled score of row `r` of tile `q` against key `j`. -/
def tscore (q : ℕ) (x0 : Vec Ideal S1x1x1024x64 .bf16) (x1 : Vec Ideal S1x1x2048x64 .bf16) (r : Fin 1024) (j : Fin 2048) : EReal :=
  if tmask q r j then (Ideal.ofBits .f32 0xCE6E6B28#32 : EReal)
  else (∑ d : Fin 64, x0 (ix4 (0 : Fin 1) (0 : Fin 1) r d) * x1 (ix4 (0 : Fin 1) (0 : Fin 1) j d)) * (Ideal.ofBits .f32 0x3E000000#32 : EReal)

/-- The row's maximum as the kernel takes it. -/
def tmax (q : ℕ) (x0 : Vec Ideal S1x1x1024x64 .bf16) (x1 : Vec Ideal S1x1x2048x64 .bf16) (r : Fin 1024) : EReal :=
  (Finset.univ : Finset (Fin 2048)).fold max (Ideal.ofBits .f32 0xFF800000#32) (fun j => tscore q x0 x1 r j)

/-- The masked and scaled score tile as the kernel computes it: the product of the query tile and the transposed
    keys, scaled, the two masked entries (found by comparing row and column numbers as 32-bit words) replaced. -/
def stile (i : grid1.Coords) (x0 : Vec Ideal S1x1x1024x64 .bf16) (x1 : Vec Ideal S1x1x2048x64 .bf16) : FVec Ideal S1024x2048 .f32 :=
  select
    (ori
      (andi
        (cmpi .eq (addi (iota .tc S1024x2048 32 [0] iota_S1024x2048_d0_w32) (broadcast S1024x2048 (Scalar.muli (BitVec.ofNat 32 (i 1).val) 1024#32)))
          (broadcast S1024x2048 0#32))
        (cmpi .eq (iota .tc S1024x2048 32 [1] iota_S1024x2048_d1_w32) (broadcast S1024x2048 2047#32)))
      (andi
        (cmpi .eq (addi (iota .tc S1024x2048 32 [0] iota_S1024x2048_d0_w32) (broadcast S1024x2048 (Scalar.muli (BitVec.ofNat 32 (i 1).val) 1024#32)))
          (broadcast S1024x2048 2047#32))
        (cmpi .eq (iota .tc S1024x2048 32 [1] iota_S1024x2048_d1_w32) (broadcast S1024x2048 0#32))))
    (broadcast S1024x2048 (Scalar.ofBits (F := Ideal) .f32 0xCE6E6B28#32))
    (mulf
      (matmul dot_S1024x64_S64x2048_S1024x2048_1_0_0_1_n_n none
        (shapeCast S1024x64 x0 shapeCasts_S1x1x1024x64_S1024x64 : FVec Ideal S1024x64 .bf16)
        (transpose S64x2048 [1, 0] (shapeCast S2048x64 x1 shapeCasts_S1x1x2048x64_S2048x64 : FVec Ideal S2048x64 .bf16)
          transposes_S2048x64_p1_0_S64x2048 : FVec Ideal S64x2048 .bf16)
        (constant (F := Ideal) S1024x2048 .f32 0x00000000#32))
      (broadcast S1024x2048 (Scalar.ofBits (F := Ideal) .f32 0x3E000000#32)))

/-- Its entry (r, j) is the masked and scaled score of query position qi * 1024 + r against key j. -/
theorem stile_apply (i : grid1.Coords) (x0 : Vec Ideal S1x1x1024x64 .bf16) (x1 : Vec Ideal S1x1x2048x64 .bf16) (r : Fin 1024) (j : Fin 2048) :
    stile i x0 x1 (ix2 r j) = tscore (i 1).val x0 x1 r j := by
  have hq : (i 1).val < 2 := (i 1).isLt
  unfold stile
  rw [select_apply]
  show Scalar.select (IntOp.ori
      (IntOp.andi (IntOp.cmpi .eq (IntOp.addi (iota .tc S1024x2048 32 [0] iota_S1024x2048_d0_w32 (ix2 r j)) (Scalar.muli (BitVec.ofNat 32 (i 1).val) 1024#32)) 0#32)
        (IntOp.cmpi .eq (iota .tc S1024x2048 32 [1] iota_S1024x2048_d1_w32 (ix2 r j)) 2047#32))
      (IntOp.andi (IntOp.cmpi .eq (IntOp.addi (iota .tc S1024x2048 32 [0] iota_S1024x2048_d0_w32 (ix2 r j)) (Scalar.muli (BitVec.ofNat 32 (i 1).val) 1024#32)) 2047#32)
        (IntOp.cmpi .eq (iota .tc S1024x2048 32 [1] iota_S1024x2048_d1_w32 (ix2 r j)) 0#32))) _ _ = _
  rw [iota_single_apply, iota_single_apply]
  unfold tscore Scalar.select
  by_cases hm : tmask (i 1).val r j
  · refine (if_pos ((maskbit_iff _ hq r j).mpr hm)).trans ?_
    rw [if_pos hm]; rfl
  · refine (if_neg (fun h => hm ((maskbit_iff _ hq r j).mp h))).trans ?_
    rw [if_neg hm, mulf_apply, mm_qk]
    refine congrArg (· * _) (Finset.sum_congr rfl fun d _ => ?_)
    rw [shapeCast_11ab_ab_apply, transpose_ix2_apply, shapeCast_11ab_ab_apply]

/-- THE SHIFTED SCORES: entry (r, j) of the tile the first part of the body hands on. -/
theorem pay5_apply (i : grid1.Coords) (x0 : Vec Ideal S1x1x1024x64 .bf16) (x1 : Vec Ideal S1x1x2048x64 .bf16) (r : Fin 1024) (j : Fin 2048) :
    k1_pay5 (F := Ideal) i x0 x1 (ix2 r j) = tscore (i 1).val x0 x1 r j - tmax (i 1).val x0 x1 r := by
  unfold k1_pay5
  dsimp only
  rw [subf_apply, broadcastTo_a1_ab_apply, shapeCast_a_a1_apply, rowmax_apply]
  show stile i x0 x1 (ix2 r j) - Finset.fold max (Ideal.ofBits .f32 0xFF800000#32) (fun k => stile i x0 x1 (ix2 r k)) Finset.univ = _
  unfold tmax
  rw [stile_apply]
  exact congrArg (tscore (i 1).val x0 x1 r j - ·)
    (congrArg (Finset.fold max (Ideal.ofBits .f32 0xFF800000#32) · (Finset.univ : Finset (Fin 2048))) (funext fun k => stile_apply i x0 x1 r k))

end Cert.KernelIdeal.Pay

end
-- ==== Proof.Spec.lean ====
/-
  The specification of multi-head attention with two masked score entries, index by index, over the
  extended reals.

  Arguments: an input x : [4, 2048, 1024]; three projections (Wq, bq), (Wk, bk), (Wv, bv) in the convention
  y = x · Wᵀ + b, with W : [1024, 1024] and b : [1024]; an output projection Wo : [1024, 1024] without bias.
  The 1024 features are 16 heads of 64: feature f = h * 64 + d.

    lin x W b        : one projection,  (b, n, f) ↦ (∑ e, x[b, n, e] * W[f, e]) + b[f]
    score            : (∑ d, q[b, i, h, d] * k[b, j, h, d]) * 2⁻³, except at the two masked pairs
                       (i, j) = (0, 2047) and (2047, 0), where it is the constant -10⁹ (as a binary32 word)
    rowMax, expo, denom, weight : the softmax over j, in its stable form exp (s - max) / ∑ exp (s - max)
    ctx              : ∑ j, weight[b, h, i, j] * v[b, j, h, d]
    out              : (b, n, f) ↦ ∑ e, ctx[b, e / 64, n, e % 64] * Wo[f, e]

  Float literals stay as the words they are printed as; they are never evaluated here.
-/
import Idealize.ShloMosaic.PureOps.Ideal
import Idealize.ShloMosaic.Lib.ValueIdx

noncomputable section

open scoped BigOperators

namespace Cert.Spec

open Idealize.ShloMosaic Idealize.ShloMosaic.ValueIdx

/-- The arrays, as functions of an index of their literal shape. -/
abbrev Arr3 : Type := (⟨3, ![4, 2048, 1024]⟩ : Shape).Idx → EReal
abbrev Arr2 : Type := (⟨2, ![1024, 1024]⟩ : Shape).Idx → EReal
abbrev Arr1 : Type := (⟨1, ![1024]⟩ : Shape).Idx → EReal

/-- Feature `h * 64 + d`: coordinate `d` of head `h`. -/
def feat (h : Fin 16) (d : Fin 64) : Fin 1024 :=
  ⟨h.val * 64 + d.val, by have := h.isLt; have := d.isLt; omega⟩

/-- One linear projection, `y = x · Wᵀ + bias`. -/
def lin (x : Arr3) (W : Arr2) (bias : Arr1) (b : Fin 4) (n : Fin 2048) (f : Fin 1024) : EReal :=
  (∑ e : Fin 1024, x (ix3 b n e) * W (ix2 f e)) + bias (ix1 f)

/-- The two masked (query, key) pairs: (0, 2047) and (2047, 0). -/
def masked (i j : Fin 2048) : Prop := (i.val = 0 ∧ j.val = 2047) ∨ (i.val = 2047 ∧ j.val = 0)

instance (i j : Fin 2048) : Decidable (masked i j) := by unfold masked; infer_instance

/-- The scaled score of query `i` against key `j` in head `h`; the constant at a masked pair. -/
def score (x : Arr3) (Wq : Arr2) (bq : Arr1) (Wk : Arr2) (bk : Arr1)
    (b : Fin 4) (h : Fin 16) (i j : Fin 2048) : EReal :=
  if masked i j then (Ideal.ofBits .f32 0xCE6E6B28#32 : EReal)
  else (∑ d : Fin 64, lin x Wq bq b i (feat h d) * lin x Wk bk b j (feat h d))
    * (Ideal.ofBits .f32 0x3E000000#32 : EReal)

/-- The largest score of a row (the supremum over all keys; `⊥ = -∞` is the empty supremum). -/
def rowMax (x : Arr3) (Wq : Arr2) (bq : Arr1) (Wk : Arr2) (bk : Arr1)
    (b : Fin 4) (h : Fin 16) (i : Fin 2048) : EReal :=
  Finset.univ.sup (fun j : Fin 2048 => score x Wq bq Wk bk b h i j)

def expo (x : Arr3) (Wq : Arr2) (bq : Arr1) (Wk : Arr2) (bk : Arr1)
    (b : Fin 4) (h : Fin 16) (i j : Fin 2048) : EReal :=
  Ideal.exp (score x Wq bq Wk bk b h i j - rowMax x Wq bq Wk bk b h i)

def denom (x : Arr3) (Wq : Arr2) (bq : Arr1) (Wk : Arr2) (bk : Arr1)
    (b : Fin 4) (h : Fin 16) (i : Fin 2048) : EReal :=
  ∑ j : Fin 2048, expo x Wq bq Wk bk b h i j

/-- The softmax weight of key `j` for query `i`. -/
def weight (x : Arr3) (Wq : Arr2) (bq : Arr1) (Wk : Arr2) (bk : Arr1)
    (b : Fin 4) (h : Fin 16) (i j : Fin 2048) : EReal :=
  Ideal.div (expo x Wq bq Wk bk b h i j) (denom x Wq bq Wk bk b h i)

/-- The attended value: the weights of a row against the value projection. -/
def ctx (x : Arr3) (Wq : Arr2) (bq : Arr1) (Wk : Arr2) (bk : Arr1) (Wv : Arr2) (bv : Arr1)
    (b : Fin 4) (h : Fin 16) (i : Fin 2048) (d : Fin 64) : EReal :=
  ∑ j : Fin 2048, weight x Wq bq Wk bk b h i j * lin x Wv bv b j (feat h d)

/-- The result: the heads laid side by side again, through the output projection (no bias). -/
def out (x : Arr3) (Wq : Arr2) (bq : Arr1) (Wk : Arr2) (bk : Arr1) (Wv : Arr2) (bv : Arr1) (Wo : Arr2)
    (b : Fin 4) (n : Fin 2048) (f : Fin 1024) : EReal :=
  ∑ e : Fin 1024, ctx x Wq bq Wk bk Wv bv b ⟨e.val / 64, by have := e.isLt; omega⟩ n ⟨e.val % 64, Nat.mod_lt _ (by norm_num)⟩
    * Wo (ix2 f e)

end Cert.Spec

end
-- ==== Proof.AttnChain.lean ====
/-
  Multi-head attention in the order the kernel computes it: per head, from the head's queries, keys and values
  (given as functions of batch, head, position, coordinate), the masked and scaled scores, the stable softmax over
  the keys, the attended values, and the head's contribution to the output through its 64 rows of the transposed
  output projection; then the sixteen contributions added one after another onto zero.
  The same quantities as the specification (which states them from the inputs through the three projections): with
  the queries, keys and values the projections of the input, and the transposed output weight, the ordered sum over
  the heads of the sums over a head's 64 coordinates is the specification's one sum over the 1024 features.
-/
import proofs.«150942_j28054726378086_2_alg».proof.Proof.Spec

noncomputable section

open scoped BigOperators

namespace Cert.Attn

open Idealize.ShloMosaic Idealize.ShloMosaic.ValueIdx Cert.Spec

/-- Queries, keys or values of all heads: (batch, head, position, coordinate). -/
abbrev Heads : Type := Fin 4 → Fin 16 → Fin 2048 → Fin 64 → EReal

def score (q k : Heads) (b : Fin 4) (h : Fin 16) (i j : Fin 2048) : EReal :=
  if masked i j then (Ideal.ofBits .f32 0xCE6E6B28#32 : EReal)
  else (∑ d : Fin 64, q b h i d * k b h j d) * (Ideal.ofBits .f32 0x3E000000#32 : EReal)

def rowMax (q k : Heads) (b : Fin 4) (h : Fin 16) (i : Fin 2048) : EReal :=
  Finset.univ.sup (fun j : Fin 2048 => score q k b h i j)

def expo (q k : Heads) (b : Fin 4) (h : Fin 16) (i j : Fin 2048) : EReal :=
  Ideal.exp (score q k b h i j - rowMax q k b h i)

def denom (q k : Heads) (b : Fin 4) (h : Fin 16) (i : Fin 2048) : EReal :=
  ∑ j : Fin 2048, expo q k b h i j

def weight (q k : Heads) (b : Fin 4) (h : Fin 16) (i j : Fin 2048) : EReal :=
  Ideal.div (expo q k b h i j) (denom q k b h i)

def ctx (q k v : Heads) (b : Fin 4) (h : Fin 16) (i : Fin 2048) (d : Fin 64) : EReal :=
  ∑ j : Fin 2048, weight q k b h i j * v b h j d

/-- Head `h`'s contribution to output (b, n, f): its attended values against its 64 rows of the transposed output
    weight `wo` (rows are input features, columns output features). -/
def contrib (q k v : Heads) (wo : Fin 1024 → Fin 1024 → EReal) (b : Fin 4) (h : Fin 16) (n : Fin 2048) (f : Fin 1024) : EReal :=
  ∑ d : Fin 64, ctx q k v b h n d * wo (feat h d) f

/-- The contributions of heads 0, …, h added in order onto the zero word. -/
def acc (q k v : Heads) (wo : Fin 1024 → Fin 1024 → EReal) (b : Fin 4) (n : Fin 2048) (f : Fin 1024) : (h : ℕ) → h < 16 → EReal
  | 0, hh => (Ideal.ofBits .f32 0x00000000#32 : EReal) + contrib q k v wo b ⟨0, hh⟩ n f
  | h + 1, hh => acc q k v wo b n f h (Nat.lt_of_succ_lt hh) + contrib q k v wo b ⟨h + 1, hh⟩ n f

end Cert.Attn

end
-- ==== Proof.LibMaxFold.lean ====
/-
  The maximum folded from -∞ over a finite set is the supremum on the extended reals, and the binary32 word of -∞
  denotes the bottom element.
-/
import Idealize.ShloMosaic.PureOps.Ideal
import Idealize.ShloMosaic.PureOps.Ideal.Laws

namespace Idealize.ShloMosaic.MaxFold

open Idealize.ShloMosaic

/-- The binary32 word `0xFF800000` (-∞) denotes the bottom of the extended reals. -/
theorem negInf : (Ideal.ofBits .f32 0xFF800000#32 : EReal) = ⊥ := by simp [Ideal.ofBits, Ideal.ieee]

/-- Folding `max` from `⊥` over a finite set is the supremum over it. -/
theorem fold_max_eq_sup {ι : Type} (s : Finset ι) (f : ι → EReal) : s.fold max (⊥ : EReal) f = s.sup f := rfl

/-- The same for the maximum of the extended-real float operations, from any initial value that is `⊥`. -/
theorem fold_maximumf_eq_sup {ι : Type} (s : Finset ι) (f : ι → EReal) (init : EReal) (hinit : init = ⊥) :
    Finset.fold (FloatOps.maximumf (F := Ideal) (φ := .f32)) init f s = s.sup f := by
  subst hinit
  rfl

/-- One more maximum with -∞ changes nothing. -/
theorem max_negInf_left (y : EReal) : max (Ideal.ofBits .f32 0xFF800000#32 : EReal) y = y := by
  rw [negInf]; exact max_eq_right bot_le

end Idealize.ShloMosaic.MaxFold
-- ==== Proof.KI.R1Final.lean ====
/-
  The attention region's result array, over the extended reals, as a function of the arrays the region finds:
  the per-head queries, keys and values (each [4, 16, 2048, 64]) and the transposed output weight ([1024, 1024]).

  The grid point at position t is batch t / 32, query tile (t / 16) mod 2, head t mod 16. Its query block is rows
  1024 qi .. 1024 qi + 1023 of head h of batch b; its key and value blocks are all 2048 rows of that head; its
  weight block is rows 64 h .. 64 h + 63; its output block is rows 1024 qi .. of batch b. Reading one head's step
  at an index — the shifted scores, their exponentials, row sums and quotients, the two matrix products — gives the
  tile found plus the head's contribution in the kernel-ordered form of the attention (Cert.Attn.contrib). By
  induction on the position, after head h the output tile holds the contributions of heads 0..h added in order onto
  zero; the write-back after head 15 puts that in the result array, and the eight written blocks cover it.
-/
import proofs.«150942_j28054726378086_2_alg».proof.Proof.KI.R1Value
import proofs.«150942_j28054726378086_2_alg».proof.Proof.KI.R1Scores
import proofs.«150942_j28054726378086_2_alg».proof.Proof.AttnChain
import proofs.«150942_j28054726378086_2_alg».proof.Proof.LibMaxFold

set_option maxRecDepth 16384

noncomputable section

open scoped BigOperators

namespace Cert.KernelIdeal.Hand

open Cert.KernelIdeal Cert.KernelIdeal.Gen Cert.KernelIdeal.Pay Idealize.ShloMosaic Idealize.ShloMosaic.TcCoe Idealize.SL.Sem
open Idealize.ShloMosaic.ValueIdx
open Idealize.ShloMosaic.Pipeline (Dat)

-- the buffer contents when the attention region is entered
variable (V : (c : Dev nD) → (b : Ref sig .tc) → Buf (Elt Ideal) ((c : Thread nD τ).loc b))

/-- The region's entry arrays as per-head functions, and the transposed output weight as a matrix. -/
def qH (c : Dev nD) : Cert.Attn.Heads := fun b h i d => (V c main_v9_0 : S4x16x2048x64.Idx → EReal) (ix4 b h i d)
def kH (c : Dev nD) : Cert.Attn.Heads := fun b h i d => (V c main_v9_1 : S4x16x2048x64.Idx → EReal) (ix4 b h i d)
def vH (c : Dev nD) : Cert.Attn.Heads := fun b h i d => (V c main_v9_2 : S4x16x2048x64.Idx → EReal) (ix4 b h i d)
def woM (c : Dev nD) : Fin 1024 → Fin 1024 → EReal := fun e f => (V c main_v8 : S1024x1024.Idx → EReal) (ix2 e f)

/-- The printed index maps and the tile coordinate, decided over the 128 grid points. -/
theorem idx_facts1 : ∀ t : Fin cfg1.N,
    win1_0.index t (0 : Fin 4) = t.val / 32 ∧ win1_0.index t (1 : Fin 4) = t.val % 16 ∧ win1_0.index t (2 : Fin 4) = t.val / 16 % 2 ∧ win1_0.index t (3 : Fin 4) = 0
    ∧ win1_1.index t (0 : Fin 4) = t.val / 32 ∧ win1_1.index t (1 : Fin 4) = t.val % 16 ∧ win1_1.index t (2 : Fin 4) = 0 ∧ win1_1.index t (3 : Fin 4) = 0
    ∧ win1_2.index t (0 : Fin 4) = t.val / 32 ∧ win1_2.index t (1 : Fin 4) = t.val % 16 ∧ win1_2.index t (2 : Fin 4) = 0 ∧ win1_2.index t (3 : Fin 4) = 0
    ∧ win1_3.index t (0 : Fin 2) = t.val % 16 ∧ win1_3.index t (1 : Fin 2) = 0
    ∧ win1_4.index t (0 : Fin 3) = t.val / 32 ∧ win1_4.index t (1 : Fin 3) = t.val / 16 % 2 ∧ win1_4.index t (2 : Fin 3) = 0
    ∧ (grid1.coords t 1).val = t.val / 16 % 2 :=
  (by decide +kernel : ∀ t : Fin grid1.N, _)

/-! ## The input blocks at a local index -/

theorem read1_0 (c : Dev nD) (t : Fin cfg1.N) (r : Fin 1024) (d : Fin 64) (b : Fin 4) (h : Fin 16) (p : Fin 2048)
    (hb : b.val = t.val / 32) (hh : h.val = t.val % 16) (hp : p.val = t.val / 16 % 2 * 1024 + r.val) :
    (iblk1 V c 0 t : S1x1x1024x64.Idx → EReal) (ix4 (0 : Fin 1) (0 : Fin 1) r d) = qH V c b h p d := by
  obtain ⟨a0, a1, a2, a3, -⟩ := idx_facts1 t
  show (V c main_v9_0 : S4x16x2048x64.Idx → EReal) (((cfg1.win 0).blk t).view.emb (ix4 (0 : Fin 1) (0 : Fin 1) r d)) = _
  refine congrArg _ (funext fun a => Fin.ext ?_)
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 1024 + 1 * r.val = p.val; omega
  | ⟨3, _⟩ => show win1_0.index t (3 : Fin 4) * 64 + 1 * d.val = d.val; omega

theorem read1_1 (c : Dev nD) (t : Fin cfg1.N) (j : Fin 2048) (d : Fin 64) (b : Fin 4) (h : Fin 16)
    (hb : b.val = t.val / 32) (hh : h.val = t.val % 16) :
    (iblk1 V c 1 t : S1x1x2048x64.Idx → EReal) (ix4 (0 : Fin 1) (0 : Fin 1) j d) = kH V c b h j d := by
  obtain ⟨-, -, -, -, a0, a1, a2, a3, -⟩ := idx_facts1 t
  show (V c main_v9_1 : S4x16x2048x64.Idx → EReal) (((cfg1.win 1).blk t).view.emb (ix4 (0 : Fin 1) (0 : Fin 1) j d)) = _
  refine congrArg _ (funext fun a => Fin.ext ?_)
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 2048 + 1 * j.val = j.val; omega
  | ⟨3, _⟩ => show win1_1.index t (3 : Fin 4) * 64 + 1 * d.val = d.val; omega

theorem read1_2 (c : Dev nD) (t : Fin cfg1.N) (j : Fin 2048) (d : Fin 64) (b : Fin 4) (h : Fin 16)
    (hb : b.val = t.val / 32) (hh : h.val = t.val % 16) :
    (iblk1 V c 2 t : S1x1x2048x64.Idx → EReal) (ix4 (0 : Fin 1) (0 : Fin 1) j d) = vH V c b h j d := by
  obtain ⟨-, -, -, -, -, -, -, -, a0, a1, a2, a3, -⟩ := idx_facts1 t
  show (V c main_v9_2 : S4x16x2048x64.Idx → EReal) (((cfg1.win 2).blk t).view.emb (ix4 (0 : Fin 1) (0 : Fin 1) j d)) = _
  refine congrArg _ (funext fun a => Fin.ext ?_)
  match a with
  | ⟨0, _⟩ => show win1_2.index t (0 : Fin 4) * 1 + 1 * 0 = b.val; omega
  | ⟨1, _⟩ => show win1_2.index t (1 : Fin 4) * 1 + 1 * 0 = h.val; omega
  | ⟨2, _⟩ => show win1_2.index t (2 : Fin 4) * 2048 + 1 * j.val = j.val; omega
  | ⟨3, _⟩ => show win1_2.index t (3 : Fin 4) * 64 + 1 * d.val = d.val; omega

theorem read1_3 (c : Dev nD) (t : Fin cfg1.N) (d : Fin 64) (f : Fin 1024) (h : Fin 16) (hh : h.val = t.val % 16) :
    (iblk1 V c 3 t : S64x1024.Idx → EReal) (ix2 d f) = woM V c (Cert.Spec.feat h d) f := by
  obtain ⟨-, -, -, -, -, -, -, -, -, -, -, -, a0, a1, -⟩ := idx_facts1 t
  show (V c main_v8 : S1024x1024.Idx → EReal) (((cfg1.win 3).blk t).view.emb (ix2 d f)) = _
  refine congrArg _ (funext fun a => Fin.ext ?_)
  match a with
  | ⟨0, _⟩ => show win1_3.index t (0 : Fin 2) * 64 + 1 * d.val = h.val * 64 + d.val; omega
  | ⟨1, _⟩ => show win1_3.index t (1 : Fin 2) * 1024 + 1 * f.val = f.val; omega

/-! ## One head's step at an index -/

/-- The score the kernel computes for row r of the tile against key j is the score of query position p. -/
theorem tscore_eq (c : Dev nD) (t : Fin cfg1.N) (r : Fin 1024) (j : Fin 2048) (b : Fin 4) (h : Fin 16) (p : Fin 2048)
    (hb : b.val = t.val / 32) (hh : h.val = t.val % 16) (hp : p.val = t.val / 16 % 2 * 1024 + r.val) :
    tscore (t.val / 16 % 2) (iblk1 V c 0 t) (iblk1 V c 1 t) r j = Cert.Attn.score (qH V c) (kH V c) b h p j := by
  unfold tscore Cert.Attn.score
  have hm : tmask (t.val / 16 % 2) r j ↔ Cert.Spec.masked p j := by
    unfold tmask Cert.Spec.masked qpos; rw [hp]
  by_cases hmm : tmask (t.val / 16 % 2) r j
  · rw [if_pos hmm, if_pos (hm.mp hmm)]
  · rw [if_neg hmm, if_neg (fun h' => hmm (hm.mpr h'))]
    refine congrArg (· * _) (Finset.sum_congr rfl fun d _ => ?_)
    rw [read1_0 V c t r d b h p hb hh hp, read1_1 V c t j d b h hb hh]

/-- The row maximum the kernel takes is the supremum of the row's scores. -/
theorem tmax_eq (c : Dev nD) (t : Fin cfg1.N) (r : Fin 1024) (b : Fin 4) (h : Fin 16) (p : Fin 2048)
    (hb : b.val = t.val / 32) (hh : h.val = t.val % 16) (hp : p.val = t.val / 16 % 2 * 1024 + r.val) :
    tmax (t.val / 16 % 2) (iblk1 V c 0 t) (iblk1 V c 1 t) r = Cert.Attn.rowMax (qH V c) (kH V c) b h p := by
  unfold tmax Cert.Attn.rowMax
  rw [Idealize.ShloMosaic.MaxFold.negInf, Idealize.ShloMosaic.MaxFold.fold_max_eq_sup]
  exact congrArg (Finset.univ.sup ·) (funext fun j => tscore_eq V c t r j b h p hb hh hp)

/-- ONE HEAD'S STEP: the tile found plus the head's contribution. -/
theorem step_apply (c : Dev nD) (t : Fin cfg1.N) (xo : Vec Ideal S1x1024x1024 .f32) (u : Fin 1) (r f : Fin 1024)
    (b : Fin 4) (h : Fin 16) (p : Fin 2048)
    (hb : b.val = t.val / 32) (hh : h.val = t.val % 16) (hp : p.val = t.val / 16 % 2 * 1024 + r.val) :
    step (grid1.coords t) (iblk1 V c 0 t) (iblk1 V c 1 t) (iblk1 V c 2 t) (iblk1 V c 3 t) xo (ix3 u r f)
      = xo (ix3 (0 : Fin 1) r f) + Cert.Attn.contrib (qH V c) (kH V c) (vH V c) (woM V c) b h p f := by
  have hq : (grid1.coords t 1).val = t.val / 16 % 2 := (idx_facts1 t).2.2.2.2.2.2.2.2.2.2.2.2.2.2.2.2.2
  unfold step
  rw [pay2_apply]
  refine congrArg (xo (ix3 (0 : Fin 1) r f) + ·) ?_
  unfold Cert.Attn.contrib
  refine Finset.sum_congr rfl fun d _ => ?_
  rw [pay4_eq, read1_3 V c t d f h hh]
  refine congrArg (· * _) ?_
  unfold Cert.Attn.ctx
  refine Finset.sum_congr rfl fun j _ => ?_
  rw [pay3_apply, read1_2 V c t j d b h hb hh]
  refine congrArg (· * _) ?_
  unfold Cert.Attn.weight Cert.Attn.denom Cert.Attn.expo
  simp only [pay5_apply, hq, tscore_eq V c t r _ b h p hb hh hp, tmax_eq V c t r b h p hb hh hp]

/-! ## The tile after each point -/

/-- After the point at position n — batch n / 32, tile (n / 16) mod 2, head n mod 16 — entry (r, f) of the output
    tile is the contributions of heads 0 .. n mod 16 to output (batch, 1024 tile + r, f), added in order onto zero. -/
theorem tile_eq (c : Dev nD) : ∀ (n : ℕ) (hn : n < cfg1.N) (u : Fin 1) (r f : Fin 1024) (b : Fin 4) (p : Fin 2048) (h : ℕ) (hh : h < 16),
    b.val = n / 32 → p.val = n / 16 % 2 * 1024 + r.val → h = n % 16 →
    outsAt1 V c n hn (ix3 u r f) = Cert.Attn.acc (qH V c) (kH V c) (vH V c) (woM V c) b p f h hh := by
  intro n
  induction n with
  | zero =>
    intro hn u r f b p h hh hb hp hh'
    subst hh'
    rw [outsAt1_head0 V c ⟨0, hn⟩ rfl, step_apply V c ⟨0, hn⟩ _ u r f b ⟨0, by norm_num⟩ p hb rfl hp, pay1_apply]
    rfl
  | succ n ih =>
    intro hn u r f b p h hh hb hp hh'
    have hN : n + 1 < 128 := lt_of_lt_of_eq hn (show cfg1.N = 128 from N_1)
    by_cases h0 : (n + 1) % 16 = 0
    · have hz : h = 0 := by omega
      subst hz
      rw [outsAt1_head0 V c ⟨n + 1, hn⟩ h0, step_apply V c ⟨n + 1, hn⟩ _ u r f b ⟨0, by norm_num⟩ p hb (by show 0 = (n + 1) % 16; omega) hp, pay1_apply]
      rfl
    · obtain ⟨h', rfl⟩ : ∃ h', h = h' + 1 := ⟨h - 1, by omega⟩
      rw [outsAt1_later V c ⟨n + 1, hn⟩ h0, step_apply V c ⟨n + 1, hn⟩ _ u r f b ⟨h' + 1, hh⟩ p hb (by show h' + 1 = (n + 1) % 16; omega) hp]
      show outsAt1 V c n _ (ix3 (0 : Fin 1) r f) + _ = Cert.Attn.acc (qH V c) (kH V c) (vH V c) (woM V c) b p f h' (Nat.lt_of_succ_lt hh) + _
      rw [ih (Nat.lt_of_succ_lt hn) (0 : Fin 1) r f b p h' (Nat.lt_of_succ_lt hh) (by omega) (by omega) (by omega)]

/-! ## The result array -/

/-- The result as an array: at (b, n, f) the sixteen heads' contributions added in order onto zero. -/
def attnOut (c : Dev nD) : S4x2048x1024.Idx → EReal :=
  fun i => Cert.Attn.acc (qH V c) (kH V c) (vH V c) (woM V c) (i 0) (i 1) (i 2) 15 (by norm_num)

/-- What a write-back point (head 15) writes is its block of `attnOut`. -/
theorem flushed1_4_eq (c : Dev nD) (t : Fin cfg1.N) (hf : (cfg1.win 4).flush t = true) :
    (dat1 (F := Ideal) V c).flushed 4 t = ((cfg1.win 4).blk t).view.read (Elt Ideal) (attnOut V c) := by
  have h15 : t.val % 16 = 15 := (flush1_4 t).mp hf
  have hN : t.val < 128 := lt_of_lt_of_eq t.isLt (show cfg1.N = 128 from N_1)
  obtain ⟨-, -, -, -, -, -, -, -, -, -, -, -, -, -, o0, o1, o2, -⟩ := idx_facts1 t
  show (cfg1.win 4).cut (grid1.coords t) ((dat1 (F := Ideal) V c).after 4 t) = _
  rw [after1_4]
  refine funext fun (j : S1x1024x1024.Idx) => ?_
  obtain ⟨u, r, f, rfl⟩ : ∃ (u : Fin 1) (r : Fin 1024) (f : Fin 1024), j = ix3 u r f := ⟨j 0, j 1, j 2, eq_ix3 j⟩
  have hu : u.val = 0 := by have := u.isLt; omega
  have hr : r.val < 1024 := r.isLt
  obtain ⟨b, hb⟩ : ∃ b : Fin 4, b.val = t.val / 32 := ⟨⟨t.val / 32, by omega⟩, rfl⟩
  obtain ⟨p, hp⟩ : ∃ p : Fin 2048, p.val = t.val / 16 % 2 * 1024 + r.val := ⟨⟨t.val / 16 % 2 * 1024 + r.val, by omega⟩, rfl⟩
  have hI : ((cfg1.win 4).blk t).view.emb (ix3 u r f) = ix3 b p f := by
    funext a; apply Fin.ext
    match a with
    | ⟨0, _⟩ => show win1_4.index t (0 : Fin 3) * 1 + 1 * u.val = b.val; omega
    | ⟨1, _⟩ => show win1_4.index t (1 : Fin 3) * 1024 + 1 * r.val = p.val; omega
    | ⟨2, _⟩ => show win1_4.index t (2 : Fin 3) * 1024 + 1 * f.val = f.val; omega
  show outsAt1 V c t.val t.isLt (ix3 u r f) = attnOut V c (((cfg1.win 4).blk t).view.emb (ix3 u r f))
  rw [hI, tile_eq V c t.val t.isLt u r f b p 15 (by norm_num) hb hp h15.symm]
  rfl

theorem mem_blk1_4 (t : Fin cfg1.N) (i : S4x2048x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v10).slice (win1_4.rect t)).set ↔ _
  rw [View.set_slice_whole, Rect.mem_set_unit]
  exact Iff.rfl

/-- The eight written blocks cover the result array: row n of batch b lies in the block written after head 15 of
    tile n / 1024 of batch b. -/
theorem covered1_4 (i : S4x2048x1024.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  have hN : cfg1.N = 128 := N_1
  let t : Fin cfg1.N := ⟨((i 0).val * 2 + (i 1).val / 1024) * 16 + 15, by rw [hN]; omega⟩
  have ht : t.val = ((i 0).val * 2 + (i 1).val / 1024) * 16 + 15 := rfl
  obtain ⟨-, -, -, -, -, -, -, -, -, -, -, -, -, -, o0, o1, o2, -⟩ := idx_facts1 t
  refine ⟨t, (flush1_4 t).mpr (by rw [ht]; omega), ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-- THE RESULT ARRAY after the attention region, from the arrays it was entered with. -/
theorem arr1_4 (c : Dev nD) : (dat1 (F := Ideal) V c).arrAt 4 cfg1.N = attnOut V c :=
  (dat1 (F := Ideal) V c).arrAt_eq_of_cover 4 (attnOut V c) (flushed1_4_eq V c) covered1_4

end Cert.KernelIdeal.Hand

end
-- ==== Proof.KI.QKVPayload.lean ====
/- The three values the QKV projection body stores, read at an index, at the ideal float model (every float an
   extended real, every format change the identity).

   With x0 : [1,512,1024] the activation block, x1 : [1024,3072] the weight and x2 : [1,3072] the bias, the body forms
   the [512,3072] array  y(r, f) = (∑ e, x0(0, r, e) * x1(e, f)) + x2(0, f)  (`pay1_apply`: the matrix product into a
   zero accumulator is the sum over the contracted axis; the bias row is broadcast down the rows), and stores, for
   s = 0, 1, 2, the s-th column third of y rearranged to heads-major [1,16,512,64]:
       (0, h, r, d) ↦ y(r, s * 1024 + h * 64 + d)
   (`heads_apply`: a slice at column offset s * 1024, a row-major regrouping of the 1024 columns as 16 × 64, the
   exchange of the row and head axes, and a unit axis in front). `pay2_apply`, `pay3_apply`, `pay4_apply` are the
   three stored values at (0, h, r, d). -/
import proofs.«150942_j28054726378086_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- Column `s * 1024 + h * 64 + d` of the [·, 3072] product: coordinate `d` of head `h` in the `s`-th column third. -/
def col (s : Fin 3) (h : Fin 16) (d : Fin 64) : Fin 3072 :=
  ⟨s.val * 1024 + h.val * 64 + d.val, by have := s.isLt; have := h.isLt; have := d.isLt; omega⟩

theorem col_val (s : Fin 3) (h : Fin 16) (d : Fin 64) : (col s h d).val = s.val * 1024 + h.val * 64 + d.val := rfl

/-! ## The matrix product at an index -/

/-- The left operand's row is the output's row; -/
theorem mm_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- its column the contraction coordinate. -/
theorem mm_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- The right operand's row is the contraction coordinate; -/
theorem mm_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- its column the output's column. -/
theorem mm_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The [512,1024] × [1024,3072] product into the zero accumulator, at (r, f): the sum over the contracted axis. -/
theorem mm_apply (a : FVec Ideal S512x1024 .bf16) (b : FVec Ideal S1024x3072 .bf16) (r : Fin 512) (f : Fin 3072) :
    matmul dot_S512x1024_S1024x3072_S512x3072_1_0_0_1_n_n none a b (constant (F := Ideal) S512x3072 .f32 0x00000000#32) (ix2 r f)
      = ∑ e : Fin 1024, a (ix2 r e) * b (ix2 e f) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r f) ((contrEquiv1 dot_S512x1024_S1024x3072_S512x3072_1_0_0_1_n_n 1024 rfl rfl).symm k) = ix2 r k := funext fun a => Fin.ext (by
    match a with
    | ⟨0, _⟩ => exact mm_lhs_0 _ _
    | ⟨1, _⟩ => exact (mm_lhs_1 _ _).trans hk)
  have er : dot_S512x1024_S1024x3072_S512x3072_1_0_0_1_n_n.rhsIdx (ix2 r f) ((contrEquiv1 dot_S512x1024_S1024x3072_S512x3072_1_0_0_1_n_n 1024 rfl rfl).symm k) = ix2 k f := funext fun a => Fin.ext (by
    match a with
    | ⟨0, _⟩ => exact (mm_rhs_0 _ _).trans hk
    | ⟨1, _⟩ => exact mm_rhs_1 _ _)
  rw [el, er]

/-! ## The product plus the bias row -/

/-- The [512,3072] array the three stores cut: at (r, f), the row of activations against column `f` of the weight,
    plus the bias at `f`. -/
theorem pay1_apply (x0 : Vec Ideal S1x512x1024 .f32) (x1 : Vec Ideal S1024x3072 .bf16) (x2 : Vec Ideal S1x3072 .f32)
    (r : Fin 512) (f : Fin 3072) :
    k0_pay1 (F := Ideal) x0 x1 x2 (ix2 r f)
      = (∑ e : Fin 1024, (x0 (ix3 0 r e) : EReal) * (x1 (ix2 e f) : EReal)) + (x2 (ix2 0 f) : EReal) := by
  unfold k0_pay1
  show addf (matmul dot_S512x1024_S1024x3072_S512x3072_1_0_0_1_n_n none
        (truncf .bf16 (shapeCast S512x1024 x0 shapeCasts_S1x512x1024_S512x1024) bitsLt_bf16_f32)
        (shapeCast S1024x3072 x1 shapeCasts_S1024x3072_S1024x3072) (constant (F := Ideal) S512x3072 .f32 0x00000000#32))
      (broadcastTo S512x3072 (shapeCast S1x3072 x2 shapeCasts_S1x3072_S1x3072) broadcasts_S1x3072_S512x3072) (ix2 r f) = _
  rw [addf_apply, mm_apply, shapeCast_self, shapeCast_self]
  congr 1
  · refine Finset.sum_congr rfl fun e _ => ?_
    rw [truncf_apply, shapeCast_apply x0 shapeCasts_S1x512x1024_S512x1024 (ix2 r e) (ix3 0 r e) (by
      rewrite [Shape.rowMajor_val_three, Shape.rowMajor_val_two]
      show ((0 : ℕ) * 512 + r.val) * 1024 + e.val = r.val * 1024 + e.val
      omega)]
  · exact broadcastTo_apply x2 broadcasts_S1x3072_S512x3072 (ix2 r f) (ix2 0 f) (fun a => match a with
      | ⟨0, _⟩ => by show (0 : ℕ) = if (1 : Nat) = 1 then 0 else r.val; rw [if_pos rfl]
      | ⟨1, _⟩ => by show f.val = if (3072 : Nat) = 1 then 0 else f.val; rw [if_neg (by decide)])

/-! ## A column third, heads-major -/

/-- A [512,1024] slice of `y` at offsets `off` (rows from 0), rounded to the narrower format (the identity here),
    its columns regrouped as 16 heads of 64, the head axis brought in front of the rows, under a unit axis: at
    (0, h, r, d) it is `y` at row `r` and the column `off 1 + h * 64 + d`. -/
theorem heads_apply (y : FVec Ideal S512x3072 .f32) (off : Fin S512x3072.rank → Nat) (hs : S512x3072.Slices off S512x1024)
    (u : Fin 1) (h : Fin 16) (r : Fin 512) (d : Fin 64) (f : Fin 3072)
    (h0 : off 0 = 0) (h1 : f.val = off 1 + (h.val * 64 + d.val)) :
    shapeCast S1x16x512x64 (transpose S16x512x64 [1, 0, 2]
        (shapeCast S512x16x64 (truncf .bf16 (extractStridedSlice S512x1024 off y hs) bitsLt_bf16_f32) shapeCasts_S512x1024_S512x16x64)
        transposes_S512x16x64_p1_0_2_S16x512x64) shapeCasts_S16x512x64_S1x16x512x64 (ix4 u h r d)
      = y (ix2 r f) := by
  have hd : h.val * 64 + d.val < 1024 := by have := h.isLt; have := d.isLt; omega
  rw [shapeCast_apply _ shapeCasts_S16x512x64_S1x16x512x64 (ix4 u h r d) (ix3 h r d) (by
    rewrite [Shape.rowMajor_val_three, Shape.rowMajor_val_four]
    show (h.val * 512 + r.val) * 64 + d.val = ((u.val * 16 + h.val) * 512 + r.val) * 64 + d.val
    have := u.isLt; omega)]
  rw [transpose_apply [1, 0, 2] _ transposes_S512x16x64_p1_0_2_S16x512x64 (ix3 h r d) (ix3 r h d) (fun b => match b with
    | ⟨0, _⟩ => rfl
    | ⟨1, _⟩ => rfl
    | ⟨2, _⟩ => rfl)]
  rw [shapeCast_apply _ shapeCasts_S512x1024_S512x16x64 (ix3 r h d) (ix2 r (⟨h.val * 64 + d.val, hd⟩ : Fin 1024)) (by
    rewrite [Shape.rowMajor_val_two, Shape.rowMajor_val_three]
    show r.val * 1024 + (h.val * 64 + d.val) = (r.val * 16 + h.val) * 64 + d.val
    omega)]
  rw [truncf_apply]
  exact extractStridedSlice_apply off y hs _ (ix2 r f) (fun a => match a with
    | ⟨0, _⟩ => by show r.val = off 0 + r.val; omega
    | ⟨1, _⟩ => by show f.val = off 1 + (h.val * 64 + d.val); exact h1)

/-! ## The three stored values -/

/-- The first store's value (the first column third) at (0, h, r, d). -/
theorem pay2_apply (x0 : Vec Ideal S1x512x1024 .f32) (x1 : Vec Ideal S1024x3072 .bf16) (x2 : Vec Ideal S1x3072 .f32)
    (u : Fin 1) (h : Fin 16) (r : Fin 512) (d : Fin 64) :
    k0_pay2 (F := Ideal) x0 x1 x2 (ix4 u h r d)
      = (∑ e : Fin 1024, (x0 (ix3 0 r e) : EReal) * (x1 (ix2 e (col 0 h d)) : EReal)) + (x2 (ix2 0 (col 0 h d)) : EReal) := by
  unfold k0_pay2
  exact (heads_apply (k0_pay1 x0 x1 x2) ![0, 0] slices_S512x3072_o0_0_S512x1024 u h r d (col 0 h d) rfl
    (by show (0 : ℕ) * 1024 + h.val * 64 + d.val = 0 + (h.val * 64 + d.val); omega)).trans (pay1_apply x0 x1 x2 r (col 0 h d))

/-- The second store's value (the second column third) at (0, h, r, d). -/
theorem pay3_apply (x0 : Vec Ideal S1x512x1024 .f32) (x1 : Vec Ideal S1024x3072 .bf16) (x2 : Vec Ideal S1x3072 .f32)
    (u : Fin 1) (h : Fin 16) (r : Fin 512) (d : Fin 64) :
    k0_pay3 (F := Ideal) x0 x1 x2 (ix4 u h r d)
      = (∑ e : Fin 1024, (x0 (ix3 0 r e) : EReal) * (x1 (ix2 e (col 1 h d)) : EReal)) + (x2 (ix2 0 (col 1 h d)) : EReal) := by
  unfold k0_pay3
  exact (heads_apply (k0_pay1 x0 x1 x2) ![0, 1024] slices_S512x3072_o0_1024_S512x1024 u h r d (col 1 h d) rfl
    (by show (1 : ℕ) * 1024 + h.val * 64 + d.val = 1024 + (h.val * 64 + d.val); omega)).trans (pay1_apply x0 x1 x2 r (col 1 h d))

/-- The third store's value (the third column third) at (0, h, r, d). -/
theorem pay4_apply (x0 : Vec Ideal S1x512x1024 .f32) (x1 : Vec Ideal S1024x3072 .bf16) (x2 : Vec Ideal S1x3072 .f32)
    (u : Fin 1) (h : Fin 16) (r : Fin 512) (d : Fin 64) :
    k0_pay4 (F := Ideal) x0 x1 x2 (ix4 u h r d)
      = (∑ e : Fin 1024, (x0 (ix3 0 r e) : EReal) * (x1 (ix2 e (col 2 h d)) : EReal)) + (x2 (ix2 0 (col 2 h d)) : EReal) := by
  unfold k0_pay4
  exact (heads_apply (k0_pay1 x0 x1 x2) ![0, 2048] slices_S512x3072_o0_2048_S512x1024 u h r d (col 2 h d) rfl
    (by show (2 : ℕ) * 1024 + h.val * 64 + d.val = 2048 + (h.val * 64 + d.val); omega)).trans (pay1_apply x0 x1 x2 r (col 2 h d))

end Cert.KernelIdeal.Hand

end
-- ==== Proof.KI.QKVValue.lean ====
/- What the QKV projection region leaves in its three output arrays, at the ideal float model, as ONE function of
   the contents the region finds (`V`) in the activation array, the weight array and the bias array:

     array of window 3 + s  at (b, h, n, d)  =  (∑ e, X(b, n, e) * W(e, s * 1024 + h * 64 + d)) + B(0, s * 1024 + h * 64 + d)

   for s = 0, 1, 2 (`proj s`), X : [4,2048,1024], W : [1024,3072], B : [1,3072].
   The grid is 4 × 4; point (b, k) reads rows 512 k … 512 k + 511 of batch b of X and the whole of W and B, and writes
   the [1,16,512,64] block at (b, 0, k, 0) of each output. What a point writes back is the body's stored value
   (read at an index in the payload module) of its input blocks, and an input block at a local index is the array at
   the block's offset plus the local index; so each point writes its block of `proj s` (`flushed0_W_eq`). The
   sixteen blocks cover the output array (row n of batch b is in the block of point (b, n / 512): `covered0_W`), hence
   the array ends holding `proj s` everywhere (`arr0_W`). -/
import proofs.«150942_j28054726378086_2_alg».proof.Proof.KI.Region0
import proofs.«150942_j28054726378086_2_alg».proof.Proof.KI.QKVPayload
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## The function the outputs hold -/

/-- Row `n` of batch `b` of `A` against column `col s h d` of `W`, plus `B` at that column. -/
def projAt (s : Fin 3) (A : S4x2048x1024.Idx → EReal) (W : S1024x3072.Idx → EReal) (B : S1x3072.Idx → EReal)
    (b : Fin 4) (h : Fin 16) (n : Fin 2048) (d : Fin 64) : EReal :=
  (∑ e : Fin 1024, A (ix3 b n e) * W (ix2 e (col s h d))) + B (ix2 (0 : Fin 1) (col s h d))

/-- The same as an array of the outputs' shape, heads-major: index (b, h, n, d). -/
def proj (s : Fin 3) (A : S4x2048x1024.Idx → EReal) (W : S1024x3072.Idx → EReal) (B : S1x3072.Idx → EReal) :
    S4x16x2048x64.Idx → EReal :=
  fun i => projAt s A W B (i 0) (i 1) (i 2) (i 3)

/-! ## The offsets spelt as functions, and the index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 16 grid points: the activation window's block position is
    (b, k, 0) with b, k ≤ 3; the weight's and the bias's never move; each output's is (b, 0, k, 0). -/
theorem idx_facts0 : ∀ t : Fin cfg0.N,
    win0_0.index t (0 : Fin 3) ≤ 3 ∧ win0_0.index t (1 : Fin 3) ≤ 3 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = win0_0.index t (0 : Fin 3) ∧ win0_3.index t (1 : Fin 4) = 0
    ∧ win0_3.index t (2 : Fin 4) = win0_0.index t (1 : Fin 3) ∧ win0_3.index t (3 : Fin 4) = 0
    ∧ win0_4.index t (0 : Fin 4) = win0_0.index t (0 : Fin 3) ∧ win0_4.index t (1 : Fin 4) = 0
    ∧ win0_4.index t (2 : Fin 4) = win0_0.index t (1 : Fin 3) ∧ win0_4.index t (3 : Fin 4) = 0
    ∧ win0_5.index t (0 : Fin 4) = win0_0.index t (0 : Fin 3) ∧ win0_5.index t (1 : Fin 4) = 0
    ∧ win0_5.index t (2 : Fin 4) = win0_0.index t (1 : Fin 3) ∧ win0_5.index t (3 : Fin 4) = 0 :=
  (by decide +kernel : ∀ t : Fin grid0.N, _)

/-! ## An input block at a local index is the array at the block's offset plus the local index -/

/-- The activation block of point `t` at (0, r, e) is the array at (b, 512 k + r, e), (b, k, 0) the block's position. -/
theorem read0_0 (c : Dev nD) (t : Fin cfg0.N) (r : Fin 512) (e : Fin 1024) (b : Fin 4) (n : Fin 2048)
    (hb : b.val = win0_0.index t (0 : Fin 3)) (hn : n.val = win0_0.index t (1 : Fin 3) * 512 + r.val)
    (h2 : win0_0.index t (2 : Fin 3) = 0) :
    (iblk0 V c 0 t : S1x512x1024.Idx → EReal) (ix3 (0 : Fin 1) r e) = (V c main_arg0 : S4x2048x1024.Idx → EReal) (ix3 b n e) := by
  show (V c main_arg0 : S4x2048x1024.Idx → EReal) (((cfg0.win 0).blk t).view.emb (ix3 (0 : Fin 1) r e)) = _
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 1024 + 1 * e.val = e.val; omega

/-- The weight block of any point is the whole weight array. -/
theorem read0_1 (c : Dev nD) (t : Fin cfg0.N) (e : Fin 1024) (f : Fin 3072)
    (h0 : win0_1.index t (0 : Fin 2) = 0) (h1 : win0_1.index t (1 : Fin 2) = 0) :
    (iblk0 V c 1 t : S1024x3072.Idx → EReal) (ix2 e f) = (V c main_v4 : S1024x3072.Idx → EReal) (ix2 e f) := by
  show (V c main_v4 : S1024x3072.Idx → EReal) (((cfg0.win 1).blk t).view.emb (ix2 e f)) = _
  refine congrArg _ (funext fun a => Fin.ext ?_)
  match a with
  | ⟨0, _⟩ => show win0_1.index t (0 : Fin 2) * 1024 + 1 * e.val = e.val; omega
  | ⟨1, _⟩ => show win0_1.index t (1 : Fin 2) * 3072 + 1 * f.val = f.val; omega

/-- The bias block of any point is the whole bias array. -/
theorem read0_2 (c : Dev nD) (t : Fin cfg0.N) (f : Fin 3072)
    (h0 : win0_2.index t (0 : Fin 2) = 0) (h1 : win0_2.index t (1 : Fin 2) = 0) :
    (iblk0 V c 2 t : S1x3072.Idx → EReal) (ix2 (0 : Fin 1) f) = (V c main_v6 : S1x3072.Idx → EReal) (ix2 (0 : Fin 1) f) := by
  show (V c main_v6 : S1x3072.Idx → EReal) (((cfg0.win 2).blk t).view.emb (ix2 (0 : Fin 1) f)) = _
  refine congrArg _ (funext fun a => Fin.ext ?_)
  match a with
  | ⟨0, _⟩ => show win0_2.index t (0 : Fin 2) * 1 + 1 * 0 = 0; omega
  | ⟨1, _⟩ => show win0_2.index t (1 : Fin 2) * 3072 + 1 * f.val = f.val; omega

/-! ## Output window 3: the first column third -/

/-- Every block position of the output array is some grid point's. -/
theorem idx_onto0_3 : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])

/-- What point `t` writes back to window 3's array is block `t` of `proj 0` of the entry contents. -/
theorem flushed0_3_eq (c : Dev nD) (t : Fin cfg0.N) :
    (dat0 (F := Ideal) V c).flushed 3 t
      = ((cfg0.win 3).blk t).view.read (Elt Ideal) (proj 0 (V c main_arg0) (V c main_v4) (V c main_v6)) := by
  show (cfg0.win 3).cut (grid0.coords t) ((dat0 (F := Ideal) V c).after 3 t) = _
  rw [after0_3]
  unfold out0_3
  rw [View.canon_unit_zero hz4]
  simp only [View.ld_unit_zero (S := S1x512x1024) hz3, View.ld_unit_zero (S := S1024x3072) hz2, View.ld_unit_zero (S := S1x3072) hz2]
  obtain ⟨a0, a1, a2, b0, b1, c0, c1, o30, o31, o32, o33, o40, o41, o42, o43, o50, o51, o52, o53⟩ := idx_facts0 t
  refine funext fun (j : S1x16x512x64.Idx) => ?_
  obtain ⟨u, h, r, d, rfl⟩ : ∃ (u : Fin 1) (h : Fin 16) (r : Fin 512) (d : Fin 64), j = ix4 u h r d := ⟨j 0, j 1, j 2, j 3, eq_ix4 j⟩
  have hu : u.val = 0 := by have := u.isLt; omega
  have hr : r.val < 512 := r.isLt
  obtain ⟨b, hb⟩ : ∃ b : Fin 4, b.val = win0_0.index t (0 : Fin 3) := ⟨⟨win0_0.index t (0 : Fin 3), by omega⟩, rfl⟩
  obtain ⟨n, hn⟩ : ∃ n : Fin 2048, n.val = win0_0.index t (1 : Fin 3) * 512 + r.val := ⟨⟨win0_0.index t (1 : Fin 3) * 512 + r.val, by omega⟩, rfl⟩
  have hI : ((cfg0.win 3).blk t).view.emb (ix4 u h r d) = ix4 b h n d := by
    funext a; apply Fin.ext
    match a with
    | ⟨0, _⟩ => show win0_3.index t (0 : Fin 4) * 1 + 1 * u.val = b.val; omega
    | ⟨1, _⟩ => show win0_3.index t (1 : Fin 4) * 16 + 1 * h.val = h.val; omega
    | ⟨2, _⟩ => show win0_3.index t (2 : Fin 4) * 512 + 1 * r.val = n.val; omega
    | ⟨3, _⟩ => show win0_3.index t (3 : Fin 4) * 64 + 1 * d.val = d.val; omega
  show k0_pay2 (F := Ideal) (iblk0 V c 0 t) (iblk0 V c 1 t) (iblk0 V c 2 t) (ix4 u h r d)
    = proj 0 (V c main_arg0) (V c main_v4) (V c main_v6) (((cfg0.win 3).blk t).view.emb (ix4 u h r d))
  rw [hI, pay2_apply (iblk0 V c 0 t) (iblk0 V c 1 t) (iblk0 V c 2 t) u h r d]
  show _ = projAt 0 (V c main_arg0) (V c main_v4) (V c main_v6) b h n d
  unfold projAt
  rw [read0_2 V c t _ c0 c1]
  congr 1
  refine Finset.sum_congr rfl fun e _ => ?_
  rw [read0_0 V c t r e b n hb hn a2, read0_1 V c t e _ b0 b1]

/-- An index of the array is in point `t`'s block iff each coordinate is in the block's range on its axis. -/
theorem mem_blk0_3 (t : Fin cfg0.N) (i : S4x16x2048x64.Idx) :
    i ∈ ((cfg0.win 3).blk t).view.set ↔ ∀ a : Fin 4, win0_3.index t a * S1x16x512x64.size a ≤ (i a).val ∧ (i a).val < win0_3.index t a * S1x16x512x64.size a + S1x16x512x64.size a := by
  show i ∈ ((View.whole main_v9_0).slice (win0_3.rect t)).set ↔ _
  rw [View.set_slice_whole, Rect.mem_set_unit]
  exact Iff.rfl

/-- The blocks cover the array: row `n` of batch `b` lies in the block of the point at (b, n / 512). -/
theorem covered0_3 (i : S4x16x2048x64.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto0_3 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk0_3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- THE ARRAY after the region: window 3's array is `proj 0` of the entry contents, everywhere. -/
theorem arr0_3 (c : Dev nD) :
    (dat0 (F := Ideal) V c).arrAt 3 cfg0.N = proj 0 (V c main_arg0) (V c main_v4) (V c main_v6) :=
  (dat0 (F := Ideal) V c).arrAt_eq_of_cover 3 (proj 0 (V c main_arg0) (V c main_v4) (V c main_v6))
    (fun t _ => flushed0_3_eq V c t) covered0_3

/-! ## Output window 4: the second column third -/

/-- Every block position of the output array is some grid point's. -/
theorem idx_onto0_4 : ∀ (q0 : Fin 4) (q2 : Fin 4), ∃ t : Fin cfg0.N, win0_4.index t = ![q0.val, 0, q2.val, 0] :=
  (by decide +kernel : ∀ (q0 : Fin 4) (q2 : Fin 4), ∃ t : Fin grid0.N, win0_4.index t = ![q0.val, 0, q2.val, 0])

/-- What point `t` writes back to window 4's array is block `t` of `proj 1` of the entry contents. -/
theorem flushed0_4_eq (c : Dev nD) (t : Fin cfg0.N) :
    (dat0 (F := Ideal) V c).flushed 4 t
      = ((cfg0.win 4).blk t).view.read (Elt Ideal) (proj 1 (V c main_arg0) (V c main_v4) (V c main_v6)) := by
  show (cfg0.win 4).cut (grid0.coords t) ((dat0 (F := Ideal) V c).after 4 t) = _
  rw [after0_4]
  unfold out0_4
  rw [View.canon_unit_zero hz4]
  simp only [View.ld_unit_zero (S := S1x512x1024) hz3, View.ld_unit_zero (S := S1024x3072) hz2, View.ld_unit_zero (S := S1x3072) hz2]
  obtain ⟨a0, a1, a2, b0, b1, c0, c1, o30, o31, o32, o33, o40, o41, o42, o43, o50, o51, o52, o53⟩ := idx_facts0 t
  refine funext fun (j : S1x16x512x64.Idx) => ?_
  obtain ⟨u, h, r, d, rfl⟩ : ∃ (u : Fin 1) (h : Fin 16) (r : Fin 512) (d : Fin 64), j = ix4 u h r d := ⟨j 0, j 1, j 2, j 3, eq_ix4 j⟩
  have hu : u.val = 0 := by have := u.isLt; omega
  have hr : r.val < 512 := r.isLt
  obtain ⟨b, hb⟩ : ∃ b : Fin 4, b.val = win0_0.index t (0 : Fin 3) := ⟨⟨win0_0.index t (0 : Fin 3), by omega⟩, rfl⟩
  obtain ⟨n, hn⟩ : ∃ n : Fin 2048, n.val = win0_0.index t (1 : Fin 3) * 512 + r.val := ⟨⟨win0_0.index t (1 : Fin 3) * 512 + r.val, by omega⟩, rfl⟩
  have hI : ((cfg0.win 4).blk t).view.emb (ix4 u h r d) = ix4 b h n d := by
    funext a; apply Fin.ext
    match a with
    | ⟨0, _⟩ => show win0_4.index t (0 : Fin 4) * 1 + 1 * u.val = b.val; omega
    | ⟨1, _⟩ => show win0_4.index t (1 : Fin 4) * 16 + 1 * h.val = h.val; omega
    | ⟨2, _⟩ => show win0_4.index t (2 : Fin 4) * 512 + 1 * r.val = n.val; omega
    | ⟨3, _⟩ => show win0_4.index t (3 : Fin 4) * 64 + 1 * d.val = d.val; omega
  show k0_pay3 (F := Ideal) (iblk0 V c 0 t) (iblk0 V c 1 t) (iblk0 V c 2 t) (ix4 u h r d)
    = proj 1 (V c main_arg0) (V c main_v4) (V c main_v6) (((cfg0.win 4).blk t).view.emb (ix4 u h r d))
  rw [hI, pay3_apply (iblk0 V c 0 t) (iblk0 V c 1 t) (iblk0 V c 2 t) u h r d]
  show _ = projAt 1 (V c main_arg0) (V c main_v4) (V c main_v6) b h n d
  unfold projAt
  rw [read0_2 V c t _ c0 c1]
  congr 1
  refine Finset.sum_congr rfl fun e _ => ?_
  rw [read0_0 V c t r e b n hb hn a2, read0_1 V c t e _ b0 b1]

/-- An index of the array is in point `t`'s block iff each coordinate is in the block's range on its axis. -/
theorem mem_blk0_4 (t : Fin cfg0.N) (i : S4x16x2048x64.Idx) :
    i ∈ ((cfg0.win 4).blk t).view.set ↔ ∀ a : Fin 4, win0_4.index t a * S1x16x512x64.size a ≤ (i a).val ∧ (i a).val < win0_4.index t a * S1x16x512x64.size a + S1x16x512x64.size a := by
  show i ∈ ((View.whole main_v9_1).slice (win0_4.rect t)).set ↔ _
  rw [View.set_slice_whole, Rect.mem_set_unit]
  exact Iff.rfl

/-- The blocks cover the array: row `n` of batch `b` lies in the block of the point at (b, n / 512). -/
theorem covered0_4 (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto0_4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk0_4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE ARRAY after the region: window 4's array is `proj 1` of the entry contents, everywhere. -/
theorem arr0_4 (c : Dev nD) :
    (dat0 (F := Ideal) V c).arrAt 4 cfg0.N = proj 1 (V c main_arg0) (V c main_v4) (V c main_v6) :=
  (dat0 (F := Ideal) V c).arrAt_eq_of_cover 4 (proj 1 (V c main_arg0) (V c main_v4) (V c main_v6))
    (fun t _ => flushed0_4_eq V c t) covered0_4

/-! ## Output window 5: the third column third -/

/-- Every block position of the output array is some grid point's. -/
theorem idx_onto0_5 : ∀ (q0 : Fin 4) (q2 : Fin 4), ∃ t : Fin cfg0.N, win0_5.index t = ![q0.val, 0, q2.val, 0] :=
  (by decide +kernel : ∀ (q0 : Fin 4) (q2 : Fin 4), ∃ t : Fin grid0.N, win0_5.index t = ![q0.val, 0, q2.val, 0])

/-- What point `t` writes back to window 5's array is block `t` of `proj 2` of the entry contents. -/
theorem flushed0_5_eq (c : Dev nD) (t : Fin cfg0.N) :
    (dat0 (F := Ideal) V c).flushed 5 t
      = ((cfg0.win 5).blk t).view.read (Elt Ideal) (proj 2 (V c main_arg0) (V c main_v4) (V c main_v6)) := by
  show (cfg0.win 5).cut (grid0.coords t) ((dat0 (F := Ideal) V c).after 5 t) = _
  rw [after0_5]
  unfold out0_5
  rw [View.canon_unit_zero hz4]
  simp only [View.ld_unit_zero (S := S1x512x1024) hz3, View.ld_unit_zero (S := S1024x3072) hz2, View.ld_unit_zero (S := S1x3072) hz2]
  obtain ⟨a0, a1, a2, b0, b1, c0, c1, o30, o31, o32, o33, o40, o41, o42, o43, o50, o51, o52, o53⟩ := idx_facts0 t
  refine funext fun (j : S1x16x512x64.Idx) => ?_
  obtain ⟨u, h, r, d, rfl⟩ : ∃ (u : Fin 1) (h : Fin 16) (r : Fin 512) (d : Fin 64), j = ix4 u h r d := ⟨j 0, j 1, j 2, j 3, eq_ix4 j⟩
  have hu : u.val = 0 := by have := u.isLt; omega
  have hr : r.val < 512 := r.isLt
  obtain ⟨b, hb⟩ : ∃ b : Fin 4, b.val = win0_0.index t (0 : Fin 3) := ⟨⟨win0_0.index t (0 : Fin 3), by omega⟩, rfl⟩
  obtain ⟨n, hn⟩ : ∃ n : Fin 2048, n.val = win0_0.index t (1 : Fin 3) * 512 + r.val := ⟨⟨win0_0.index t (1 : Fin 3) * 512 + r.val, by omega⟩, rfl⟩
  have hI : ((cfg0.win 5).blk t).view.emb (ix4 u h r d) = ix4 b h n d := by
    funext a; apply Fin.ext
    match a with
    | ⟨0, _⟩ => show win0_5.index t (0 : Fin 4) * 1 + 1 * u.val = b.val; omega
    | ⟨1, _⟩ => show win0_5.index t (1 : Fin 4) * 16 + 1 * h.val = h.val; omega
    | ⟨2, _⟩ => show win0_5.index t (2 : Fin 4) * 512 + 1 * r.val = n.val; omega
    | ⟨3, _⟩ => show win0_5.index t (3 : Fin 4) * 64 + 1 * d.val = d.val; omega
  show k0_pay4 (F := Ideal) (iblk0 V c 0 t) (iblk0 V c 1 t) (iblk0 V c 2 t) (ix4 u h r d)
    = proj 2 (V c main_arg0) (V c main_v4) (V c main_v6) (((cfg0.win 5).blk t).view.emb (ix4 u h r d))
  rw [hI, pay4_apply (iblk0 V c 0 t) (iblk0 V c 1 t) (iblk0 V c 2 t) u h r d]
  show _ = projAt 2 (V c main_arg0) (V c main_v4) (V c main_v6) b h n d
  unfold projAt
  rw [read0_2 V c t _ c0 c1]
  congr 1
  refine Finset.sum_congr rfl fun e _ => ?_
  rw [read0_0 V c t r e b n hb hn a2, read0_1 V c t e _ b0 b1]

/-- An index of the array is in point `t`'s block iff each coordinate is in the block's range on its axis. -/
theorem mem_blk0_5 (t : Fin cfg0.N) (i : S4x16x2048x64.Idx) :
    i ∈ ((cfg0.win 5).blk t).view.set ↔ ∀ a : Fin 4, win0_5.index t a * S1x16x512x64.size a ≤ (i a).val ∧ (i a).val < win0_5.index t a * S1x16x512x64.size a + S1x16x512x64.size a := by
  show i ∈ ((View.whole main_v9_2).slice (win0_5.rect t)).set ↔ _
  rw [View.set_slice_whole, Rect.mem_set_unit]
  exact Iff.rfl

/-- The blocks cover the array: row `n` of batch `b` lies in the block of the point at (b, n / 512). -/
theorem covered0_5 (i : S4x16x2048x64.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto0_5 ⟨(i 0).val, hi0⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [mem_blk0_5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- THE ARRAY after the region: window 5's array is `proj 2` of the entry contents, everywhere. -/
theorem arr0_5 (c : Dev nD) :
    (dat0 (F := Ideal) V c).arrAt 5 cfg0.N = proj 2 (V c main_arg0) (V c main_v4) (V c main_v6) :=
  (dat0 (F := Ideal) V c).arrAt_eq_of_cover 5 (proj 2 (V c main_arg0) (V c main_v4) (V c main_v6))
    (fun t _ => flushed0_5_eq V c t) covered0_5

end Cert.KernelIdeal.Hand

end
-- ==== Proof.KI.Prelude.lean ====
/- What the host operations before the first kernel region leave in the two arrays the QKV projection reads besides
   the activations, at the ideal float model, index by index in terms of the ARGUMENT arrays:

   * the weight array [1024, 3072] is the three weight matrices transposed and laid side by side along the columns, then
     converted to the narrower format (the identity here): at (e, s * 1024 + g) it is the s-th weight matrix at (g, e);
   * the bias array [1, 3072] is the three bias vectors laid end to end and given a unit leading axis: at
     (0, s * 1024 + g) it is the s-th bias vector at g.

   `v4_eq`, `v6_eq` compute the two arrays as closed terms from the list of host operations (each operation's
   result at its own buffer is its function of its operands' contents; at any other buffer, what was there);
   `v4_apply_q/k/v`, `v6_apply_q/k/v` read them at an index. -/
import proofs.«150942_j28054726378086_2_alg».proof.Proof.Gen.KernelIdeal.Regions
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

-- the memory at launch
variable (m : (ℓ : Loc nD τ sig) → Buf (Elt Ideal) ℓ)

/-! ## The two arrays as closed terms -/

/-- The weight array after the host operations: the three transposed weight matrices joined along axis 1. -/
theorem v4_eq (c : Dev nD) : @Eq (S1024x3072.Idx → EReal) (Gen.V1 m c main_v4)
    (truncf (F := Ideal) .bf16 (concatenate S1024x3072 1
        [⟨S1024x1024, transpose S1024x1024 [1, 0] (m ((c : Thread nD τ).loc main_arg1) : S1024x1024.Idx → EReal) transposes_S1024x1024_S1024x1024_1_0⟩,
         ⟨S1024x1024, transpose S1024x1024 [1, 0] (m ((c : Thread nD τ).loc main_arg3) : S1024x1024.Idx → EReal) transposes_S1024x1024_S1024x1024_1_0⟩,
         ⟨S1024x1024, transpose S1024x1024 [1, 0] (m ((c : Thread nD τ).loc main_arg5) : S1024x1024.Idx → EReal) transposes_S1024x1024_S1024x1024_1_0⟩]
        concatenates_S1024x1024_S1024x1024_S1024x1024_S1024x3072_d1) bitsLt_bf16_f32) := by
  dsimp only [Gen.V1, Gen.V0, hostOps0]
  after_results
  dsimp only [Matrix.cons_val_zero, Matrix.cons_val_one, Matrix.cons_val_two, Matrix.head_cons, Matrix.tail_cons]
  repeat (first
    | rw [unary_result]
    | (rw [unary_result_ne]; rotate_left; decide))
  rfl

/-- The bias array after the host operations: the three bias vectors joined, reshaped to one row. -/
theorem v6_eq (c : Dev nD) : @Eq (S1x3072.Idx → EReal) (Gen.V1 m c main_v6)
    (shapeCast S1x3072 (concatenate S3072 0
        [⟨S1024, (m ((c : Thread nD τ).loc main_arg2) : S1024.Idx → EReal)⟩, ⟨S1024, (m ((c : Thread nD τ).loc main_arg4) : S1024.Idx → EReal)⟩, ⟨S1024, (m ((c : Thread nD τ).loc main_arg6) : S1024.Idx → EReal)⟩]
        concatenates_S1024_S1024_S1024_S3072_d0) shapeCasts_S3072_S1x3072) := by
  dsimp only [Gen.V1, Gen.V0, hostOps0]
  after_results
  dsimp only [Matrix.cons_val_zero, Matrix.cons_val_one, Matrix.cons_val_two, Matrix.head_cons, Matrix.tail_cons]
  repeat (first
    | (rw [unary_result_ne]; rotate_left; decide)
    | (rw [nary_result_ne]; rotate_left; decide))
  rfl

/-- No host operation writes the activation array. -/
theorem v_arg0_eq (c : Dev nD) : Gen.V1 m c main_arg0 = m ((c : Thread nD τ).loc main_arg0) :=
  (Gen.V1_of m c main_arg0 (by decide)).trans rfl

/-! ## The two arrays at an index -/

/-- The weight array the region finds, in its first 1024 columns: column `0 + g` of row `e` is `main_arg1` at (g, e). -/
theorem v4_apply_q (c : Dev nD) (e g : Fin 1024) (f : Fin 3072) (hf : f.val = 0 + g.val) :
    (Gen.V1 m c main_v4 : S1024x3072.Idx → EReal) (ix2 e f)
      = (m ((c : Thread nD τ).loc main_arg1) : S1024x1024.Idx → EReal) (ix2 g e) := by
  refine (congrFun (v4_eq m c) (ix2 e f)).trans ?_
  rw [truncf_apply]
  refine (concatenate_apply_piece (1 : Fin S1024x3072.rank) _ _ (ix2 e f)
    0 (by show (0 : ℕ) < 3; omega) S1024x1024 _ rfl rfl 0 (by rfl) (ix2 e g)
    (fun b hb => match b, hb with
      | ⟨0, _⟩, _ => rfl
      | ⟨1, _⟩, hb => absurd (Fin.ext rfl) hb)
    (by show 0 + g.val = f.val; omega)).trans ?_
  exact transpose_apply [1, 0] _ transposes_S1024x1024_S1024x1024_1_0 (ix2 e g) (ix2 g e) (fun b => match b with
    | ⟨0, _⟩ => rfl
    | ⟨1, _⟩ => rfl)

/-- The bias row the region finds, in its first 1024 columns: column `0 + g` is `main_arg2` at `g`. -/
theorem v6_apply_q (c : Dev nD) (g : Fin 1024) (f : Fin 3072) (hf : f.val = 0 + g.val) :
    (Gen.V1 m c main_v6 : S1x3072.Idx → EReal) (ix2 (0 : Fin 1) f)
      = (m ((c : Thread nD τ).loc main_arg2) : S1024.Idx → EReal) (ix1 g) := by
  refine (congrFun (v6_eq m c) (ix2 (0 : Fin 1) f)).trans ?_
  refine (shapeCast_apply _ shapeCasts_S3072_S1x3072 (ix2 (0 : Fin 1) f) (ix1 f) (by
    rewrite [Shape.rowMajor_val_one, Shape.rowMajor_val_two]
    show f.val = (0 : ℕ) * 3072 + f.val
    omega)).trans ?_
  exact concatenate_apply_piece (0 : Fin S3072.rank) _ _ (ix1 f)
    0 (by show (0 : ℕ) < 3; omega) S1024 _ rfl rfl 0 (by rfl) (ix1 g)
    (fun b hb => match b, hb with
      | ⟨0, _⟩, hb => absurd (Fin.ext rfl) hb)
    (by show 0 + g.val = f.val; omega)

/-- The weight array the region finds, in its second 1024 columns: column `1024 + g` of row `e` is `main_arg3` at (g, e). -/
theorem v4_apply_k (c : Dev nD) (e g : Fin 1024) (f : Fin 3072) (hf : f.val = 1024 + g.val) :
    (Gen.V1 m c main_v4 : S1024x3072.Idx → EReal) (ix2 e f)
      = (m ((c : Thread nD τ).loc main_arg3) : S1024x1024.Idx → EReal) (ix2 g e) := by
  refine (congrFun (v4_eq m c) (ix2 e f)).trans ?_
  rw [truncf_apply]
  refine (concatenate_apply_piece (1 : Fin S1024x3072.rank) _ _ (ix2 e f)
    1 (by show (1 : ℕ) < 3; omega) S1024x1024 _ rfl rfl 1024 (by rfl) (ix2 e g)
    (fun b hb => match b, hb with
      | ⟨0, _⟩, _ => rfl
      | ⟨1, _⟩, hb => absurd (Fin.ext rfl) hb)
    (by show 1024 + g.val = f.val; omega)).trans ?_
  exact transpose_apply [1, 0] _ transposes_S1024x1024_S1024x1024_1_0 (ix2 e g) (ix2 g e) (fun b => match b with
    | ⟨0, _⟩ => rfl
    | ⟨1, _⟩ => rfl)

/-- The bias row the region finds, in its second 1024 columns: column `1024 + g` is `main_arg4` at `g`. -/
theorem v6_apply_k (c : Dev nD) (g : Fin 1024) (f : Fin 3072) (hf : f.val = 1024 + g.val) :
    (Gen.V1 m c main_v6 : S1x3072.Idx → EReal) (ix2 (0 : Fin 1) f)
      = (m ((c : Thread nD τ).loc main_arg4) : S1024.Idx → EReal) (ix1 g) := by
  refine (congrFun (v6_eq m c) (ix2 (0 : Fin 1) f)).trans ?_
  refine (shapeCast_apply _ shapeCasts_S3072_S1x3072 (ix2 (0 : Fin 1) f) (ix1 f) (by
    rewrite [Shape.rowMajor_val_one, Shape.rowMajor_val_two]
    show f.val = (0 : ℕ) * 3072 + f.val
    omega)).trans ?_
  exact concatenate_apply_piece (0 : Fin S3072.rank) _ _ (ix1 f)
    1 (by show (1 : ℕ) < 3; omega) S1024 _ rfl rfl 1024 (by rfl) (ix1 g)
    (fun b hb => match b, hb with
      | ⟨0, _⟩, hb => absurd (Fin.ext rfl) hb)
    (by show 1024 + g.val = f.val; omega)

/-- The weight array the region finds, in its third 1024 columns: column `2048 + g` of row `e` is `main_arg5` at (g, e). -/
theorem v4_apply_v (c : Dev nD) (e g : Fin 1024) (f : Fin 3072) (hf : f.val = 2048 + g.val) :
    (Gen.V1 m c main_v4 : S1024x3072.Idx → EReal) (ix2 e f)
      = (m ((c : Thread nD τ).loc main_arg5) : S1024x1024.Idx → EReal) (ix2 g e) := by
  refine (congrFun (v4_eq m c) (ix2 e f)).trans ?_
  rw [truncf_apply]
  refine (concatenate_apply_piece (1 : Fin S1024x3072.rank) _ _ (ix2 e f)
    2 (by show (2 : ℕ) < 3; omega) S1024x1024 _ rfl rfl 2048 (by rfl) (ix2 e g)
    (fun b hb => match b, hb with
      | ⟨0, _⟩, _ => rfl
      | ⟨1, _⟩, hb => absurd (Fin.ext rfl) hb)
    (by show 2048 + g.val = f.val; omega)).trans ?_
  exact transpose_apply [1, 0] _ transposes_S1024x1024_S1024x1024_1_0 (ix2 e g) (ix2 g e) (fun b => match b with
    | ⟨0, _⟩ => rfl
    | ⟨1, _⟩ => rfl)

/-- The bias row the region finds, in its third 1024 columns: column `2048 + g` is `main_arg6` at `g`. -/
theorem v6_apply_v (c : Dev nD) (g : Fin 1024) (f : Fin 3072) (hf : f.val = 2048 + g.val) :
    (Gen.V1 m c main_v6 : S1x3072.Idx → EReal) (ix2 (0 : Fin 1) f)
      = (m ((c : Thread nD τ).loc main_arg6) : S1024.Idx → EReal) (ix1 g) := by
  refine (congrFun (v6_eq m c) (ix2 (0 : Fin 1) f)).trans ?_
  refine (shapeCast_apply _ shapeCasts_S3072_S1x3072 (ix2 (0 : Fin 1) f) (ix1 f) (by
    rewrite [Shape.rowMajor_val_one, Shape.rowMajor_val_two]
    show f.val = (0 : ℕ) * 3072 + f.val
    omega)).trans ?_
  exact concatenate_apply_piece (0 : Fin S3072.rank) _ _ (ix1 f)
    2 (by show (2 : ℕ) < 3; omega) S1024 _ rfl rfl 2048 (by rfl) (ix1 g)
    (fun b hb => match b, hb with
      | ⟨0, _⟩, hb => absurd (Fin.ext rfl) hb)
    (by show 2048 + g.val = f.val; omega)

end Cert.KernelIdeal.Hand

end
-- ==== Proof.KI.QKVSpec.lean ====
/- The VALUE of the QKV projection region at the ideal float model, against the specification: entered at the contents
   the host operations leave, the region ends with its three output arrays [4,16,2048,64] holding

     (b, h, n, d) ↦ (∑ e, x[b, n, e] * W[h * 64 + d, e]) + bias[h * 64 + d]

   for (W, bias) the query, the key and the value projection's argument arrays in turn — `Cert.Spec.lin` read heads-major.
   The region's own function of the arrays it finds (the blocks-to-array module: activations against the column
   s * 1024 + h * 64 + d of the joined weight array, plus the joined bias there) meets the host prelude read at an index
   (the joined weight at (e, s * 1024 + g) is the s-th weight matrix at (g, e); the joined bias at s * 1024 + g is the
   s-th bias at g) at g = h * 64 + d. -/
import proofs.«150942_j28054726378086_2_alg».proof.Proof.KI.QKVValue
import proofs.«150942_j28054726378086_2_alg».proof.Proof.KI.Prelude
import proofs.«150942_j28054726378086_2_alg».proof.Proof.Spec

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- the memory at launch
variable (m : (ℓ : Loc nD τ sig) → Buf (Elt Ideal) ℓ)

/-- The first projection at explicit coordinates: the region's function of the arrays it finds is the
    specification's linear map of the ARGUMENT arrays `main_arg1`, `main_arg2`. -/
theorem projAt_q (c : Dev nD) (b : Fin 4) (h : Fin 16) (n : Fin 2048) (d : Fin 64) :
    projAt 0 (Gen.V1 m c main_arg0) (Gen.V1 m c main_v4) (Gen.V1 m c main_v6) b h n d
      = Cert.Spec.lin (m ((c : Thread nD τ).loc main_arg0)) (m ((c : Thread nD τ).loc main_arg1)) (m ((c : Thread nD τ).loc main_arg2)) b n (Cert.Spec.feat h d) := by
  unfold projAt Cert.Spec.lin
  have hf : (col 0 h d).val = 0 + (Cert.Spec.feat h d).val := by
    show (0 : ℕ) * 1024 + h.val * 64 + d.val = 0 + (h.val * 64 + d.val); omega
  rw [v6_apply_q m c (Cert.Spec.feat h d) (col 0 h d) hf]
  congr 1
  refine Finset.sum_congr rfl fun e _ => ?_
  rw [v4_apply_q m c e (Cert.Spec.feat h d) (col 0 h d) hf, v_arg0_eq]

/-- THE VALUE of output window 3 after the projection region, entered at the contents the host operations leave:
    at (b, h, n, d), the specification's linear map of the activations with `main_arg1`, `main_arg2`, at row n of batch b and
    feature h * 64 + d. -/
theorem final0_3 (c : Dev nD) :
    (dat0 (F := Ideal) (fun (c : Dev nD) (b : Ref sig .tc) => Gen.V1 m c b) c).arrAt 3 cfg0.N
      = fun i : S4x16x2048x64.Idx => Cert.Spec.lin (m ((c : Thread nD τ).loc main_arg0)) (m ((c : Thread nD τ).loc main_arg1)) (m ((c : Thread nD τ).loc main_arg2)) (i 0) (i 2) (Cert.Spec.feat (i 1) (i 3)) := by
  rw [arr0_3]
  funext i
  exact projAt_q m c (i 0) (i 1) (i 2) (i 3)

/-- The second projection at explicit coordinates: the region's function of the arrays it finds is the
    specification's linear map of the ARGUMENT arrays `main_arg3`, `main_arg4`. -/
theorem projAt_k (c : Dev nD) (b : Fin 4) (h : Fin 16) (n : Fin 2048) (d : Fin 64) :
    projAt 1 (Gen.V1 m c main_arg0) (Gen.V1 m c main_v4) (Gen.V1 m c main_v6) b h n d
      = Cert.Spec.lin (m ((c : Thread nD τ).loc main_arg0)) (m ((c : Thread nD τ).loc main_arg3)) (m ((c : Thread nD τ).loc main_arg4)) b n (Cert.Spec.feat h d) := by
  unfold projAt Cert.Spec.lin
  have hf : (col 1 h d).val = 1024 + (Cert.Spec.feat h d).val := by
    show (1 : ℕ) * 1024 + h.val * 64 + d.val = 1024 + (h.val * 64 + d.val); omega
  rw [v6_apply_k m c (Cert.Spec.feat h d) (col 1 h d) hf]
  congr 1
  refine Finset.sum_congr rfl fun e _ => ?_
  rw [v4_apply_k m c e (Cert.Spec.feat h d) (col 1 h d) hf, v_arg0_eq]

/-- THE VALUE of output window 4 after the projection region, entered at the contents the host operations leave:
    at (b, h, n, d), the specification's linear map of the activations with `main_arg3`, `main_arg4`, at row n of batch b and
    feature h * 64 + d. -/
theorem final0_4 (c : Dev nD) :
    (dat0 (F := Ideal) (fun (c : Dev nD) (b : Ref sig .tc) => Gen.V1 m c b) c).arrAt 4 cfg0.N
      = fun i : S4x16x2048x64.Idx => Cert.Spec.lin (m ((c : Thread nD τ).loc main_arg0)) (m ((c : Thread nD τ).loc main_arg3)) (m ((c : Thread nD τ).loc main_arg4)) (i 0) (i 2) (Cert.Spec.feat (i 1) (i 3)) := by
  rw [arr0_4]
  funext i
  exact projAt_k m c (i 0) (i 1) (i 2) (i 3)

/-- The third projection at explicit coordinates: the region's function of the arrays it finds is the
    specification's linear map of the ARGUMENT arrays `main_arg5`, `main_arg6`. -/
theorem projAt_v (c : Dev nD) (b : Fin 4) (h : Fin 16) (n : Fin 2048) (d : Fin 64) :
    projAt 2 (Gen.V1 m c main_arg0) (Gen.V1 m c main_v4) (Gen.V1 m c main_v6) b h n d
      = Cert.Spec.lin (m ((c : Thread nD τ).loc main_arg0)) (m ((c : Thread nD τ).loc main_arg5)) (m ((c : Thread nD τ).loc main_arg6)) b n (Cert.Spec.feat h d) := by
  unfold projAt Cert.Spec.lin
  have hf : (col 2 h d).val = 2048 + (Cert.Spec.feat h d).val := by
    show (2 : ℕ) * 1024 + h.val * 64 + d.val = 2048 + (h.val * 64 + d.val); omega
  rw [v6_apply_v m c (Cert.Spec.feat h d) (col 2 h d) hf]
  congr 1
  refine Finset.sum_congr rfl fun e _ => ?_
  rw [v4_apply_v m c e (Cert.Spec.feat h d) (col 2 h d) hf, v_arg0_eq]

/-- THE VALUE of output window 5 after the projection region, entered at the contents the host operations leave:
    at (b, h, n, d), the specification's linear map of the activations with `main_arg5`, `main_arg6`, at row n of batch b and
    feature h * 64 + d. -/
theorem final0_5 (c : Dev nD) :
    (dat0 (F := Ideal) (fun (c : Dev nD) (b : Ref sig .tc) => Gen.V1 m c b) c).arrAt 5 cfg0.N
      = fun i : S4x16x2048x64.Idx => Cert.Spec.lin (m ((c : Thread nD τ).loc main_arg0)) (m ((c : Thread nD τ).loc main_arg5)) (m ((c : Thread nD τ).loc main_arg6)) (i 0) (i 2) (Cert.Spec.feat (i 1) (i 3)) := by
  rw [arr0_5]
  funext i
  exact projAt_v m c (i 0) (i 1) (i 2) (i 3)

end Cert.KernelIdeal.Hand

end
-- ==== Proof.KI.PreludeWo.lean ====
/- What the host operations before the first kernel region leave in the output-weight array the second region
   reads, at the ideal float model, index by index in terms of the ARGUMENT array: the output weight transposed, then
   converted to the narrower format (the identity here): at (e, f) it is the argument at (f, e).

   `v8_eq` computes the array as a closed term from the list of host operations (each operation's result at its own
   buffer is its function of its operands' contents; at any other buffer, what was there); `v8_apply` reads it at an
   index. -/
import proofs.«150942_j28054726378086_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-- The output-weight array after the host operations: the argument transposed (the last two operations; the seven
    before them neither read nor write it). -/
theorem v8_eq (m : (ℓ : Loc nD τ sig) → Buf (Elt Ideal) ℓ) (c : Dev nD) : @Eq (S1024x1024.Idx → EReal) (Gen.V1 m c main_v8)
    (truncf (F := Ideal) .bf16
      (transpose S1024x1024 [1, 0] (m ((c : Thread nD τ).loc main_arg7) : S1024x1024.Idx → EReal) transposes_S1024x1024_S1024x1024_1_0)
      bitsLt_bf16_f32) := by
  dsimp only [Gen.V1, Gen.V0, hostOps0]
  after_results

/-- The output-weight array the second region finds: at (e, f) it is the argument at (f, e). -/
theorem v8_apply (m : (ℓ : Loc nD τ sig) → Buf (Elt Ideal) ℓ) (c : Dev nD) (e f : Fin 1024) :
    (Gen.V1 m c main_v8 : S1024x1024.Idx → EReal) (ix2 e f)
      = (m ((c : Thread nD τ).loc main_arg7) : S1024x1024.Idx → EReal) (ix2 f e) := by
  refine (congrFun (v8_eq m c) (ix2 e f)).trans ?_
  rw [truncf_apply]
  exact transpose_apply [1, 0] _ transposes_S1024x1024_S1024x1024_1_0 (ix2 e f) (ix2 f e) (fun b => match b with
    | ⟨0, _⟩ => rfl
    | ⟨1, _⟩ => rfl)

end Cert.KernelIdeal.Hand

end
-- ==== Proof.AttnAlgebra.lean ====
/-
  The kernel's order of computation against the specification.

  With the queries, keys and values the three projections of the input split into heads (feature `h * 64 + d`), and
  the output weight transposed, the per-head quantities are the specification's; the sixteen contributions added
  one after another onto zero are their sum; and the sum over heads of the sums over a head's 64 coordinates is the
  specification's one sum over the 1024 features, since `(h, d) ↦ h * 64 + d` is a bijection onto them. Addition
  on the extended reals is commutative and associative, so no finiteness is needed.
-/
import proofs.«150942_j28054726378086_2_alg».proof.Proof.AttnChain
import Idealize.ShloMosaic.PureOps.Ideal.Laws

noncomputable section

open scoped BigOperators

namespace Cert.Attn

open Idealize.ShloMosaic Idealize.ShloMosaic.ValueIdx Cert.Spec

/-! ## The per-head quantities at the projections are the specification's -/

section Heads

variable (x : Arr3) (Wq : Arr2) (bq : Arr1) (Wk : Arr2) (bk : Arr1) (Wv : Arr2) (bv : Arr1)

theorem score_eq (b : Fin 4) (h : Fin 16) (i j : Fin 2048) :
    score (fun b h i d => lin x Wq bq b i (feat h d)) (fun b h i d => lin x Wk bk b i (feat h d)) b h i j
      = Cert.Spec.score x Wq bq Wk bk b h i j := rfl

theorem rowMax_eq (b : Fin 4) (h : Fin 16) (i : Fin 2048) :
    rowMax (fun b h i d => lin x Wq bq b i (feat h d)) (fun b h i d => lin x Wk bk b i (feat h d)) b h i
      = Cert.Spec.rowMax x Wq bq Wk bk b h i := by
  unfold rowMax Cert.Spec.rowMax
  simp only [score_eq]

theorem expo_eq (b : Fin 4) (h : Fin 16) (i j : Fin 2048) :
    expo (fun b h i d => lin x Wq bq b i (feat h d)) (fun b h i d => lin x Wk bk b i (feat h d)) b h i j
      = Cert.Spec.expo x Wq bq Wk bk b h i j := by
  unfold expo Cert.Spec.expo
  rw [score_eq, rowMax_eq]

theorem denom_eq (b : Fin 4) (h : Fin 16) (i : Fin 2048) :
    denom (fun b h i d => lin x Wq bq b i (feat h d)) (fun b h i d => lin x Wk bk b i (feat h d)) b h i
      = Cert.Spec.denom x Wq bq Wk bk b h i := by
  unfold denom Cert.Spec.denom
  simp only [expo_eq]

theorem weight_eq (b : Fin 4) (h : Fin 16) (i j : Fin 2048) :
    weight (fun b h i d => lin x Wq bq b i (feat h d)) (fun b h i d => lin x Wk bk b i (feat h d)) b h i j
      = Cert.Spec.weight x Wq bq Wk bk b h i j := by
  unfold weight Cert.Spec.weight
  rw [expo_eq, denom_eq]

theorem ctx_eq (b : Fin 4) (h : Fin 16) (i : Fin 2048) (d : Fin 64) :
    ctx (fun b h i d => lin x Wq bq b i (feat h d)) (fun b h i d => lin x Wk bk b i (feat h d))
        (fun b h i d => lin x Wv bv b i (feat h d)) b h i d
      = Cert.Spec.ctx x Wq bq Wk bk Wv bv b h i d := by
  unfold ctx Cert.Spec.ctx
  simp only [weight_eq]

end Heads

/-! ## The chain of additions is the sum over the heads -/

/-- The contributions of heads 0, …, h added in order onto the zero word: the zero word plus their sum. -/
theorem acc_eq_sum (q k v : Heads) (wo : Fin 1024 → Fin 1024 → EReal) (b : Fin 4) (n : Fin 2048) (f : Fin 1024) :
    ∀ (h : ℕ) (hh : h < 16), acc q k v wo b n f h hh
      = (Ideal.ofBits .f32 0x00000000#32 : EReal)
        + ∑ h' ∈ Finset.range (h + 1), (if hlt : h' < 16 then contrib q k v wo b ⟨h', hlt⟩ n f else 0)
  | 0, hh => by
    rw [acc, Finset.sum_range_one, dif_pos hh]
  | h + 1, hh => by
    rw [acc, acc_eq_sum q k v wo b n f h (Nat.lt_of_succ_lt hh), Finset.sum_range_succ _ (h + 1), dif_pos hh, add_assoc]

/-- All sixteen: the sum over the heads. -/
theorem acc_last (q k v : Heads) (wo : Fin 1024 → Fin 1024 → EReal) (b : Fin 4) (n : Fin 2048) (f : Fin 1024) :
    acc q k v wo b n f 15 (by norm_num) = ∑ h : Fin 16, contrib q k v wo b h n f := by
  rw [acc_eq_sum, Ideal.ofBits_zero_f32, zero_add,
    ← Fin.sum_univ_eq_sum_range (fun h' => if hlt : h' < 16 then contrib q k v wo b ⟨h', hlt⟩ n f else 0) 16]
  exact Finset.sum_congr rfl fun h _ => dif_pos h.isLt

/-! ## Heads and coordinates against features -/

/-- A feature is a head and a coordinate inside it: `e ↦ (e / 64, e % 64)`, with inverse `(h, d) ↦ h * 64 + d`. -/
def headSplit : Fin 1024 ≃ Fin 16 × Fin 64 where
  toFun e := (⟨e.val / 64, by have := e.isLt; omega⟩, ⟨e.val % 64, Nat.mod_lt _ (by norm_num)⟩)
  invFun p := feat p.1 p.2
  left_inv e := Fin.ext (by show e.val / 64 * 64 + e.val % 64 = e.val; omega)
  right_inv p := Prod.ext
    (Fin.ext (by show (p.1.val * 64 + p.2.val) / 64 = p.1.val; have := p.2.isLt; omega))
    (Fin.ext (by show (p.1.val * 64 + p.2.val) % 64 = p.2.val; have := p.2.isLt; omega))

/-- The specification's sum over the 1024 features, regrouped by head. -/
theorem out_eq_heads (x : Arr3) (Wq : Arr2) (bq : Arr1) (Wk : Arr2) (bk : Arr1) (Wv : Arr2) (bv : Arr1) (Wo : Arr2)
    (b : Fin 4) (n : Fin 2048) (f : Fin 1024) :
    Cert.Spec.out x Wq bq Wk bk Wv bv Wo b n f
      = ∑ h : Fin 16, ∑ d : Fin 64, Cert.Spec.ctx x Wq bq Wk bk Wv bv b h n d * Wo (ix2 f (feat h d)) := by
  unfold Cert.Spec.out
  rw [← Equiv.sum_comp headSplit.symm, Fintype.sum_prod_type]
  refine Finset.sum_congr rfl fun h _ => Finset.sum_congr rfl fun d _ => ?_
  have hd := d.isLt
  have e1 : (⟨(feat h d).val / 64, by have := (feat h d).isLt; omega⟩ : Fin 16) = h :=
    Fin.ext (by show (h.val * 64 + d.val) / 64 = h.val; omega)
  have e2 : (⟨(feat h d).val % 64, Nat.mod_lt _ (by norm_num)⟩ : Fin 64) = d :=
    Fin.ext (by show (h.val * 64 + d.val) % 64 = d.val; omega)
  show Cert.Spec.ctx x Wq bq Wk bk Wv bv b ⟨(feat h d).val / 64, _⟩ n ⟨(feat h d).val % 64, _⟩ * Wo (ix2 f (feat h d)) = _
  rw [e1, e2]

/-! ## The kernel's order of computation gives the specification -/

theorem acc_eq_out (x : Cert.Spec.Arr3) (Wq : Cert.Spec.Arr2) (bq : Cert.Spec.Arr1) (Wk : Cert.Spec.Arr2)
    (bk : Cert.Spec.Arr1) (Wv : Cert.Spec.Arr2) (bv : Cert.Spec.Arr1) (Wo : Cert.Spec.Arr2)
    (b : Fin 4) (n : Fin 2048) (f : Fin 1024) :
    acc (fun b h i d => Cert.Spec.lin x Wq bq b i (Cert.Spec.feat h d))
        (fun b h i d => Cert.Spec.lin x Wk bk b i (Cert.Spec.feat h d))
        (fun b h i d => Cert.Spec.lin x Wv bv b i (Cert.Spec.feat h d)) (fun e f => Wo (ix2 f e)) b n f 15 (by norm_num)
      = Cert.Spec.out x Wq bq Wk bk Wv bv Wo b n f := by
  rw [acc_last, out_eq_heads]
  refine Finset.sum_congr rfl fun h _ => ?_
  unfold contrib
  simp only [ctx_eq]

end Cert.Attn

end
-- ==== Proof.KI.Final.lean ====
/-
  The kernel program's result, over the extended reals, as the specification's function of the argument arrays.
  The result array ends at what the attention region's write-backs leave: the sixteen heads' contributions added in
  order onto zero, computed from the arrays that region is entered with. Those are what the projection region left:
  the queries, keys and values are the three projections of the input, laid out per head; and the transposed output
  weight is the host prelude's. Substituting, the ordered sum over the heads is the specification's output.
-/
import proofs.«150942_j28054726378086_2_alg».proof.Proof.KI.Run
import proofs.«150942_j28054726378086_2_alg».proof.Proof.KI.R1Final
import proofs.«150942_j28054726378086_2_alg».proof.Proof.KI.QKVSpec
import proofs.«150942_j28054726378086_2_alg».proof.Proof.KI.PreludeWo
import proofs.«150942_j28054726378086_2_alg».proof.Proof.AttnAlgebra

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The queries the attention region finds are the first projection of the input, per head. -/
theorem qH_eq (c : Dev nD) :
    qH (X2 m) c = fun b h i d => Cert.Spec.lin (m ((c : Thread nD τ).loc main_arg0)) (m ((c : Thread nD τ).loc main_arg1)) (m ((c : Thread nD τ).loc main_arg2)) b i (Cert.Spec.feat h d) := by
  funext b h i d
  unfold qH
  show (B2 m c (Proc.devRef .tc main_v9_0) : S4x16x2048x64.Idx → EReal) (ix4 b h i d) = _
  rw [show B2 m c (Proc.devRef .tc main_v9_0) = (dat0 (X1 m) c).arrAt 3 cfg0.N from B2_arr m c 3, final0_3 m c]

/-- The keys: the second projection. -/
theorem kH_eq (c : Dev nD) :
    kH (X2 m) c = fun b h i d => Cert.Spec.lin (m ((c : Thread nD τ).loc main_arg0)) (m ((c : Thread nD τ).loc main_arg3)) (m ((c : Thread nD τ).loc main_arg4)) b i (Cert.Spec.feat h d) := by
  funext b h i d
  unfold kH
  show (B2 m c (Proc.devRef .tc main_v9_1) : S4x16x2048x64.Idx → EReal) (ix4 b h i d) = _
  rw [show B2 m c (Proc.devRef .tc main_v9_1) = (dat0 (X1 m) c).arrAt 4 cfg0.N from B2_arr m c 4, final0_4 m c]

/-- The values: the third projection. -/
theorem vH_eq (c : Dev nD) :
    vH (X2 m) c = fun b h i d => Cert.Spec.lin (m ((c : Thread nD τ).loc main_arg0)) (m ((c : Thread nD τ).loc main_arg5)) (m ((c : Thread nD τ).loc main_arg6)) b i (Cert.Spec.feat h d) := by
  funext b h i d
  unfold vH
  show (B2 m c (Proc.devRef .tc main_v9_2) : S4x16x2048x64.Idx → EReal) (ix4 b h i d) = _
  rw [show B2 m c (Proc.devRef .tc main_v9_2) = (dat0 (X1 m) c).arrAt 5 cfg0.N from B2_arr m c 5, final0_5 m c]

/-- The weight matrix the attention region finds is the output weight transposed: the projection region does not
    touch it, and the prelude wrote it so. -/
theorem woM_eq (c : Dev nD) : woM (X2 m) c = fun e f => (m ((c : Thread nD τ).loc main_arg7)) (ix2 f e) := by
  funext e f
  unfold woM
  show (B2 m c (Proc.devRef .tc main_v8) : S1024x1024.Idx → EReal) (ix2 e f) = _
  rw [show B2 m c (Proc.devRef .tc main_v8) = Gen.V1 m c (Proc.devRef .tc main_v8) from B2_of_ne m c main_v8 (by decide)]
  exact v8_apply m c e f

/-- THE KERNEL'S RESULT: what the result array ends holding is the specification's output of the arguments. -/
theorem result_spec (c : Dev nD) :
    (dat1 (F := Ideal) (X2 m) c).arrAt 4 cfg1.N
      = fun i : S4x2048x1024.Idx => Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) := by
  rw [arr1_4 (X2 m) c]
  funext i
  unfold attnOut
  rw [qH_eq, kH_eq, vH_eq, woM_eq]
  exact Cert.Attn.acc_eq_out _ _ _ _ _ _ _ _ (i 0) (i 1) (i 2)

end Cert.KernelIdeal.Hand

end
-- ==== Proof.RefProj.lean ====
/-
  The reference's three projections, read at an index: each is `x · Wᵀ + b`, then split into 16 heads of 64
  (feature `h * 64 + d`) and laid out head-major.
-/
import proofs.«150942_j28054726378086_2_alg».proof.Proof.Spec
import proofs.«150942_j28054726378086_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The argument arrays at the extended reals. -/
abbrev A3 : Type := (⟨S4x2048x1024, .f32⟩ : BufTy).Contents (Elt Ideal)
abbrev A2 : Type := (⟨S1024x1024, .f32⟩ : BufTy).Contents (Elt Ideal)
abbrev A1 : Type := (⟨S1024, .f32⟩ : BufTy).Contents (Elt Ideal)

/-- The first projection at (b, n, f): the row of `x` against row `f` of `W`, plus the bias. -/
theorem proj_apply (x : A3) (W : A2) (bias : A1) (b : Fin 4) (n : Fin 2048) (f : Fin 1024) :
    val_main_v3 (F := Ideal) x W bias (ix3 b n f) = Cert.Spec.lin x W bias b n f := by
  have e1 : ∀ k : Fin 1024, lidx_main_v0 (ix3 b n f) k = ix3 b n k := fun k => funext fun a => Fin.ext (by
    match a with
    | ⟨0, _⟩ => rfl
    | ⟨1, _⟩ => rfl
    | ⟨2, _⟩ => rfl)
  have e2 : ∀ k : Fin 1024, ridx_main_v0 (ix3 b n f) k = ix2 f k := fun k => funext fun a => Fin.ext (by
    match a with
    | ⟨0, _⟩ => rfl
    | ⟨1, _⟩ => rfl)
  have e3 : idx_main_v1 (idx_main_v2 (ix3 b n f)) = ix1 f := funext fun a => Fin.ext (by
    match a with
    | ⟨0, _⟩ => rfl)
  rw [val_main_v3_apply, val_main_v0_apply, val_main_v2_apply, val_main_v1_apply, e3]
  simp only [e1, e2]
  rfl

/-- The second and third projections are the first one's operations at other arguments. -/
theorem v9_eq (x : A3) (W : A2) (bias : A1) : val_main_v9 (F := Ideal) x W bias = val_main_v3 (F := Ideal) x W bias := rfl
theorem v15_eq (x : A3) (W : A2) (bias : A1) : val_main_v15 (F := Ideal) x W bias = val_main_v3 (F := Ideal) x W bias := rfl
theorem v11_eq (x : A3) (W : A2) (bias : A1) : val_main_v11 (F := Ideal) x W bias = val_main_v5 (F := Ideal) x W bias := rfl
theorem v17_eq (x : A3) (W : A2) (bias : A1) : val_main_v17 (F := Ideal) x W bias = val_main_v5 (F := Ideal) x W bias := rfl

/-- The flat position of (b, n, h, d) in [4, 2048, 16, 64] is that of (b, n, h * 64 + d) in [4, 2048, 1024]. -/
theorem heads_idx (b : Fin 4) (h : Fin 16) (n : Fin 2048) (d : Fin 64) :
    idx_main_v4 (idx_main_v5 (ix4 b h n d)) = ix3 b n (Cert.Spec.feat h d) := by
  funext a
  apply Fin.ext
  have hb := b.isLt; have hh := h.isLt; have hn := n.isLt; have hd := d.isLt
  match a with
  | ⟨0, _⟩ =>
    show (((b.val * 2048 + n.val) * 16 + h.val) * 64 + d.val) / 2097152 = b.val
    omega
  | ⟨1, _⟩ =>
    show (((b.val * 2048 + n.val) * 16 + h.val) * 64 + d.val) / 1024 % 2048 = n.val
    omega
  | ⟨2, _⟩ =>
    show (((b.val * 2048 + n.val) * 16 + h.val) * 64 + d.val) % 1024 = h.val * 64 + d.val
    omega

/-- A projection in head-major layout at (b, h, n, d) is the projection at feature `h * 64 + d`. -/
theorem heads_apply (x : A3) (W : A2) (bias : A1) (b : Fin 4) (h : Fin 16) (n : Fin 2048) (d : Fin 64) :
    val_main_v5 (F := Ideal) x W bias (ix4 b h n d) = Cert.Spec.lin x W bias b n (Cert.Spec.feat h d) := by
  rw [val_main_v5_apply, val_main_v4_apply, heads_idx, proj_apply]

end Cert.ReferenceIdeal.RefValue

end
-- ==== Proof.ScatterSet.lean ====
/-
  A scatter whose body returns the update and whose updates are all one constant `c`, read at an index: the
  result is `c` where some update lands, the operand elsewhere. (With equal updates the order in which colliding
  updates are applied does not matter, so nothing is asked of the indices.)
-/
import Idealize.ShloMosaic.PureOps.Ideal
import Idealize.ShloMosaic.Lib.ValueIdx

namespace Cert.ScatterSet

open Idealize.ShloMosaic

/-- A left fold of steps that each set at most one element (the one at `g n`, when there is one) to the same `c`,
    read at `i'`: `c` if some step of the list sets `i'`, the start's element otherwise. -/
theorem foldl_set_const {ι N β : Type} (g : N → Option ι) (c : β) (step : (ι → β) → N → (ι → β))
    (hsome : ∀ r n i, g n = some i → step r n i = c ∧ ∀ i', i' ≠ i → step r n i' = r i')
    (hnone : ∀ r n, g n = none → step r n = r)
    (i' : ι) : ∀ (l : List N) (r : ι → β),
    ((∃ n ∈ l, g n = some i') → (l.foldl step r) i' = c) ∧
    ((¬∃ n ∈ l, g n = some i') → (l.foldl step r) i' = r i') := by
  intro l
  induction l with
  | nil =>
    intro r
    exact ⟨fun ⟨n, hn, _⟩ => absurd hn (List.not_mem_nil), fun _ => rfl⟩
  | cons n l ih =>
    intro r
    rw [List.foldl_cons]
    obtain ⟨ih1, ih2⟩ := ih (step r n)
    by_cases hl : ∃ n' ∈ l, g n' = some i'
    · refine ⟨fun _ => ih1 hl, fun hno => absurd ?_ hno⟩
      obtain ⟨n', hn', e⟩ := hl
      exact ⟨n', List.mem_cons_of_mem _ hn', e⟩
    · rw [ih2 hl]
      constructor
      · rintro ⟨n', hn', e⟩
        rcases List.mem_cons.1 hn' with rfl | hn'
        · exact (hsome r n' i' e).1
        · exact absurd ⟨n', hn', e⟩ hl
      · intro hno
        have hn : g n ≠ some i' := fun e => hno ⟨n, List.mem_cons_self, e⟩
        cases hg : g n with
        | none => rw [hnone r n hg]
        | some i => exact (hsome r n i hg).2 i' (fun e => hn (by rw [hg, e]))

variable {s si u : Shape} {α : Type} {w : Nat}

/-- The scatter's fold of equal updates `c`, read at `i'`. -/
theorem scatter_const_aux (d : ScatterDims s si u) (x : s.Idx → α) (idx : IVec si w) (upd : u.Idx → α) (c : α)
    (hupd : ∀ j, upd j = c) (i' : s.Idx) :
    ((∃ n ∈ List.finRange u.numel, d.resultIdx? (u.rowMajor.symm n) idx = some i') →
      Host.scatter d (fun _ b => b) x idx upd i' = c) ∧
    ((¬∃ n ∈ List.finRange u.numel, d.resultIdx? (u.rowMajor.symm n) idx = some i') →
      Host.scatter d (fun _ b => b) x idx upd i' = x i') := by
  unfold Host.scatter
  refine foldl_set_const (fun n => d.resultIdx? (u.rowMajor.symm n) idx) c _ ?_ ?_ i' (List.finRange u.numel) x
  · intro r n i h
    simp only [h]
    refine ⟨?_, fun i' hne => ?_⟩
    · rw [if_pos trivial]; exact hupd _
    · rw [if_neg hne]
  · intro r n h
    simp only [h]

/-- Where an update lands, the scatter of equal updates `c` holds `c`. -/
theorem scatter_const_hit (d : ScatterDims s si u) (x : s.Idx → α) (idx : IVec si w) (upd : u.Idx → α) (c : α)
    (hupd : ∀ j, upd j = c) (i' : s.Idx) (j : u.Idx) (hj : d.resultIdx? j idx = some i') :
    Host.scatter d (fun _ b => b) x idx upd i' = c := by
  refine (scatter_const_aux d x idx upd c hupd i').1 ⟨u.rowMajor j, List.mem_finRange _, ?_⟩
  rw [Equiv.symm_apply_apply]
  exact hj

/-- Where no update lands, the scatter holds the operand. -/
theorem scatter_const_miss (d : ScatterDims s si u) (x : s.Idx → α) (idx : IVec si w) (upd : u.Idx → α) (c : α)
    (hupd : ∀ j, upd j = c) (i' : s.Idx) (hno : ∀ j : u.Idx, d.resultIdx? j idx ≠ some i') :
    Host.scatter d (fun _ b => b) x idx upd i' = x i' := by
  refine (scatter_const_aux d x idx upd c hupd i').2 ?_
  rintro ⟨n, _, e⟩
  exact hno _ e

/-- An update index lands at `t` when start plus window coordinate is `t`'s coordinate on every axis. -/
theorem resultIdx?_eq_some (d : ScatterDims s si u) (j : u.Idx) (idx : IVec si w) (t : s.Idx)
    (ht : ∀ a, d.start j idx a + (d.window j a : Int) = ((t a).val : Int)) : d.resultIdx? j idx = some t := by
  unfold ScatterDims.resultIdx?
  have h : ∀ a, 0 ≤ d.start j idx a + d.window j a ∧ d.start j idx a + d.window j a < s.size a := fun a => by
    rw [ht a]; exact ⟨Int.natCast_nonneg _, by exact_mod_cast (t a).isLt⟩
  rw [dif_pos h]
  congr 1
  funext a
  apply Fin.ext
  show (d.start j idx a + d.window j a).toNat = (t a).val
  rw [ht a]; exact Int.toNat_natCast _

end Cert.ScatterSet
-- ==== Proof.RefScores.lean ====
/-
  The reference's scores read at an index: the scaled products of queries and keys, with the two masked
  entries (0, 2047) and (2047, 0) of every (batch, head) set to the constant.
-/
import proofs.«150942_j28054726378086_2_alg».proof.Proof.Spec
import proofs.«150942_j28054726378086_2_alg».proof.Proof.Gen.ReferenceIdeal.Read
import proofs.«150942_j28054726378086_2_alg».proof.Proof.RefProj
import proofs.«150942_j28054726378086_2_alg».proof.Proof.ScatterSet
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The scores before masking: the product of query `i` and key `j` over the head's 64 coordinates, scaled. -/
theorem raw_apply (x : A3) (Wq : A2) (bq : A1) (Wk : A2) (bk : A1) (b : Fin 4) (h : Fin 16) (i j : Fin 2048) :
    val_main_v20 (F := Ideal) x Wq bq Wk bk (ix4 b h i j)
      = (∑ d : Fin 64, Cert.Spec.lin x Wq bq b i (Cert.Spec.feat h d) * Cert.Spec.lin x Wk bk b j (Cert.Spec.feat h d))
        * (Ideal.ofBits .f32 0x3E000000#32 : EReal) := by
  have e1 : ∀ k : Fin 64, lidx_main_v18 (ix4 b h i j) k = ix4 b h i k := fun k => funext fun a => Fin.ext (by
    match a with
    | ⟨0, _⟩ => rfl
    | ⟨1, _⟩ => rfl
    | ⟨2, _⟩ => rfl
    | ⟨3, _⟩ => rfl)
  have e2 : ∀ k : Fin 64, ridx_main_v18 (ix4 b h i j) k = ix4 b h j k := fun k => funext fun a => Fin.ext (by
    match a with
    | ⟨0, _⟩ => rfl
    | ⟨1, _⟩ => rfl
    | ⟨2, _⟩ => rfl
    | ⟨3, _⟩ => rfl)
  rw [val_main_v20_apply, val_main_v18_apply, val_main_v19_apply, val_main_cst_apply, v11_eq]
  simp only [e1, e2, heads_apply]
  rfl

/-! ## The index vectors of the two scatters -/

/-- The first scatter's index vector is (0, 2047). -/
theorem idxA_0 (k : S2.Idx) (hk : (k 0).val = 0) : val_main_v23 (F := Ideal) k = 0#32 := by
  unfold val_main_v23
  rw [concatenate_pair_apply_left (0 : Fin S2.rank) _ _ concatenates_S1_S1_S2_d0 k rfl (ix1 (0 : Fin 1))
    (fun b => by match b with | ⟨0, _⟩ => exact hk.symm)]
  rfl

theorem idxA_1 (k : S2.Idx) (hk : (k 0).val = 1) : val_main_v23 (F := Ideal) k = 2047#32 := by
  unfold val_main_v23
  rw [concatenate_pair_apply_right (0 : Fin S2.rank) _ _ concatenates_S1_S1_S2_d0 k rfl rfl (ix1 (0 : Fin 1))
    (fun b hb => by match b with | ⟨0, _⟩ => exact absurd rfl hb) (by show 0 + 1 = (k 0).val; omega)]
  rfl

/-- The second scatter's index vector is (2047, 0). -/
theorem idxB_0 (k : S2.Idx) (hk : (k 0).val = 0) : val_main_v28 (F := Ideal) k = 2047#32 := by
  unfold val_main_v28
  rw [concatenate_pair_apply_left (0 : Fin S2.rank) _ _ concatenates_S1_S1_S2_d0 k rfl (ix1 (0 : Fin 1))
    (fun b => by match b with | ⟨0, _⟩ => exact hk.symm)]
  rfl

theorem idxB_1 (k : S2.Idx) (hk : (k 0).val = 1) : val_main_v28 (F := Ideal) k = 0#32 := by
  unfold val_main_v28
  rw [concatenate_pair_apply_right (0 : Fin S2.rank) _ _ concatenates_S1_S1_S2_d0 k rfl rfl (ix1 (0 : Fin 1))
    (fun b hb => by match b with | ⟨0, _⟩ => exact absurd rfl hb) (by show 0 + 1 = (k 0).val; omega)]
  rfl

/-! ## Where the scatters' updates land

Both scatters have update windows over the (batch, head) axes and a literal index vector for the last two axes: update
(p, q) lands at (p, q, c₀, c₁), with (c₀, c₁) the index vector. -/

abbrev SD : ScatterDims S4x16x2048x2048 S2 S4x16 := scatter_S4x16x2048x2048_S2_S4x16_01_23_23_0

theorem start_0 (j : S4x16.Idx) (idx : IVec S2 32) : SD.start j idx (0 : Fin S4x16x2048x2048.rank) = 0 := by
  unfold ScatterDims.start; rw [dif_neg (by decide)]
theorem start_1 (j : S4x16.Idx) (idx : IVec S2 32) : SD.start j idx (1 : Fin S4x16x2048x2048.rank) = 0 := by
  unfold ScatterDims.start; rw [dif_neg (by decide)]
theorem start_2 (j : S4x16.Idx) (idx : IVec S2 32) :
    SD.start j idx (2 : Fin S4x16x2048x2048.rank) = (idx (SD.siIdx j ⟨0, by decide⟩)).toInt := by
  unfold ScatterDims.start; rw [dif_pos (by decide)]; rfl
theorem start_3 (j : S4x16.Idx) (idx : IVec S2 32) :
    SD.start j idx (3 : Fin S4x16x2048x2048.rank) = (idx (SD.siIdx j ⟨1, by decide⟩)).toInt := by
  unfold ScatterDims.start; rw [dif_pos (by decide)]; rfl
theorem siIdx_val (j : S4x16.Idx) (c : Fin SD.scatterDimsToOperandDims.length) : ((SD.siIdx j c) 0).val = c.val := by
  unfold ScatterDims.siIdx
  split
  · rfl
  · next hb => exact absurd rfl hb
theorem window_0 (p : Fin 4) (q : Fin 16) : SD.window (ix2 p q) (0 : Fin S4x16x2048x2048.rank) = p.val := by
  unfold ScatterDims.window; rw [dif_pos (by decide)]; rfl
theorem window_1 (p : Fin 4) (q : Fin 16) : SD.window (ix2 p q) (1 : Fin S4x16x2048x2048.rank) = q.val := by
  unfold ScatterDims.window; rw [dif_pos (by decide)]; rfl
theorem window_2 (j : S4x16.Idx) : SD.window j (2 : Fin S4x16x2048x2048.rank) = 0 := by
  unfold ScatterDims.window; rw [dif_neg (by decide)]
theorem window_3 (j : S4x16.Idx) : SD.window j (3 : Fin S4x16x2048x2048.rank) = 0 := by
  unfold ScatterDims.window; rw [dif_neg (by decide)]

/-- Update (p, q) of a scatter whose index vector is (c₀, c₁), both inside the axes, lands at (p, q, c₀, c₁). -/
theorem land (idx : IVec S2 32) (c0 c1 : Fin 2048)
    (h0 : ∀ k : S2.Idx, (k 0).val = 0 → (idx k).toInt = (c0.val : Int))
    (h1 : ∀ k : S2.Idx, (k 0).val = 1 → (idx k).toInt = (c1.val : Int)) (p : Fin 4) (q : Fin 16) :
    SD.resultIdx? (ix2 p q) idx = some (ix4 p q c0 c1) := by
  refine Cert.ScatterSet.resultIdx?_eq_some SD _ _ _ fun a => ?_
  match a with
  | ⟨0, _⟩ =>
    show SD.start (ix2 p q) idx 0 + ((SD.window (ix2 p q) 0 : Nat) : Int) = (p.val : Int)
    rw [start_0, window_0]; omega
  | ⟨1, _⟩ =>
    show SD.start (ix2 p q) idx 1 + ((SD.window (ix2 p q) 1 : Nat) : Int) = (q.val : Int)
    rw [start_1, window_1]; omega
  | ⟨2, _⟩ =>
    show SD.start (ix2 p q) idx 2 + ((SD.window (ix2 p q) 2 : Nat) : Int) = (c0.val : Int)
    rw [start_2, window_2, h0 _ (siIdx_val _ _)]; omega
  | ⟨3, _⟩ =>
    show SD.start (ix2 p q) idx 3 + ((SD.window (ix2 p q) 3 : Nat) : Int) = (c1.val : Int)
    rw [start_3, window_3, h1 _ (siIdx_val _ _)]; omega

theorem landA (p : Fin 4) (q : Fin 16) :
    SD.resultIdx? (ix2 p q) (val_main_v23 (F := Ideal)) = some (ix4 p q (⟨0, by decide⟩ : Fin 2048) (⟨2047, by decide⟩ : Fin 2048)) :=
  land _ _ _ (fun k hk => by rw [idxA_0 k hk]; decide) (fun k hk => by rw [idxA_1 k hk]; decide) p q

theorem landB (p : Fin 4) (q : Fin 16) :
    SD.resultIdx? (ix2 p q) (val_main_v28 (F := Ideal)) = some (ix4 p q (⟨2047, by decide⟩ : Fin 2048) (⟨0, by decide⟩ : Fin 2048)) :=
  land _ _ _ (fun k hk => by rw [idxB_0 k hk]; decide) (fun k hk => by rw [idxB_1 k hk]; decide) p q

/-- No update of a scatter with index vector (c₀, c₁) lands at (b, h, i, j) unless (i, j) = (c₀, c₁). -/
theorem no_land (idx : IVec S2 32) (c0 c1 : Fin 2048)
    (hl : ∀ p q, SD.resultIdx? (ix2 p q) idx = some (ix4 p q c0 c1))
    (b : Fin 4) (h : Fin 16) (i j : Fin 2048) (hne : ¬(i.val = c0.val ∧ j.val = c1.val)) (j' : S4x16.Idx) :
    SD.resultIdx? j' idx ≠ some (ix4 b h i j) := by
  obtain ⟨p, q, rfl⟩ : ∃ (p : Fin 4) (q : Fin 16), j' = ix2 p q := ⟨j' 0, j' 1, eq_ix2 j'⟩
  rw [hl]
  intro e
  have e' := Option.some.inj e
  have e2 := congrArg (fun t : S4x16x2048x2048.Idx => (t ⟨2, by decide⟩).val) e'
  have e3 := congrArg (fun t : S4x16x2048x2048.Idx => (t ⟨3, by decide⟩).val) e'
  exact hne ⟨e2.symm, e3.symm⟩

theorem upd24 (j : S4x16.Idx) : val_main_v24 (F := Ideal) j = (Ideal.ofBits .f32 0xCE6E6B28#32 : EReal) := by
  rw [val_main_v24_apply, val_main_cst_1_apply]; rfl
theorem upd29 (j : S4x16.Idx) : val_main_v29 (F := Ideal) j = (Ideal.ofBits .f32 0xCE6E6B28#32 : EReal) := by
  rw [val_main_v29_apply, val_main_cst_4_apply]; rfl

/-- The masked scores at an index. -/
theorem score_apply (x : A3) (Wq : A2) (bq : A1) (Wk : A2) (bk : A1) (b : Fin 4) (h : Fin 16) (i j : Fin 2048) :
    val_main_v30 (F := Ideal) x Wq bq Wk bk (ix4 b h i j) = Cert.Spec.score x Wq bq Wk bk b h i j := by
  unfold val_main_v30 Cert.Spec.score
  by_cases hB : i.val = 2047 ∧ j.val = 0
  · rw [if_pos (show Cert.Spec.masked i j from Or.inr hB)]
    obtain ⟨hi, hj⟩ := hB
    obtain rfl : i = ⟨2047, by decide⟩ := Fin.ext hi
    obtain rfl : j = ⟨0, by decide⟩ := Fin.ext hj
    exact Cert.ScatterSet.scatter_const_hit SD _ _ _ _ upd29 _ (ix2 b h) (landB b h)
  · rw [Cert.ScatterSet.scatter_const_miss SD _ _ _ _ upd29 _
      (no_land _ ⟨2047, by decide⟩ ⟨0, by decide⟩ landB b h i j hB)]
    unfold val_main_v25
    by_cases hA : i.val = 0 ∧ j.val = 2047
    · rw [if_pos (show Cert.Spec.masked i j from Or.inl hA)]
      obtain ⟨hi, hj⟩ := hA
      obtain rfl : i = ⟨0, by decide⟩ := Fin.ext hi
      obtain rfl : j = ⟨2047, by decide⟩ := Fin.ext hj
      exact Cert.ScatterSet.scatter_const_hit SD _ _ _ _ upd24 _ (ix2 b h) (landA b h)
    · rw [if_neg (fun hm : Cert.Spec.masked i j => hm.elim hA hB), Cert.ScatterSet.scatter_const_miss SD _ _ _ _ upd24 _
        (no_land _ ⟨0, by decide⟩ ⟨2047, by decide⟩ landA b h i j hA)]
      exact raw_apply x Wq bq Wk bk b h i j

end Cert.ReferenceIdeal.RefValue

end
-- ==== Proof.RefSoftmax.lean ====
/-
  The reference's softmax over the keys, read at an index: the row maximum (a supremum, from -∞), the exponentials
  of the differences, their sum (from 0), and the quotient.
-/
import proofs.«150942_j28054726378086_2_alg».proof.Proof.Spec
import proofs.«150942_j28054726378086_2_alg».proof.Proof.Gen.ReferenceIdeal.Read
import proofs.«150942_j28054726378086_2_alg».proof.Proof.RefScores

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The word of -∞ is the bottom of the extended reals. -/
theorem negInf : (Ideal.ofBits .f32 0xFF800000#32 : EReal) = ⊥ := by simp [Ideal.ofBits, Ideal.ieee]

/-- The reduced index (b, h, i) with key `k` put back is (b, h, i, k). -/
theorem lift_row (hR : S4x16x2048x2048.Reduces [3] S4x16x2048) (b : Fin 4) (h : Fin 16) (i : Fin 2048)
    (k : Fin (S4x16x2048x2048.size 3)) : hR.lift (ix3 b h i) k = ix4 b h i (⟨k.val, k.isLt⟩ : Fin 2048) := by
  funext c; apply Fin.ext
  fin_cases c <;> rfl

/-- A fold of the maximum from -∞ is the supremum. -/
theorem fold_max_eq_sup {ι : Type} (s : Finset ι) (f : ι → EReal) (init : EReal) (hinit : init = ⊥) :
    Finset.fold (FloatOps.maximumf (F := Ideal) (φ := .f32)) init f s = s.sup f := by
  subst hinit
  rfl

/-- The maximum-reduction over the keys, from -∞, at row (b, h, i) of any array: the supremum of the row. -/
theorem reduce_max_row (y : FVec Ideal S4x16x2048x2048 .f32) (b : Fin 4) (h : Fin 16) (i : Fin 2048) :
    (Host.reduce (FloatOps.maximumf (F := Ideal) (φ := .f32)) y (val_main_cst_5 (F := Ideal))
        reducesTo_S4x16x2048x2048_S4x16x2048_d3 h_S_ (ix3 b h i) : EReal)
      = Finset.univ.sup (fun k : Fin 2048 => (y (ix4 b h i k) : EReal)) := by
  have hR : S4x16x2048x2048.Reduces [3] S4x16x2048 := by decide
  rw [Host.reduce_eq_fold_single (FloatOps.maximumf (F := Ideal) (φ := .f32)) y _ reducesTo_S4x16x2048x2048_S4x16x2048_d3 hR h_S_,
    fold_max_eq_sup _ _ _ (show val_main_cst_5 (F := Ideal) (Shape.Idx.first h_S_) = ⊥ from negInf)]
  have hf : (y ∘ hR.lift (ix3 b h i)) = fun k : Fin 2048 => y (ix4 b h i k) :=
    funext fun k => congrArg y (lift_row hR b h i k)
  exact congrArg (fun f => Finset.sup (Finset.univ : Finset (Fin 2048)) f) hf

/-- The row maximum: the supremum of the row's scores, and one more `max` with -∞ changes nothing. -/
theorem rowMax_apply (x : A3) (Wq : A2) (bq : A1) (Wk : A2) (bk : A1) (b : Fin 4) (h : Fin 16) (i : Fin 2048) :
    val_main_v33 (F := Ideal) x Wq bq Wk bk (ix3 b h i) = Cert.Spec.rowMax x Wq bq Wk bk b h i := by
  rw [val_main_v33_apply, val_main_v32_apply, val_main_cst_6_apply]
  unfold val_main_v31 Cert.Spec.rowMax
  rw [reduce_max_row]
  simp only [score_apply]
  rw [Ideal.maximumf_def, Ideal.ofBits_def, negInf, max_eq_right bot_le]

/-- The exponentials of the scores less the row maximum. -/
theorem expo_apply (x : A3) (Wq : A2) (bq : A1) (Wk : A2) (bk : A1) (b : Fin 4) (h : Fin 16) (i j : Fin 2048) :
    val_main_v37 (F := Ideal) x Wq bq Wk bk (ix4 b h i j) = Cert.Spec.expo x Wq bq Wk bk b h i j := by
  have e : idx_main_v34 (idx_main_v35 (ix4 b h i j)) = ix3 b h i := funext fun a => Fin.ext (by
    match a with
    | ⟨0, _⟩ => rfl
    | ⟨1, _⟩ => rfl
    | ⟨2, _⟩ => rfl)
  rw [val_main_v37_apply, val_main_v36_apply, val_main_v35_apply, val_main_v34_apply, e, rowMax_apply, score_apply]
  rfl

/-- The sum of a row's exponentials (the reduction starts from the zero word). -/
theorem denom_apply (x : A3) (Wq : A2) (bq : A1) (Wk : A2) (bk : A1) (b : Fin 4) (h : Fin 16) (i : Fin 2048) :
    val_main_v38 (F := Ideal) x Wq bq Wk bk (ix3 b h i) = Cert.Spec.denom x Wq bq Wk bk b h i := by
  have e : ∀ k : Fin 2048, idx_main_v38 (ix3 b h i) k = ix4 b h i k := fun k => funext fun a => Fin.ext (by
    match a with
    | ⟨0, _⟩ => rfl
    | ⟨1, _⟩ => rfl
    | ⟨2, _⟩ => rfl
    | ⟨3, _⟩ => rfl)
  rw [val_main_v38_apply, val_main_cst_7_apply]
  simp only [e, expo_apply]
  show (Ideal.ofBits .f32 0x00000000#32 : EReal) + _ = _
  rw [Ideal.ofBits_zero_f32, zero_add]
  rfl

/-- The softmax weights. -/
theorem weight_apply (x : A3) (Wq : A2) (bq : A1) (Wk : A2) (bk : A1) (b : Fin 4) (h : Fin 16) (i j : Fin 2048) :
    val_main_v41 (F := Ideal) x Wq bq Wk bk (ix4 b h i j) = Cert.Spec.weight x Wq bq Wk bk b h i j := by
  have e : idx_main_v39 (idx_main_v40 (ix4 b h i j)) = ix3 b h i := funext fun a => Fin.ext (by
    match a with
    | ⟨0, _⟩ => rfl
    | ⟨1, _⟩ => rfl
    | ⟨2, _⟩ => rfl)
  rw [val_main_v41_apply, val_main_v40_apply, val_main_v39_apply, e, denom_apply, expo_apply]
  rfl

end Cert.ReferenceIdeal.RefValue

end
-- ==== Proof.RefValue.lean ====
/-
  The reference's result read at an index: the weights against the values, the heads laid side by side again
  (feature `e` is coordinate `e % 64` of head `e / 64`), and the output projection. Index by index the reference
  computes the specification's function of its eight arguments.
-/
import proofs.«150942_j28054726378086_2_alg».proof.Proof.Spec
import proofs.«150942_j28054726378086_2_alg».proof.Proof.Gen.ReferenceIdeal.Read
import proofs.«150942_j28054726378086_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The attended values: the weights of row `i` against the value projection. -/
theorem ctx_apply (x : A3) (Wq : A2) (bq : A1) (Wk : A2) (bk : A1) (Wv : A2) (bv : A1)
    (b : Fin 4) (h : Fin 16) (i : Fin 2048) (d : Fin 64) :
    val_main_v42 (F := Ideal) x Wq bq Wk bk Wv bv (ix4 b h i d) = Cert.Spec.ctx x Wq bq Wk bk Wv bv b h i d := by
  have e1 : ∀ k : Fin 2048, lidx_main_v42 (ix4 b h i d) k = ix4 b h i k := fun k => funext fun a => Fin.ext (by
    match a with
    | ⟨0, _⟩ => rfl
    | ⟨1, _⟩ => rfl
    | ⟨2, _⟩ => rfl
    | ⟨3, _⟩ => rfl)
  have e2 : ∀ k : Fin 2048, ridx_main_v42 (ix4 b h i d) k = ix4 b h k d := fun k => funext fun a => Fin.ext (by
    match a with
    | ⟨0, _⟩ => rfl
    | ⟨1, _⟩ => rfl
    | ⟨2, _⟩ => rfl
    | ⟨3, _⟩ => rfl)
  rw [val_main_v42_apply, v17_eq]
  simp only [e1, e2, weight_apply, heads_apply]
  rfl

/-- The flat position of (b, n, e) in [4, 2048, 1024] is that of (b, n, e / 64, e % 64) in [4, 2048, 16, 64]; the
    transposition then reads head-major. -/
theorem merge_idx (b : Fin 4) (n : Fin 2048) (e : Fin 1024) :
    idx_main_v43 (idx_main_v44 (ix3 b n e))
      = ix4 b (⟨e.val / 64, by have := e.isLt; omega⟩ : Fin 16) n (⟨e.val % 64, Nat.mod_lt _ (by norm_num)⟩ : Fin 64) := by
  funext a
  apply Fin.ext
  have hb := b.isLt; have hn := n.isLt; have he := e.isLt
  match a with
  | ⟨0, _⟩ =>
    show ((b.val * 2048 + n.val) * 1024 + e.val) / 2097152 = b.val
    omega
  | ⟨1, _⟩ =>
    show ((b.val * 2048 + n.val) * 1024 + e.val) / 64 % 16 = e.val / 64
    omega
  | ⟨2, _⟩ =>
    show ((b.val * 2048 + n.val) * 1024 + e.val) / 1024 % 2048 = n.val
    omega
  | ⟨3, _⟩ =>
    show ((b.val * 2048 + n.val) * 1024 + e.val) % 64 = e.val % 64
    omega

/-- The result at (b, n, f). -/
theorem out_apply (x : A3) (Wq : A2) (bq : A1) (Wk : A2) (bk : A1) (Wv : A2) (bv : A1) (Wo : A2)
    (b : Fin 4) (n : Fin 2048) (f : Fin 1024) :
    val_main_v45 (F := Ideal) x Wq bq Wk bk Wv bv Wo (ix3 b n f) = Cert.Spec.out x Wq bq Wk bk Wv bv Wo b n f := by
  have e1 : ∀ k : Fin 1024, lidx_main_v45 (ix3 b n f) k = ix3 b n k := fun k => funext fun a => Fin.ext (by
    match a with
    | ⟨0, _⟩ => rfl
    | ⟨1, _⟩ => rfl
    | ⟨2, _⟩ => rfl)
  have e2 : ∀ k : Fin 1024, ridx_main_v45 (ix3 b n f) k = ix2 f k := fun k => funext fun a => Fin.ext (by
    match a with
    | ⟨0, _⟩ => rfl
    | ⟨1, _⟩ => rfl)
  rw [val_main_v45_apply]
  simp only [e1, e2, val_main_v44_apply, val_main_v43_apply, merge_idx, ctx_apply]
  rfl

/-- The reference's result, as a function of its eight arguments, is the specification. -/
theorem result_eq (x : A3) (Wq : A2) (bq : A1) (Wk : A2) (bk : A1) (Wv : A2) (bv : A1) (Wo : A2) :
    val_main_v45 (F := Ideal) x Wq bq Wk bk Wv bv Wo
      = fun i => Cert.Spec.out x Wq bq Wk bk Wv bv Wo (i 0) (i 1) (i 2) := by
  funext i
  obtain ⟨b, n, f, rfl⟩ : ∃ (b : Fin 4) (n : Fin 2048) (f : Fin 1024), i = ix3 b n f := ⟨i 0, i 1, i 2, eq_ix3 i⟩
  exact out_apply x Wq bq Wk bk Wv bv Wo b n f

/-- The run's result term is the specification at the arguments' launch contents. -/
theorem res_eq (m : (ℓ : Loc nD τ sig) → Buf (Elt Ideal) ℓ) (c : Dev nD) :
    Cert.ReferenceIdeal.Value.res_main_v45 m c
      = fun i => Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) (i 0) (i 1) (i 2) :=
  (val_main_v45_eq (F := Ideal) m c).trans (result_eq _ _ _ _ _ _ _ _)

end Cert.ReferenceIdeal.RefValue

end
-- ==== Proof.lean ====
/-
  Multi-head attention with two masked score entries (batch 4, 2048 positions, 1024 features, 16 heads of 64): a
  two-launch kernel program against its plain reference, over the extended reals.

  The kernel program first joins the three projection weights (transposed) and biases on the host, then runs a
  projection region that writes queries, keys and values per head, then an attention region whose grid runs over
  (batch, query tile, head) and which accumulates, head after head, each head's attended values through its 64 rows
  of the transposed output weight into the output tile. The reference computes the three projections, splits the
  heads, takes the scaled scores, sets the two masked entries, applies the stable softmax, and projects the joined
  heads through the output weight.

  Frames. Each kernel program's run (both regions' bodies run symbolically, the attention body once for head 0 and
  once for a later head) terminates without a fault and names every buffer's final contents as a fold through the
  program; read at the argument arrays, each ends as launched. The reference's frame is its run.
  Idealization. The ideal pass rewrote nothing.
  Values. Over the extended reals a change of float format is the identity, so both programs compute the same
  quantities: the kernel's result is the sixteen heads' contributions added in order onto zero, the reference's is
  one sum over the 1024 joined features; regrouping that sum by head and coordinate joins them. Every other step is
  the same formula on both sides, so the precondition is never opened.
-/
import proofs.«150942_j28054726378086_2_alg».proof.Defs
import proofs.«150942_j28054726378086_2_alg».proof.Proof.K.Run
import proofs.«150942_j28054726378086_2_alg».proof.Proof.KI.Final
import proofs.«150942_j28054726378086_2_alg».proof.Proof.RefValue
import proofs.«150942_j28054726378086_2_alg».proof.Proof.Gen.Kernel
import proofs.«150942_j28054726378086_2_alg».proof.Proof.Gen.KernelIdeal
import proofs.«150942_j28054726378086_2_alg».proof.Proof.Gen.ReferenceIdeal
import proofs.«150942_j28054726378086_2_alg».proof.Proof.Gen.ReferenceIdeal.Run
import proofs.«150942_j28054726378086_2_alg».proof.Proof.Gen.ReferenceIdeal.Read
import proofs.«150942_j28054726378086_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's output of arguments that agree. -/
theorem algebraic : Cert.algebraic_KernelIdeal_ReferenceIdeal := by
  intro m ρ m' ρ' _ hagree
  refine ⟨fun c => fun i => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2), ?_, ?_⟩
  · exact (θ_run Cert.KernelIdeal.defs _ _).mono (fun _ h c => ⟨(h c).1.trans (Cert.KernelIdeal.Hand.result_spec m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
